-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_20" .f32 0x3D4CCCCD#32 ((1 / 20 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x20 : Shape := ⟨2, ![4096, 20]⟩
abbrev S100000x128 : Shape := ⟨2, ![100000, 128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg0 : IVec S4096x20 32) (main_v13 : IVec S_ 1) (main_v15 : IVec S4096x20 1) (main_c_5 : IVec S_ 32) : IVec S_ 1 :=
  let main_v16 : IVec S4096x20 32 := broadcastInDim S4096x20 ![] bcast_S_S4096x20 main_c_5
  let main_v17 : IVec S4096x20 1 := cmpi .sle main_arg0 main_v16
  let main_v18 : IVec S4096x20 1 := andi main_v15 main_v17
  let main_c_6 : IVec S_ 1 := constantI S_ 1 1#1
  let main_v19 : IVec S_ 1 := (fun x v => Host.reduce IntOp.andi x v reducesTo_S4096x20_S_d0_1 h_S_) main_v18 main_c_6
  let main_v20 : IVec S_ 1 := andi main_v13 main_v19
  main_v20

def fn {F : FTy → Type} [FloatOps F] (main_arg0 : IVec S4096x20 32) (main_arg1 : FVec F S100000x128 .f32) (main_arg2 : FVec F S100000x128 .f32) (main_arg3 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S4096x20 32 := broadcastInDim S4096x20 ![] bcast_S_S4096x20 main_c_4
  let main_v15 : IVec S4096x20 1 := cmpi .sge main_arg0 main_v14
  let main_c_5 : IVec S_ 32 := constantI S_ 32 99999#32
  fn_part1 (F := F) main_arg0 main_v13 main_v15 main_c_5
-- ==== Kernel.lean ====
abbrev S4096x20 : Shape := ⟨2, ![4096, 20]⟩
abbrev S100000x128 : Shape := ⟨2, ![100000, 128]⟩
abbrev S100000 : Shape := ⟨1, ![100000]⟩
abbrev S81920 : Shape := ⟨1, ![81920]⟩
abbrev S81920x128 : Shape := ⟨2, ![81920, 128]⟩
abbrev S128 : Shape := ⟨1, ![128]⟩
abbrev S128x128 : Shape := ⟨2, ![128, 128]⟩
abbrev S_ : Shape := ⟨0, ![]⟩
abbrev S4096x128 : Shape := ⟨2, ![4096, 128]⟩
abbrev S10240x128 : Shape := ⟨2, ![10240, 128]⟩
abbrev S512x128 : Shape := ⟨2, ![512, 128]⟩
abbrev S512x20x128 : Shape := ⟨3, ![512, 20, 128]⟩
abbrev S100352 : Shape := ⟨1, ![100352]⟩
abbrev S1x100352 : Shape := ⟨2, ![1, 100352]⟩
abbrev S4096x100352 : Shape := ⟨2, ![4096, 100352]⟩
abbrev S1024x128 : Shape := ⟨2, ![1024, 128]⟩
abbrev S1x1024 : Shape := ⟨2, ![1, 1024]⟩
abbrev S4096x1024 : Shape := ⟨2, ![4096, 1024]⟩
abbrev S4096x100000 : Shape := ⟨2, ![4096, 100000]⟩

abbrev nBuf : Table → Nat
  | .hbm => 13
  | .local .tc .vmem => 11
  | .local .scVector .vmem => 2
  | _ => 0

abbrev bufTy : (tb : Table) → Fin (nBuf tb) → BufTy
  | .hbm, ⟨0, _⟩ => ⟨S4096x20, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S81920, .i32⟩
  | .hbm, ⟨5, _⟩ => ⟨S81920x128, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S100352, .f32⟩
  | .hbm, ⟨10, _⟩ => ⟨S1x100352, .f32⟩
  | .hbm, ⟨11, _⟩ => ⟨S4096x100352, .f32⟩
  | .hbm, ⟨12, _⟩ => ⟨S4096x100000, .f32⟩
  | .local .tc .vmem, ⟨0, _⟩ => ⟨S10240x128, .f32⟩
  | .local .tc .vmem, ⟨1, _⟩ => ⟨S10240x128, .f32⟩
  | .local .tc .vmem, ⟨2, _⟩ => ⟨S512x128, .f32⟩
  | .local .tc .vmem, ⟨3, _⟩ => ⟨S512x128, .f32⟩
  | .local .tc .vmem, ⟨4, _⟩ => ⟨S4096x128, .f32⟩
  | .local .tc .vmem, ⟨5, _⟩ => ⟨S1024x128, .f32⟩
  | .local .tc .vmem, ⟨6, _⟩ => ⟨S1024x128, .f32⟩
  | .local .tc .vmem, ⟨7, _⟩ => ⟨S1x1024, .f32⟩
  | .local .tc .vmem, ⟨8, _⟩ => ⟨S1x1024, .f32⟩
  | .local .tc .vmem, ⟨9, _⟩ => ⟨S4096x1024, .f32⟩
  | .local .tc .vmem, ⟨10, _⟩ => ⟨S4096x1024, .f32⟩
  | .local .scVector .vmem, ⟨0, _⟩ => ⟨S128, .i32⟩
  | .local .scVector .vmem, ⟨1, _⟩ => ⟨S128x128, .f32⟩
  | _, _ => ⟨S4096x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c20_i32 : BitVec 32 := 20#32
  let v3 : BitVec 32 := Scalar.addi c0_i32 c20_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c128_i32 : BitVec 32 := 128#32
  let v6 : BitVec 32 := Scalar.muli v5 c128_i32
  let v7 : BitVec 32 := Scalar.addi v2 v6
  ![v7.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c128_i32 : BitVec 32 := 128#32
  let v6 : BitVec 32 := Scalar.muli v5 c128_i32
  let v7 : BitVec 32 := Scalar.addi v2 v6
  let c0_i32_7_r1 : BitVec 32 := 0#32
  ![v7.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10240x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x20_S81920 : S4096x20.ShapeCasts S81920
  inb_S100000x128_S100000x128_0_0 : ∀ a, (![0, 0] : Fin 2 → Nat) a + S100000x128.size a ≤ S100000x128.size a
  gathers_S100000x128_S128x128 : S100000x128.Gathers 0 S128x128
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  shapeCasts_S10240x128_S512x20x128 : S10240x128.ShapeCasts S512x20x128
  reduces_S512x20x128_S512x128 : S512x20x128.Reduces [1] S512x128
  inb_S512x128_S512x128_0_0 : ∀ a, (![0, 0] : Fin 2 → Nat) a + S512x128.size a ≤ S512x128.size a
  h_S512x128 : 0 < S512x128.numel
  pads_S100000_S100352_03520 : S100000.Pads (![0] : Fin 1 → Nat) ![352] ![0] S100352
  h_S_ : 0 < S_.numel
  shapeCasts_S100352_S1x100352 : S100352.ShapeCasts S1x100352
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  slices_S4096x100352_S4096x100000_0_0 : S4096x100352.Slices ![0, 0] S4096x100000
  dot_S4096x128_S1024x128_S4096x1024_1_1_0_0_n_n_wf : DotDims.WF S4096x128 S1024x128 S4096x1024 [1] [1] [0] [0] [] []
  hcc0_scratch2 : 0 + S_.numel ≤ 14
  hcc0_scoped0 : 1 + S_.numel ≤ 14
  hcc0_scoped1 : 2 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128.size a ≤ S81920.size a
  k0_off2_inb : ∀ (i : grid0.Coords) (k0_t1 : Fin k0_t1_loop.trips), ∀ a, (k0_off2 i k0_t1) a + S128x128.size a ≤ S81920x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10240x128.size a ≤ S81920x128.size a
  hwx1_0 : ∀ i : grid1.Coords, EltTy.bits .f32 = 32 ∨ (Rect.block (s := S81920x128) S10240x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x128.size a < S100000x128.size a
  hwx2_1 : ∀ i : grid2.Coords, EltTy.bits .f32 = 32 ∨ (Rect.unit (s := S100000x128) (fun a => cc2_transform_1 i a * S1024x128.size a) (fun a => (Pipeline.Clip.of (cc2_transform_1 i a) (S1024x128.size a) (S100000x128.size a)).extent (S1024x128.size a)) fun a => Pipeline.Clip.inb (Pipeline.Clip.ok_of (hstart2_1 i a))).WholeWords (EltTy.packing .f32)
  hwxs2_1 : ∀ i : grid2.Coords, EltTy.bits .f32 = 32 ∨ (Rect.unit (s := S1024x128) (fun _ => 0) (fun a => (Pipeline.Clip.of (cc2_transform_1 i a) (S1024x128.size a) (S100000x128.size a)).extent (S1024x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x100352.size a
  hwx2_2 : ∀ i : grid2.Coords, EltTy.bits .f32 = 32 ∨ (Rect.block (s := S1x100352) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x100352.size a
  hwx2_3 : ∀ i : grid2.Coords, EltTy.bits .f32 = 32 ∨ (Rect.block (s := S4096x100352) S4096x1024.size (cc2_transform_3 i) (hinb2_3 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S4096x128_S1024x128_S4096x1024_1_1_0_0_n_n : DotDims S4096x128 S1024x128 S4096x1024 where
  lhsContracting := [1]
  rhsContracting := [1]
  lhsNonContracting := [0]
  rhsNonContracting := [0]
  lhsBatch := []
  rhsBatch := []
  wf := dot_S4096x128_S1024x128_S4096x1024_1_1_0_0_n_n_wf

abbrev win1_0 : Pipeline.Window sig grid1 :=
  Pipeline.Window.ofSpec (Memref.whole main_v1) S10240x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg2) S1024x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S4096x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x20 : Shape := ⟨2, ![4096, 20]⟩
abbrev S100000x128 : Shape := ⟨2, ![100000, 128]⟩
abbrev S100000 : Shape := ⟨1, ![100000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x128 : Shape := ⟨3, ![4096, 20, 128]⟩
abbrev S4096x128 : Shape := ⟨2, ![4096, 128]⟩
abbrev S128x100000 : Shape := ⟨2, ![128, 100000]⟩
abbrev S4096x100000 : Shape := ⟨2, ![4096, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S_, .i32⟩
  | .hbm, ⟨5, _⟩ => ⟨S4096x20, .i32⟩
  | .hbm, ⟨6, _⟩ => ⟨S4096x20, .i1⟩
  | .hbm, ⟨7, _⟩ => ⟨S_, .i32⟩
  | .hbm, ⟨8, _⟩ => ⟨S4096x20, .i32⟩
  | .hbm, ⟨9, _⟩ => ⟨S4096x20, .i32⟩
  | .hbm, ⟨10, _⟩ => ⟨S4096x20, .i32⟩
  | .hbm, ⟨11, _⟩ => ⟨S4096x20x1, .i32⟩
  | .hbm, ⟨12, _⟩ => ⟨S1, .i32⟩
  | .hbm, ⟨13, _⟩ => ⟨S_, .i32⟩
  | .hbm, ⟨14, _⟩ => ⟨S4096x20x1, .i32⟩
  | .hbm, ⟨15, _⟩ => ⟨S4096x20x1, .i1⟩
  | .hbm, ⟨16, _⟩ => ⟨S1x1x1, .i32⟩
  | .hbm, ⟨17, _⟩ => ⟨S4096x20x1, .i32⟩
  | .hbm, ⟨18, _⟩ => ⟨S4096x20x1, .i1⟩
  | .hbm, ⟨19, _⟩ => ⟨S4096x20x1, .i1⟩
  | .hbm, ⟨20, _⟩ => ⟨S_, .i1⟩
  | .hbm, ⟨21, _⟩ => ⟨S4096x20, .i1⟩
  | .hbm, ⟨22, _⟩ => ⟨S4096x20x128, .f32⟩
  | .hbm, ⟨23, _⟩ => ⟨S4096x20x128, .i1⟩
  | .hbm, ⟨24, _⟩ => ⟨S_, .f32⟩
  | .hbm, ⟨25, _⟩ => ⟨S4096x20x128, .f32⟩
  | .hbm, ⟨26, _⟩ => ⟨S4096x20x128, .f32⟩
  | .hbm, ⟨27, _⟩ => ⟨S_, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S128x100000, .f32⟩
  | .hbm, ⟨33, _⟩ => ⟨S4096x100000, .f32⟩
  | .hbm, ⟨34, _⟩ => ⟨S1x100000, .f32⟩
  | .hbm, ⟨35, _⟩ => ⟨S4096x100000, .f32⟩
  | .hbm, ⟨36, _⟩ => ⟨S4096x100000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  bcast_S4096x20_S4096x20x128_0_1 : S4096x20.BroadcastsInDim S4096x20x128 (![0, 1] : Fin 2 → Fin S4096x20x128.rank)
  bcast_S_S4096x20x128 : S_.BroadcastsInDim S4096x20x128 (![] : Fin 0 → Fin S4096x20x128.rank)
  reducesTo_S4096x20x128_S4096x128_d1 : S4096x20x128.ReducesTo [1] S4096x128
  bcast_S_S4096x128 : S_.BroadcastsInDim S4096x128 (![] : Fin 0 → Fin S4096x128.rank)
  transposes_S100000x128_S128x100000_1_0 : S100000x128.Transposes [1, 0] S128x100000
  bcast_S100000_S1x100000_1 : S100000.BroadcastsInDim S1x100000 (![1] : Fin 1 → Fin S1x100000.rank)
  bcast_S1x100000_S4096x100000_0_1 : S1x100000.BroadcastsInDim S4096x100000 (![0, 1] : Fin 2 → Fin S4096x100000.rank)
  gather_S100000x128_S4096x20x1_S4096x20x128_2_0_n_n_0_2_1128_wf : GatherDims.WF S100000x128 S4096x20x1 S4096x20x128 [2] [0] [] [0] [] 2 ![1, 128]
  dot_S4096x128_S128x100000_S4096x100000_1_0_0_1_n_n_wf : DotDims.WF S4096x128 S128x100000 S4096x100000 [1] [0] [0] [1] [] []

variable [Facts₀]

def gather_S100000x128_S4096x20x1_S4096x20x128_2_0_n_n_0_2_1128 : GatherDims S100000x128 S4096x20x1 S4096x20x128 where
  offsetDims := [2]
  collapsedSliceDims := [0]
  operandBatchingDims := []
  startIndicesBatchingDims := []
  startIndexMap := [0]
  indexVectorDim := 2
  sliceSizes := ![1, 128]
  wf := gather_S100000x128_S4096x20x1_S4096x20x128_2_0_n_n_0_2_1128_wf
def dot_S4096x128_S128x100000_S4096x100000_1_0_0_1_n_n : DotDims S4096x128 S128x100000 S4096x100000 where
  lhsContracting := [1]
  rhsContracting := [0]
  lhsNonContracting := [0]
  rhsNonContracting := [1]
  lhsBatch := []
  rhsBatch := []
  wf := dot_S4096x128_S128x100000_S4096x100000_1_0_0_1_n_n_wf

class Facts : Prop extends Facts₀ where

variable [Facts]
-- ==== Proof.PreDecode.lean ====
/-
  The integer half of the precondition, read back.

  The printed predicate is a conjunction of four `jnp.all`s; the last is over the 4096 × 20 index words and
  says of each word v, read signed, 0 ≤ v and v ≤ 99999. A word with both properties has its top bit clear,
  so its unsigned value is its signed value and is below 100000. Nothing here depends on the float instance:
  the three float conjuncts are dropped unopened.
-/
import proofs.«204109_g84920093377010_cont_9to1_m_793_20_alg».proof.Proof.Gen.Pre_input_domain
import Idealize.ShloMosaic.Lib.ReduceAll
import Idealize.ShloMosaic.Lib.ValueIdx

namespace Cert.PreDecode

open Idealize.ShloMosaic
open Cert.Pre_input_domain

/-- The rank-0 shape has one index. -/
instance : Subsingleton S_.Idx := ⟨fun a b => funext fun d => d.elim0⟩

/-- A 32-bit word that is, read signed, at least 0 and at most 99999 is below 100000 read unsigned, and
    nonnegative read signed. -/
theorem word_range (v : BitVec 32) (h0 : IntOp.cmpi .sge v 0#32 = 1#1) (h1 : IntOp.cmpi .sle v 99999#32 = 1#1) :
    v.toNat < 100000 ∧ 0 ≤ v.toInt := by
  rw [IntOp.cmpi_sge, show (0#32 : BitVec 32).toInt = 0 from by decide] at h0
  rw [IntOp.cmpi_sle, show (99999#32 : BitVec 32).toInt = 99999 from by decide] at h1
  refine ⟨?_, h0⟩
  rw [BitVec.toInt_eq_toNat_cond] at h0 h1
  split at h0 <;> omega

variable {F : FTy → Type} [FloatOps F]

/-- Under the printed precondition every index word is, read signed, in [0, 99999]. -/
theorem index_range (x : IVec S4096x20 32) (emb W : FVec F S100000x128 .f32) (b : FVec F S100000 .f32)
    (h : Cert.Pre_input_domain.fn (F := F) x emb W b = fun _ => 1#1) (i : S4096x20.Idx) :
    (x i).toNat < 100000 ∧ 0 ≤ (x i).toInt := by
  have e := congrFun h ValueIdx.ix0
  dsimp only [Cert.Pre_input_domain.fn, Cert.Pre_input_domain.fn_part1] at e
  have e2 := (IntOp.andi_eq_one.1 e).2
  have e3 := Host.reduce_andi_all _ _ _ _ _ e2 i
  obtain ⟨h0, h1⟩ := IntOp.andi_eq_one.1 e3
  exact word_range (x i) h0 h1

/-- Under the printed precondition every index word, read unsigned, names a row of the 100000-row table. -/
theorem index_lt (x : IVec S4096x20 32) (emb W : FVec F S100000x128 .f32) (b : FVec F S100000 .f32)
    (h : Cert.Pre_input_domain.fn (F := F) x emb W b = fun _ => 1#1) :
    ∀ i : S4096x20.Idx, (x i).toNat < 100000 :=
  fun i => (index_range x emb W b h i).1

/-- The same words are nonnegative read signed. -/
theorem index_nonneg (x : IVec S4096x20 32) (emb W : FVec F S100000x128 .f32) (b : FVec F S100000 .f32)
    (h : Cert.Pre_input_domain.fn (F := F) x emb W b = fun _ => 1#1) :
    ∀ i : S4096x20.Idx, 0 ≤ (x i).toInt :=
  fun i => (index_range x emb W b h i).2

end Cert.PreDecode
-- ==== Proof.RefRun.lean ====
/-
  The reference program's run, read back.

  The reference is a straight line of host operations: the call of the outlined lookup (its body, which itself
  calls the outlined three-way select, unfolded at the call over the call's own buffers), then the sum over the
  twenty looked-up rows, the division by twenty, the transpose of the weight matrix, the contraction, the bias
  broadcast twice and the final sum. `ops` is that line as a list; `refOut` is the same line as one pure term
  of the four argument arrays, its stages named; `run` says every weakly fair execution ends with the result
  buffer at `refOut` of the launch contents and the arguments unchanged.
-/
import proofs.«204109_g84920093377010_cont_9to1_m_793_20_alg».proof.Defs
import proofs.«204109_g84920093377010_cont_9to1_m_793_20_alg».proof.Proof.Gen.ReferenceIdeal
import proofs.«204109_g84920093377010_cont_9to1_m_793_20_alg».proof.Proof.Gen.Pre_input_domain
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The stages as pure terms -/

/-- The index words after the negative wrap: a word that reads negative is replaced by itself plus 100000. -/
def wrapped (x : IVec S4096x20 32) : IVec S4096x20 32 :=
  select (cmpi .slt x (broadcastInDim S4096x20 ![] bcast_S_S4096x20 (constantI S_ 32 0#32)))
    (addi x (broadcastInDim S4096x20 ![] bcast_S_S4096x20 (constantI S_ 32 100000#32))) x

/-- The wrapped words as a 4096 × 20 × 1 array of index vectors of length one. -/
def idx3 (x : IVec S4096x20 32) : IVec S4096x20x1 32 :=
  broadcastInDim S4096x20x1 ![0, 1] bcast_S4096x20_S4096x20x1_0_1 (wrapped x)

/-- The in-range mask: 1 where the wrapped word, read signed, is in [0, 99999]. -/
def inRange (x : IVec S4096x20 32) : IVec S4096x20 1 :=
  Host.reduce IntOp.andi
    (andi (cmpi .sge (idx3 x) (broadcastInDim S4096x20x1 ![] bcast_S_S4096x20x1 (constantI S_ 32 0#32)))
      (cmpi .sle (idx3 x) (broadcastInDim S4096x20x1 ![0, 1, 2] bcast_S1x1x1_S4096x20x1_0_1_2
        (broadcastInDim S1x1x1 ![2] bcast_S1_S1x1x1_2 (constantI S1 32 99999#32)))))
    (constantI S_ 1 1#1) reducesTo_S4096x20x1_S4096x20_d2 h_S_

/-- The looked-up rows: the gather where the mask is 1, the quiet-NaN literal elsewhere. -/
def taken (x : IVec S4096x20 32) (emb : FVec F S100000x128 .f32) : FVec F S4096x20x128 .f32 :=
  select (broadcastInDim S4096x20x128 ![0, 1] bcast_S4096x20_S4096x20x128_0_1 (inRange x))
    (Host.gather gather_S100000x128_S4096x20x1_S4096x20x128_2_0_n_n_0_2_1128 emb (idx3 x))
    (broadcastInDim S4096x20x128 ![] bcast_S_S4096x20x128 (constant S_ .f32 0x7FC00000#32))

/-- The mean over the twenty looked-up rows: their sum from zero, divided by the literal 20.0. -/
def meanRows (x : IVec S4096x20 32) (emb : FVec F S100000x128 .f32) : FVec F S4096x128 .f32 :=
  Host.divf (Host.reduceAdd (taken x emb) (constant S_ .f32 0x00000000#32) reducesTo_S4096x20x128_S4096x128_d1 h_S_)
    (broadcastInDim S4096x128 ![] bcast_S_S4096x128 (constant S_ .f32 0x41A00000#32))

/-- The reference's result as one term of its four arguments: the mean rows against the transposed weight
    matrix, plus the bias broadcast along the rows. -/
def refOut (x : IVec S4096x20 32) (emb W : FVec F S100000x128 .f32) (b : FVec F S100000 .f32) : FVec F S4096x100000 .f32 :=
  addf
    (Host.dotGeneral dot_S4096x128_S128x100000_S4096x100000_1_0_0_1_n_n none (meanRows x emb)
      (transpose S128x100000 [1, 0] W transposes_S100000x128_S128x100000_1_0))
    (broadcastInDim S4096x100000 ![0, 1] bcast_S1x100000_S4096x100000_0_1
      (broadcastInDim S1x100000 ![1] bcast_S100000_S1x100000_1 b))

/-! ## The operations -/

/-- @main's operations in order, the call unfolded: the lookup's twenty-four (six before its own call of the
    three-way select, that select, seventeen after) into the call's buffers, then @main's own eleven. -/
abbrev ops : List (HloOp τ sig (Elt F)) :=
  [ TRef.nullary main_call0.c (constantI S_ 32 0#32),
    TRef.unary main_call0.c main_call0.v0 (broadcastInDim S4096x20 ![] bcast_S_S4096x20),
    TRef.binary (.of main_arg0) main_call0.v0 main_call0.v1 (cmpi .slt),
    TRef.nullary main_call0.c_0 (constantI S_ 32 100000#32),
    TRef.unary main_call0.c_0 main_call0.v2 (broadcastInDim S4096x20 ![] bcast_S_S4096x20),
    TRef.binary (.of main_arg0) main_call0.v2 main_call0.v3 addi,
    TRef.ternary main_call0.v1 main_call0.v3 (.of main_arg0) main_call0.call0.v0 select,
    TRef.unary main_call0.call0.v0 main_call0.v5 (broadcastInDim S4096x20x1 ![0, 1] bcast_S4096x20_S4096x20x1_0_1),
    TRef.nullary main_call0.c_1 (constantI S1 32 99999#32),
    TRef.nullary main_call0.c_2 (constantI S_ 32 0#32),
    TRef.unary main_call0.c_2 main_call0.v6 (broadcastInDim S4096x20x1 ![] bcast_S_S4096x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x20x1 ![0, 1, 2] bcast_S1x1x1_S4096x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x20x1_S4096x20_d2 h_S_),
    TRef.binary (.of main_arg1) main_call0.v5 main_call0.v13 (fun x i => Host.gather gather_S100000x128_S4096x20x1_S4096x20x128_2_0_n_n_0_2_1128 x i),
    TRef.unary main_call0.v12 main_call0.v14 (broadcastInDim S4096x20x128 ![0, 1] bcast_S4096x20_S4096x20x128_0_1),
    TRef.nullary main_call0.cst (constant S_ .f32 0x7FC00000#32),
    TRef.unary main_call0.cst main_call0.v15 (broadcastInDim S4096x20x128 ![] bcast_S_S4096x20x128),
    TRef.ternary main_call0.v14 main_call0.v13 main_call0.v15 main_call0.v16 select,
    nullary main_cst (constant S_ .f32 0x00000000#32),
    binary main_v0 main_cst main_v1 ((fun x v => Host.reduceAdd x v reducesTo_S4096x20x128_S4096x128_d1 h_S_) : (⟨S4096x20x128, .f32⟩ : BufTy).Contents (Elt F) → (⟨S_, .f32⟩ : BufTy).Contents (Elt F) → (⟨S4096x128, .f32⟩ : BufTy).Contents (Elt F)),
    nullary main_cst_0 (constant S_ .f32 0x41A00000#32),
    unary main_cst_0 main_v2 (broadcastInDim S4096x128 ![] bcast_S_S4096x128 : (⟨S_, .f32⟩ : BufTy).Contents (Elt F) → (⟨S4096x128, .f32⟩ : BufTy).Contents (Elt F)),
    binary main_v1 main_v2 main_v3 (Host.divf : (⟨S4096x128, .f32⟩ : BufTy).Contents (Elt F) → (⟨S4096x128, .f32⟩ : BufTy).Contents (Elt F) → (⟨S4096x128, .f32⟩ : BufTy).Contents (Elt F)),
    unary main_arg2 main_v4 ((transpose S128x100000 [1, 0] · transposes_S100000x128_S128x100000_1_0) : (⟨S100000x128, .f32⟩ : BufTy).Contents (Elt F) → (⟨S128x100000, .f32⟩ : BufTy).Contents (Elt F)),
    binary main_v3 main_v4 main_v5 ((fun l r => Host.dotGeneral dot_S4096x128_S128x100000_S4096x100000_1_0_0_1_n_n none l r) : (⟨S4096x128, .f32⟩ : BufTy).Contents (Elt F) → (⟨S128x100000, .f32⟩ : BufTy).Contents (Elt F) → (⟨S4096x100000, .f32⟩ : BufTy).Contents (Elt F)),
    unary main_arg3 main_v6 (broadcastInDim S1x100000 ![1] bcast_S100000_S1x100000_1 : (⟨S100000, .f32⟩ : BufTy).Contents (Elt F) → (⟨S1x100000, .f32⟩ : BufTy).Contents (Elt F)),
    unary main_v6 main_v7 (broadcastInDim S4096x100000 ![0, 1] bcast_S1x100000_S4096x100000_0_1 : (⟨S1x100000, .f32⟩ : BufTy).Contents (Elt F) → (⟨S4096x100000, .f32⟩ : BufTy).Contents (Elt F)),
    binary main_v5 main_v7 main_v8 (addf : (⟨S4096x100000, .f32⟩ : BufTy).Contents (Elt F) → (⟨S4096x100000, .f32⟩ : BufTy).Contents (Elt F) → (⟨S4096x100000, .f32⟩ : BufTy).Contents (Elt F)) ]

-- thirty-odd binds re-associated: the rewrite under the chain recurses once per statement
set_option maxRecDepth 1024 in
/-- @main is that straight line: the two outlined functions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub ..⟩

/-! ## The fold at the result and at the arguments -/

attribute [local irreducible] Host.reduce Host.gather Host.reduceAdd in
set_option maxRecDepth 8192 in
/-- The fold of the operations at the result buffer is `refOut` of the argument buffers' contents: each
    operation's result is rewritten at its own buffer to its function's value and passed over at every other
    buffer, and the typed references' casts are the identity at these literal references. The reductions and
    the gather stay folded: the equation never looks inside them. -/
theorem out_eq (V : Valuation τ sig (Elt F)) :
    after ops V (main_v8 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-! ## The run -/

/-- On every device, for any float values, from any memory with zero counters: every weakly fair execution of
    @main terminates with the result buffer at `refOut` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v8)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

/-- The reference's frame: the run with the value dropped. The precondition is not used. -/
theorem frame_ri : Cert.frame_ReferenceIdeal (hReferenceIdeal := Cert.ReferenceIdeal.Gen.facts)
    (hPre_input_domain := Cert.Pre_input_domain.Gen.facts) := fun m ρ _ =>
  (θ_run (Cert.ReferenceIdeal.defs (F := Ideal)) _ _).mono (fun _ h c => (h c).2) (run (F := Ideal) m ρ)

end Cert.ReferenceIdeal.RefRun

end
-- ==== Proof.Spec.lean ====
/-
  The function both programs compute, written once over plain index types and importing no program.

  Inputs: a 4096 × 20 array of 32-bit index words, a 100000 × 128 table, a 100000 × 128 weight matrix and a
  length-100000 bias, the three float arrays read as extended reals. An index word names the table row of its
  unsigned value (capped at the last row, so that the function is total; under the certificate's
  precondition every word is at most 99999 and the cap is never met). The result at (r, v) is

      Σ_e ( (Σ_j table[row x[r, j], e]) · (1/20) ) · W[v, e]  +  b[v],

  the mean of the twenty looked-up rows of sample r, projected on row v of W, plus the bias. The two
  intermediate arrays are named as well: the flat lookup (81920 × 128, row i the table row named by the
  i-th word of x in row-major order) and the pooled rows (4096 × 128).
-/
import Idealize.ShloMosaic.PureOps.Ideal
import Idealize.ShloMosaic.Lib.ValueIdx

noncomputable section

open scoped BigOperators

namespace Cert.Spec

open Idealize.ShloMosaic Idealize.ShloMosaic.ValueIdx

/-- The table row an index word names: its unsigned value, capped at the last row. -/
def row (w : BitVec 32) : Fin 100000 := ⟨min w.toNat 99999, by omega⟩

theorem row_val_of_lt {w : BitVec 32} (h : w.toNat < 100000) : (row w).val = w.toNat := by
  show min w.toNat 99999 = w.toNat
  omega

/-- Entry (i, e) of the flat lookup: column e of the table row named by the i-th index word. -/
def gathered (xf : (⟨1, ![81920]⟩ : Shape).Idx → BitVec 32) (emb : (⟨2, ![100000, 128]⟩ : Shape).Idx → EReal)
    (i : Fin 81920) (e : Fin 128) : EReal :=
  emb (ix2 (row (xf (ix1 i))) e)

/-- Entry (r, e) of the pooled rows: the sum of the twenty looked-up rows of sample r at column e, times 1/20. -/
def pooled (x : (⟨2, ![4096, 20]⟩ : Shape).Idx → BitVec 32) (emb : (⟨2, ![100000, 128]⟩ : Shape).Idx → EReal)
    (r : Fin 4096) (e : Fin 128) : EReal :=
  (∑ j : Fin 20, emb (ix2 (row (x (ix2 r j))) e)) * ((1 / 20 : ℝ) : EReal)

/-- Entry (r, v) of the result: the pooled row r against row v of W, plus the bias at v. -/
def logit (x : (⟨2, ![4096, 20]⟩ : Shape).Idx → BitVec 32) (emb W : (⟨2, ![100000, 128]⟩ : Shape).Idx → EReal)
    (b : (⟨1, ![100000]⟩ : Shape).Idx → EReal) (r : Fin 4096) (v : Fin 100000) : EReal :=
  (∑ e : Fin 128, pooled x emb r e * W (ix2 v e)) + b (ix1 v)

/-- The whole result array. -/
def G (x : (⟨2, ![4096, 20]⟩ : Shape).Idx → BitVec 32) (emb W : (⟨2, ![100000, 128]⟩ : Shape).Idx → EReal)
    (b : (⟨1, ![100000]⟩ : Shape).Idx → EReal) : (⟨2, ![4096, 100000]⟩ : Shape).Idx → EReal :=
  fun i => logit x emb W b ⟨(i 0).val, idx2_lt0 i⟩ ⟨(i 1).val, idx2_lt1 i⟩

theorem G_apply (x : (⟨2, ![4096, 20]⟩ : Shape).Idx → BitVec 32) (emb W : (⟨2, ![100000, 128]⟩ : Shape).Idx → EReal)
    (b : (⟨1, ![100000]⟩ : Shape).Idx → EReal) (r : Fin 4096) (v : Fin 100000) :
    G x emb W b (ix2 r v) = logit x emb W b r v := rfl

end Cert.Spec

end
-- ==== Proof.LibGatherRow.lean ====
/-
  A row lookup read at an index.

  A table with N rows of D entries is looked up through an index array of shape R × C × 1: entry (r, c, k) of the
  result is entry k of the table's row number idx[r, c, 0], that number read as a signed integer and clamped into
  [0, N − 1]. This is the gather with one offset axis (the last), the row axis collapsed, the index vector on the
  trailing unit axis and slices of one whole row: what a lookup of rows by an integer array lowers to.
-/
import Idealize.ShloMosaic.Lib.ValueIdx

namespace Idealize.ShloMosaic.ValueIdx

section RowLookup

variable {α : Type}

/-- The dimension numbers of a lookup of whole rows of an N × D table through an R × C × 1 index array. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The lookup read at (r, c, k): entry k of the table's row idx[r, c, 0], read signed and clamped into
    [0, N − 1]. -/
theorem gather_row_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowDims N D R C wf) x idx (ix3 r c k)
      = x (ix2 ⟨min (idx (ix3 r c (⟨0, Nat.one_pos⟩ : Fin 1))).toInt.toNat (N - 1), by omega⟩ k) := by
  unfold Host.gather
  congr 1
  funext a
  refine Fin.ext ?_
  show (rowDims N D R C wf).start (ix3 r c k) idx a + (rowDims N D R C wf).batchCoord (ix3 r c k) a
      + (rowDims N D R C wf).offCoord (ix3 r c k) a = _
  rw [GatherDims.batchCoord_eq_zero _ _ _ List.not_mem_nil]
  have ha : a = (0 : Fin 2) ∨ a = (1 : Fin 2) := by
    rcases a with ⟨v, hv⟩
    have hv2 : v < 2 := hv
    rcases v with _ | _ | v
    · exact .inl rfl
    · exact .inr rfl
    · omega
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c k) ⟨List.idxOf (0 : Fin 2) (rowDims N D R C wf).startIndexMap,
        List.idxOf_lt_length_iff.2 (List.mem_singleton.mpr rfl)⟩ = ix3 r c (⟨0, Nat.one_pos⟩ : Fin 1) := by
      funext b; refine Fin.ext ?_
      match b with
      | ⟨0, _⟩ => rfl
      | ⟨1, _⟩ => rfl
      | ⟨2, _⟩ => rfl
    rw [hsi]
    rfl
  · have h10 : (1 : Fin 2) ∉ ([0] : List (Fin 2)) := by
      intro h
      exact absurd (congrArg Fin.val (List.mem_singleton.mp h)) (by decide)
    have hst : (rowDims N D R C wf).start (ix3 r c k) idx (1 : Fin 2) = 0 := by
      unfold GatherDims.start
      exact dif_neg h10
    rw [hst]
    have hk : (1 : Fin 2) ∈ (rowDims N D R C wf).sKept := by
      rw [GatherDims.mem_sKept]; exact ⟨h10, List.not_mem_nil⟩
    unfold GatherDims.offCoord
    rw [dif_pos hk]
    simp only [Nat.zero_add]
    rfl

end RowLookup

end Idealize.ShloMosaic.ValueIdx
-- ==== Proof.RefValue.lean ====
/-
  The reference's result, read index by index at the exact (extended-real) values.

  Under the range hypothesis on the index words (each below 100000 read unsigned) the lookup's three guards are
  all inert: a word in range is not negative, so the negative wrap keeps it; it is in [0, 99999], so the mask
  is 1 everywhere and the quiet-NaN filler is never read; and the gather's own clamp into [0, 99999] is the
  identity on it. What is left is the table row the word names. The sum over the twenty rows starts from the
  zero word, the division by the literal 20.0 is the product with 1/20, the contraction against the transposed
  weight matrix is a sum over the 128 columns, and the bias is read at the output column.
-/
import proofs.«204109_g84920093377010_cont_9to1_m_793_20_alg».proof.Proof.RefRun
import proofs.«204109_g84920093377010_cont_9to1_m_793_20_alg».proof.Proof.Spec
import proofs.«204109_g84920093377010_cont_9to1_m_793_20_alg».proof.Proof.LibGatherRow
import Idealize.ShloMosaic.Lib.StackMember
import Idealize.ShloMosaic.Lib.ValueLayout
import Idealize.ShloMosaic.Lib.IdealHost
import Idealize.ShloMosaic.Lib.Affine

noncomputable section

open scoped BigOperators

namespace Cert.ReferenceIdeal.RefValue

open Cert.ReferenceIdeal Cert.ReferenceIdeal.RefRun Idealize.ShloMosaic Idealize.ShloMosaic.ValueIdx Idealize.SL.Sem
open Cert.ReferenceIdeal.Facts₀

/-! ## Words in range -/

/-- A word below 100000 has its top bit clear: it reads the same signed and unsigned. -/
theorem toInt_of_lt {v : BitVec 32} (h : v.toNat < 100000) : v.toInt = (v.toNat : Int) :=
  BitVec.toInt_eq_toNat_of_lt (by omega)

/-- Such a word is not negative: the signed comparison with zero is 0. -/
theorem slt_zero_of_lt {v : BitVec 32} (h : v.toNat < 100000) : IntOp.cmpi .slt v 0#32 = 0#1 := by
  apply eq_zero_of_ne_one
  rw [IntOp.cmpi_slt, toInt_of_lt h, show (0#32 : BitVec 32).toInt = 0 from by decide]
  omega

/-- Such a word passes both range comparisons. -/
theorem in_range_of_lt {v : BitVec 32} (h : v.toNat < 100000) :
    IntOp.andi (IntOp.cmpi .sge v 0#32) (IntOp.cmpi .sle v 99999#32) = 1#1 := by
  refine IntOp.andi_eq_one.2 ⟨IntOp.cmpi_sge.2 ?_, IntOp.cmpi_sle.2 ?_⟩
  · rw [toInt_of_lt h, show (0#32 : BitVec 32).toInt = 0 from by decide]; omega
  · rw [toInt_of_lt h, show (99999#32 : BitVec 32).toInt = 99999 from by decide]; omega

/-- The gather's clamp of such a word is the row the word names. -/
theorem clamp_eq_row {v : BitVec 32} (h : v.toNat < 100000) (hb : min v.toInt.toNat (100000 - 1) < 100000) :
    (⟨min v.toInt.toNat (100000 - 1), hb⟩ : Fin 100000) = Cert.Spec.row v := by
  apply Fin.ext
  show min v.toInt.toNat (100000 - 1) = min v.toNat 99999
  have := toInt_of_lt h
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi (1#1) (1#1) = 1#1 from by decide]
    exact foldl_andi_one f l fun n hn => h n (List.mem_cons.2 (Or.inr hn))

/-- A reduction by `and` from the initial value 1 of an array that is 1 everywhere is 1 everywhere. -/
theorem reduce_andi_one {s t u : Shape} {axes : List (Fin s.rank)} (y : s.Idx → BitVec 1) (init : u.Idx → BitVec 1)
    (h : s.ReducesTo axes t) (hu : 0 < u.numel) (j : t.Idx) (hinit : init (Shape.Idx.first hu) = 1#1)
    (hy : ∀ i, y i = 1#1) : Host.reduce IntOp.andi y init h hu j = 1#1 := by
  rw [Host.reduce_eq_foldl, hinit]
  exact foldl_andi_one y _ fun n _ => hy n

/-! ## The lookup -/

/-- The negative wrap keeps a word in range. -/
theorem wrapped_apply (x : IVec S4096x20 32) (i : S4096x20.Idx) (h : (x i).toNat < 100000) : wrapped x i = x i := by
  show Scalar.select (IntOp.cmpi .slt (x i) 0#32) (IntOp.addi (x i) 100000#32) (x i) = x i
  rw [slt_zero_of_lt h, select_zero]

/-- The index vector at (r, c) is the wrapped word at (r, c). -/
theorem idx3_apply (x : IVec S4096x20 32) (r : Fin 4096) (c : Fin 20) (z : Fin 1) :
    idx3 x (ix3 r c z) = wrapped x (ix2 r c) := by
  unfold idx3
  exact broadcastInDim_apply _ _ _ _ (ix2 r c) fun a => match a with
    | ⟨0, _⟩ => (if_neg (by show ¬((4096 : ℕ) = 1); decide)).symm
    | ⟨1, _⟩ => (if_neg (by show ¬((20 : ℕ) = 1); decide)).symm

/-- Under the range hypothesis the mask is 1 everywhere. -/
theorem inRange_apply (x : IVec S4096x20 32) (hx : ∀ i, (x i).toNat < 100000) (i : S4096x20.Idx) : inRange x i = 1#1 := by
  unfold inRange
  refine reduce_andi_one _ _ _ _ _ rfl fun i3 => ?_
  obtain ⟨r, c, z, rfl⟩ : ∃ (r : Fin 4096) (c : Fin 20) (z : Fin 1), i3 = ix3 r c z := ⟨i3 0, i3 1, i3 2, eq_ix3 i3⟩
  show IntOp.andi (IntOp.cmpi .sge (idx3 x (ix3 r c z)) 0#32) (IntOp.cmpi .sle (idx3 x (ix3 r c z)) 99999#32) = 1#1
  rw [idx3_apply, wrapped_apply x _ (hx _)]
  exact in_range_of_lt (hx _)

/-- The mask broadcast along the row entries reads the mask at (r, c). -/
theorem mask_bcast_apply (m : IVec S4096x20 1) (r : Fin 4096) (c : Fin 20) (k : Fin 128) :
    broadcastInDim S4096x20x128 ![0, 1] bcast_S4096x20_S4096x20x128_0_1 m (ix3 r c k) = m (ix2 r c) :=
  broadcastInDim_apply _ _ _ _ (ix2 r c) fun a => match a with
    | ⟨0, _⟩ => (if_neg (by show ¬((4096 : ℕ) = 1); decide)).symm
    | ⟨1, _⟩ => (if_neg (by show ¬((20 : ℕ) = 1); decide)).symm

/-- The gather at (r, c, k): entry k of the table row named by the index vector at (r, c), read signed and
    clamped into [0, 99999]. -/
theorem gather_apply {α : Type} (emb : S100000x128.Idx → α) (idx : IVec S4096x20x1 32) (r : Fin 4096) (c : Fin 20)
    (k : Fin 128) :
    Host.gather gather_S100000x128_S4096x20x1_S4096x20x128_2_0_n_n_0_2_1128 emb idx (ix3 r c k)
      = emb (ix2 ⟨min (idx (ix3 r c (⟨0, Nat.one_pos⟩ : Fin 1))).toInt.toNat (100000 - 1), by omega⟩ k) :=
  gather_row_apply (N := 100000) (D := 128) (R := 4096) (C := 20) (by decide)
    gather_S100000x128_S4096x20x1_S4096x20x128_2_0_n_n_0_2_1128_wf emb idx r c k

/-- When the index vector at (r, c) is a word in range, the gather at (r, c, k) is entry k of the row it names. -/
theorem gather_row {α : Type} (emb : S100000x128.Idx → α) (idx : IVec S4096x20x1 32) (r : Fin 4096) (c : Fin 20)
    (k : Fin 128) (v : BitVec 32) (hv : idx (ix3 r c (⟨0, Nat.one_pos⟩ : Fin 1)) = v) (h : v.toNat < 100000) :
    Host.gather gather_S100000x128_S4096x20x1_S4096x20x128_2_0_n_n_0_2_1128 emb idx (ix3 r c k)
      = emb (ix2 (Cert.Spec.row v) k) := by
  subst hv
  rw [gather_apply, clamp_eq_row h]

/-- Under the range hypothesis the looked-up entry (r, c, k) is entry k of the table row the word at (r, c) names. -/
theorem taken_apply (x : IVec S4096x20 32) (hx : ∀ i, (x i).toNat < 100000) (emb : FVec Ideal S100000x128 .f32)
    (r : Fin 4096) (c : Fin 20) (k : Fin 128) :
    taken (F := Ideal) x emb (ix3 r c k) = emb (ix2 (Cert.Spec.row (x (ix2 r c))) k) := by
  unfold taken
  rw [select_apply, mask_bcast_apply, inRange_apply x hx, select_one]
  exact gather_row emb (idx3 x) r c k _ ((idx3_apply x r c _).trans (wrapped_apply x _ (hx _))) (hx _)

/-! ## The mean, the projection and the bias -/

/-- The literal 20.0 denotes the real 20. -/
theorem ofBits_20 : Ideal.ofBits .f32 0x41A00000#32 = ((20 : ℝ) : EReal) := by
  simp [Ideal.ofBits, Ideal.ieee, -EReal.coe_mul]; norm_num

/-- The sum over the twenty looked-up rows, from the zero word: entry (r, e) is the sum over j of entry (r, j, e). -/
theorem sum_rows_apply (y : FVec Ideal S4096x20x128 .f32) (r : Fin 4096) (e : Fin 128) :
    Host.reduceAdd (F := Ideal) y (constant (F := Ideal) S_ .f32 0x00000000#32) reducesTo_S4096x20x128_S4096x128_d1 h_S_
        (ix2 r e)
      = ∑ j : Fin 20, y (ix3 r j e) := by
  have h : S4096x20x128.Reduces [1] S4096x128 := by decide
  rw [hostReduceAdd_apply]
  refine (Ideal.hostReduceAdd_single reducesTo_S4096x20x128_S4096x128_d1 h y _ (ix2 r e)).trans ?_
  rw [constant_apply, Ideal.ofBits_zero_f32, zero_add]
  refine Finset.sum_congr rfl fun j _ => congrArg y (funext fun c => Fin.ext ?_)
  match c with
  | ⟨0, _⟩ => rfl
  | ⟨1, _⟩ => rfl
  | ⟨2, _⟩ => rfl

/-- Under the range hypothesis the mean rows are the specification's pooled rows: the sum of the twenty named
    table rows, times 1/20 (the division by the real 20 is the product with its inverse). -/
theorem meanRows_apply (x : IVec S4096x20 32) (hx : ∀ i, (x i).toNat < 100000) (emb : FVec Ideal S100000x128 .f32)
    (r : Fin 4096) (e : Fin 128) : meanRows (F := Ideal) x emb (ix2 r e) = Cert.Spec.pooled x emb r e := by
  unfold meanRows Cert.Spec.pooled
  rw [hostDivf_apply, sum_rows_apply, broadcastInDim_scalar_apply, constant_apply, ofBits_20,
    Ideal.div_coe (by norm_num)]
  exact congrArg (fun s : EReal => s * ((1 / 20 : ℝ) : EReal)) (Finset.sum_congr rfl fun j _ => taken_apply x hx emb r j e)

/-- The transposed weight matrix at (e, v) is the weight matrix at (v, e). -/
theorem wT_apply {α : Type} (W : S100000x128.Idx → α) (e : Fin 128) (v : Fin 100000) :
    transpose S128x100000 [1, 0] W transposes_S100000x128_S128x100000_1_0 (ix2 e v) = W (ix2 v e) :=
  transpose_ix2_apply W _ e v

/-- The contraction at (r, v): the sum over the 128 columns of the products of the entries. -/
theorem dot_apply (A : FVec Ideal S4096x128 .f32) (B : FVec Ideal S128x100000 .f32) (r : Fin 4096) (v : Fin 100000) :
    Host.dotGeneral (F := Ideal) dot_S4096x128_S128x100000_S4096x100000_1_0_0_1_n_n none A B (ix2 r v)
      = ∑ e : Fin 128, A (ix2 r e) * B (ix2 e v) :=
  StackMember.dotGeneral_plain_apply (m := 4096) (n := 100000) (k := 128) none A B r v

/-- The bias broadcast to a row and then along the rows reads the bias at the column. -/
theorem bias_apply {α : Type} (b : S100000.Idx → α) (r : Fin 4096) (v : Fin 100000) :
    broadcastInDim S4096x100000 ![0, 1] bcast_S1x100000_S4096x100000_0_1
        (broadcastInDim S1x100000 ![1] bcast_S100000_S1x100000_1 b) (ix2 r v) = b (ix1 v) := by
  refine (broadcastInDim_apply _ _ _ (ix2 r v) (ix2 (⟨0, Nat.one_pos⟩ : Fin 1) v) fun a => match a with
    | ⟨0, _⟩ => (if_pos rfl).symm
    | ⟨1, _⟩ => (if_neg (by show ¬((100000 : ℕ) = 1); decide)).symm).trans ?_
  exact broadcastInDim_apply _ _ _ _ (ix1 v) fun a => match a with
    | ⟨0, _⟩ => (if_neg (by show ¬((100000 : ℕ) = 1); decide)).symm

/-! ## The result -/

/-- Under the range hypothesis the reference's result is the specification, entry by entry: the pooled row r
    against row v of the weight matrix, plus the bias at v. -/
theorem refOut_eq (x : IVec S4096x20 32) (emb W : FVec Ideal S100000x128 .f32) (b : FVec Ideal S100000 .f32)
    (hx : ∀ i, (x i).toNat < 100000) : refOut (F := Ideal) x emb W b = Cert.Spec.G x emb W b := by
  funext i
  obtain ⟨r, v, rfl⟩ : ∃ (r : Fin 4096) (v : Fin 100000), i = ix2 r v := ⟨i 0, i 1, eq_ix2 i⟩
  rw [Cert.Spec.G_apply]
  unfold refOut Cert.Spec.logit
  rw [addf_apply, dot_apply, bias_apply]
  exact congrArg (fun s : EReal => s + b (ix1 v)) (Finset.sum_congr rfl fun e _ => by rw [meanRows_apply x hx, wT_apply])

/-- The reference's run with the result named by the specification: from a memory whose index words are in
    range on every device, every weakly fair execution ends with the result buffer at the specification of the
    argument buffers' launch contents, and the arguments unchanged. -/
theorem run_spec (m : (ℓ : Loc nD τ sig) → Buf (Elt Ideal) ℓ) (ρ : Dev nD → PrngReg)
    (hx : ∀ (c : Dev nD) (i : S4096x20.Idx), (m ((c.tc : Thread nD τ).loc main_arg0) i).toNat < 100000) :
    θ_run (defs (F := Ideal)) (onTc (τ := τ) (main (F := Ideal))) ⟨m, fun _ => 0, ρ⟩ fun r => ∀ c : Dev nD,
      r.2.mem ((c.tc : Thread nD τ).loc main_v8)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (refOut_eq _ _ _ _ (hx c)), (h c).2⟩)
    (run (F := Ideal) m ρ)

end Cert.ReferenceIdeal.RefValue

end
-- ==== Proof.Slab.lean ====
/-
  The 81920 × 128 flat lookup array cut into 32 slabs of 2560 consecutive rows, one per worker: slab w holds
  the rows r with r / 2560 = w. Worker w = 2·s + c is subcore s of core c, so core c's slabs are the w with
  w % 2 = c. The slabs are pairwise disjoint and cover the array; nothing here mentions a program.
-/
import Idealize.ShloMosaic.PureOps.Ideal
import Idealize.ShloMosaic.Lib.ValueIdx
import proofs.«204109_g84920093377010_cont_9to1_m_793_20_alg».proof.Proof.Spec

namespace Cert.Slab

open Idealize.ShloMosaic Idealize.ShloMosaic.ValueIdx

/-- The index type of the flat lookup array. -/
abbrev OIdx : Type := (⟨2, ![81920, 128]⟩ : Shape).Idx

/-- Slab w: the entries whose row lies in [2560·w, 2560·w + 2560). -/
def tileSet (w : Fin 32) : Finset OIdx := Finset.univ.filter fun i => (i 0).val / 2560 = w.val

theorem mem_tileSet {w : Fin 32} {i : OIdx} : i ∈ tileSet w ↔ (i 0).val / 2560 = w.val := by
  simp [tileSet]

/-- The worker a row belongs to. -/
def workerOf (i : OIdx) : Fin 32 := ⟨(i 0).val / 2560, by have := idx2_lt0 i; omega⟩

theorem mem_tileSet_workerOf (i : OIdx) : i ∈ tileSet (workerOf i) := mem_tileSet.mpr rfl

theorem tileSet_disjoint {w w' : Fin 32} (h : w ≠ w') : Disjoint (tileSet w) (tileSet w') :=
  Finset.disjoint_left.mpr fun i hi hi' => h (Fin.ext ((mem_tileSet.mp hi).symm.trans (mem_tileSet.mp hi')))

theorem tileSet_cover : (Finset.univ : Finset (Fin 32)).biUnion tileSet = Finset.univ :=
  Finset.eq_univ_iff_forall.mpr fun i => Finset.mem_biUnion.mpr ⟨workerOf i, Finset.mem_univ _, mem_tileSet_workerOf i⟩

/-- The worker number of subcore s of core c. -/
def wid (c : Fin 2) (s : Fin 16) : Fin 32 := ⟨s.val * 2 + c.val, by omega⟩

theorem wid_injective : Function.Injective fun p : Fin 2 × Fin 16 => wid p.1 p.2 := by
  rintro ⟨c, s⟩ ⟨c', s'⟩ h
  have h' : s.val * 2 + c.val = s'.val * 2 + c'.val := congrArg Fin.val h
  have hc : c.val = c'.val := by omega
  have hs : s.val = s'.val := by omega
  exact Prod.ext (Fin.ext hc) (Fin.ext hs)

theorem wid_surjective (w : Fin 32) : ∃ c s, wid c s = w :=
  ⟨⟨w.val % 2, by omega⟩, ⟨w.val / 2, by omega⟩, Fin.ext (by show w.val / 2 * 2 + w.val % 2 = w.val; omega)⟩

/-- Row i of the flat lookup: the table row named by the i-th index word (its unsigned value, capped at the last
    row), column by column. Generic in the element type, so that it serves every float instance. -/
def gathF {α : Type} (xf : (⟨1, ![81920]⟩ : Shape).Idx → BitVec 32) (tab : (⟨2, ![100000, 128]⟩ : Shape).Idx → α) : OIdx → α :=
  fun i => tab (ix2 (Cert.Spec.row (xf (ix1 ⟨(i 0).val, idx2_lt0 i⟩))) ⟨(i 1).val, idx2_lt1 i⟩)

theorem gathF_apply {α : Type} (xf : (⟨1, ![81920]⟩ : Shape).Idx → BitVec 32) (tab : (⟨2, ![100000, 128]⟩ : Shape).Idx → α)
    (r : Fin 81920) (e : Fin 128) : gathF xf tab (ix2 r e) = tab (ix2 (Cert.Spec.row (xf (ix1 r))) e) := rfl

end Cert.Slab
-- ==== Proof.LaunchI.lean ====
/-
  The launch of the lookup program, part 1: the program as the launch theorem sees it, the ghost state, and what the
  handshakes carry.

  One SparseCore call runs on 2 cores × 16 vector subcores. The TensorCore hands each core a read share of the
  flat index array and of the table, and full ownership of that core's sixteen slabs of the flat output (slab
  w = 2·s + c for subcore s of core c: 2560 consecutive rows); each core deals its sixteen subcores a read share of
  both inputs and one slab. A subcore brings its slab back holding, in row i, the table row named by the i-th index
  word; the core and then the TensorCore collect the slabs into the whole output at that one function.
-/
import proofs.«204109_g84920093377010_cont_9to1_m_793_20_alg».proof.KernelIdeal
import proofs.«204109_g84920093377010_cont_9to1_m_793_20_alg».proof.Proof.Gen.KernelIdeal
import proofs.«204109_g84920093377010_cont_9to1_m_793_20_alg».proof.Proof.Gen.KernelIdeal.Skeleton
import proofs.«204109_g84920093377010_cont_9to1_m_793_20_alg».proof.Proof.Gen.KernelIdeal.Launch
import proofs.«204109_g84920093377010_cont_9to1_m_793_20_alg».proof.Proof.Gen.KernelIdeal.Points
import proofs.«204109_g84920093377010_cont_9to1_m_793_20_alg».proof.Proof.Slab
import proofs.«204109_g84920093377010_cont_9to1_m_793_20_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameSuffix
import Idealize.ShloMosaic.Lib.Tactic

noncomputable section

namespace Cert.Proof.KI.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
theorem nCore_zero [FloatOps F] [Named F] : (K (F := F)).nCore 0 = 2 := rfl
theorem nSub_zero [FloatOps F] [Named F] : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The buffers the call moves -/

variable (m : (ℓ : Loc nD τ sig) → Buf (Elt F) ℓ) (ρ : Dev nD → PrngReg)

abbrev xfLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

/-- The read share of core c, and of subcore i of core c. -/
abbrev tokC (c : Fin 2) : PosShare TreeShare := Transfers.shareTok fullShare 2 c
abbrev tokT (c : Fin 2) (i : Fin 16) : PosShare TreeShare := Transfers.shareTok (tokC c) 16 i

variable [FloatOps F] [Named F]

/-! ## What the handshakes carry -/

section Pay

variable (xf : (d : Dev nD) → Buf (Elt F) (xfLoc d)) (tab : (d : Dev nD) → Buf (Elt F) (tabLoc d))
  (o0 o1 : (d : Dev nD) → Buf (Elt F) (outLoc d))

/-- A read share of the index array and of the table, -/
abbrev inPts (d : Dev nD) (q : PosShare TreeShare) : sProp 𝕄 := iprop((xfLoc d ↦{q} xf d) ∗ (tabLoc d ↦{q} tab d))
/-- and one slab of the output, owned whole, at given contents. -/
abbrev slabPts (d : Dev nD) (w : Fin 32) (o : Buf (Elt F) (outLoc d)) : sProp 𝕄 := outLoc d ↦[Cert.Slab.tileSet w]{fullShare} o

abbrev cC (c : Fin ((K (F := F)).nCore 0)) : Fin 2 := Fin.cast nCore_zero c
abbrev iT (i : Fin ((K (F := F)).nSub 0)) : Fin 16 := Fin.cast nSub_zero i

/-- The one call: each core a read share of both inputs and its sixteen slabs at the entry contents `o0`, back at
    `o1`; each subcore a read share and its slab. -/
def P : (K (F := F)).Pay (nD := nD) (Val := Elt F) (Name := ℕ) (U := UU) where
  st := fun q d c => match q with
    | 0 => iprop(inPts xf tab d (tokC (cC c)) ∗ bigSep Finset.univ fun i : Fin 16 => slabPts d (Cert.Slab.wid (cC c) i) (o0 d))
  dn := fun q d c => match q with
    | 0 => iprop(inPts xf tab d (tokC (cC c)) ∗ bigSep Finset.univ fun i : Fin 16 => slabPts d (Cert.Slab.wid (cC c) i) (o1 d))
  go := fun q d c i => match q with
    | 0 => iprop(inPts xf tab d (tokT (cC c) (iT i)) ∗ slabPts d (Cert.Slab.wid (cC c) (iT i)) (o0 d))
  td := fun q d c i => match q with
    | 0 => iprop(inPts xf tab d (tokT (cC c) (iT i)) ∗ slabPts d (Cert.Slab.wid (cC c) (iT i)) (o1 d))
  x := fun _ _ => iprop(emp)

instance P_storable : (P (F := F) xf tab o0 o1).IsStorable where
  st q d c := match q with
    | 0 => (inferInstance : BI.Storable (upEmb : UEmb _ 𝕄)
      iprop(inPts xf tab d (tokC (cC c)) ∗ bigSep Finset.univ fun i : Fin 16 => slabPts d (Cert.Slab.wid (cC c) i) (o0 d)))
  dn q d c := match q with
    | 0 => (inferInstance : BI.Storable (upEmb : UEmb _ 𝕄)
      iprop(inPts xf tab d (tokC (cC c)) ∗ bigSep Finset.univ fun i : Fin 16 => slabPts d (Cert.Slab.wid (cC c) i) (o1 d)))
  go q d c i := match q with
    | 0 => (inferInstance : BI.Storable (upEmb : UEmb _ 𝕄)
      iprop(inPts xf tab d (tokT (cC c) (iT i)) ∗ slabPts d (Cert.Slab.wid (cC c) (iT i)) (o0 d)))
  td q d c i := match q with
    | 0 => (inferInstance : BI.Storable (upEmb : UEmb _ 𝕄)
      iprop(inPts xf tab d (tokT (cC c) (iT i)) ∗ slabPts d (Cert.Slab.wid (cC c) (iT i)) (o1 d)))

/-! ## A core's operands split into its subcores' and gather back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's read share of an array is its sixteen subcores' shares and a remainder that waits for them. -/
theorem vecSplit : (K (F := F)).VecSplit' (P xf tab o0 o1) 0 := by
  intro d c
  show iprop(inPts xf tab d (tokC (cC c)) ∗ bigSep Finset.univ fun i : Fin 16 => slabPts d (Cert.Slab.wid (cC c) i) (o0 d)) ⊢ |={Set.univ}=> iprop(
      (bigSep Finset.univ fun i : Fin ((K (F := F)).nSub 0) =>
        iprop(inPts xf tab d (tokT (cC c) (iT i)) ∗ slabPts d (Cert.Slab.wid (cC c) (iT i)) (o0 d)))
      ∗ ((bigSep Finset.univ fun i : Fin ((K (F := F)).nSub 0) =>
          iprop(inPts xf tab d (tokT (cC c) (iT i)) ∗ slabPts d (Cert.Slab.wid (cC c) (iT i)) (o1 d)))
          -∗ iprop(inPts xf tab d (tokC (cC c)) ∗ bigSep Finset.univ fun i : Fin 16 => slabPts d (Cert.Slab.wid (cC c) i) (o1 d))))
  rw [bigSep_tasks (F := F) (fun i => iprop(inPts xf tab d (tokT (cC c) i) ∗ slabPts d (Cert.Slab.wid (cC c) i) (o0 d))),
    bigSep_tasks (F := F) (fun i => iprop(inPts xf tab d (tokT (cC c) i) ∗ slabPts d (Cert.Slab.wid (cC c) i) (o1 d))),
    bigSep_sep', bigSep_sep', bigSep_sep', bigSep_sep']
  iintro ⟨⟨Hx, Ht⟩, Ho⟩
  ihave Hx' := (Transfers.pointsTo_toks_split (tokC (cC c)) 16) $$ Hx
  ihave Ht' := (Transfers.pointsTo_toks_split (tokC (cC c)) 16) $$ Ht
  icases Hx' with ⟨Hxr, Hxs⟩
  icases Ht' with ⟨Htr, Hts⟩
  imodintro
  isplitl [Hxs Hts Ho]
  · isplitl [Hxs Hts]
    · isplitl [Hxs]; · iexact Hxs
      iexact Hts
    iexact Ho
  iintro ⟨⟨Hxs, Hts⟩, Ho⟩
  isplitl [Hxr Hxs Htr Hts]
  · isplitl [Hxr Hxs]
    · iapply (Transfers.pointsTo_toks_join (tokC (cC c)) 16); isplitl [Hxr] <;> iassumption
    · iapply (Transfers.pointsTo_toks_join (tokC (cC c)) 16); isplitl [Htr] <;> iassumption
  iexact Ho

end Pay

/-! ## The launch element of the ghost state -/

/-- No pipeline has a prefetched table: the admissible contents are the empty ones. -/
abbrev adm : (p : Fin 2) → (pcfgs (F := F) p).Adm := fun p => (cfgs p).toPCfg_adm

/-- The handshakes' launch element, the pipelines' staging cells' launch element, the counters'. -/
def u₀ : UU := (initOf (K (F := F)).hsCells (K (F := F)).hsToks, (initOf (Pipeline.cells cfgs cellOf_inj) (Pipeline.launchToks cfgs cellOf_inj), 1))

/-- What @main's proof starts from beside the buffers: each pipeline's staging cells' ghost state and duty tokens. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

section Pay2
variable (xf : (d : Dev nD) → Buf (Elt F) (xfLoc d)) (tab : (d : Dev nD) → Buf (Elt F) (tabLoc d))
  (o0 o1 : (d : Dev nD) → Buf (Elt F) (outLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P xf tab o0 o1).x q thr) := by
  unfold u₀
  iintro Hu
  have h1 := ownU_pair (nD := nD) (τ := τ) (sig := sig) (Ix := HIx 1) (Val := Elt F) (Name := ℕ) (Lvl := ℕ) (A := UH) (B := UP × Counters)
    (initOf (K (F := F)).hsCells (K (F := F)).hsToks) (initOf (Pipeline.cells cfgs cellOf_inj) (Pipeline.launchToks cfgs cellOf_inj), 1)
  have h2 := own_pair_emb (embR : Emb (UP × Counters) (MT nD τ sig (HIx 1) (Elt F) ℕ UU ℕ))
    (initOf (Pipeline.cells cfgs cellOf_inj) (Pipeline.launchToks cfgs cellOf_inj)) (1 : Counters)
  ihave H := h1 $$ Hu
  icases H with ⟨HH, HR⟩
  ihave H2 := h2 $$ HR
  icases H2 with ⟨HP, -⟩
  ihave HP := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
    = BI.own ((EP (F := F)) (initOf (Pipeline.cells cfgs cellOf_inj) (Pipeline.launchToks cfgs cellOf_inj))) from rfl)) $$ HP
  imod (Pipeline.fund_ghost cfgs (EP (F := F)) cellOf_inj) $$ HP with ⟨Hg, Ht⟩
  imodintro
  isplitl [HH]; · iexact HH
  isplitl [Hg Ht]
  · have hG : ∀ d : Dev nD, (G (F := F) d : sProp 𝕄)
        = bigSep Finset.univ fun p : Fin 2 => iprop(Pipeline.cellsGhost cfgs (EP (F := F)) p d ∗ Pipeline.toksInit cfgs (EP (F := F)) p d) := fun d => rfl
    simp only [hG, bigSep_sep']
    isplitl [Hg] <;> iassumption
  rw [show (bigSep Finset.univ fun thr : Thread nD τ => bigSep Finset.univ fun q : Fin 1 => (P (F := F) xf tab o0 o1).x q thr) = bigSep Finset.univ fun _ => iprop(emp) from
    bigSep_congr fun _ _ => bigSep_univ_of_subsingleton (0 : Fin 1), bigSep_emp']
  iempintro

end Pay2

end Cert.Proof.KI.Launch

end
-- ==== Proof.RegionsI.lean ====
import proofs.«204109_g84920093377010_cont_9to1_m_793_20_alg».proof.Proof.Gen.KernelIdeal.Launch
import proofs.«204109_g84920093377010_cont_9to1_m_793_20_alg».proof.Proof.Gen.KernelIdeal.Skeleton
import proofs.«204109_g84920093377010_cont_9to1_m_793_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.SparseCore
import Idealize.ShloMosaic.Lib.SparseCore.Launch
import Idealize.ShloMosaic.Lib.Ring
import Idealize.ShloMosaic.Lib.Tactic

/-!
# The two TensorCore regions of @main, as region records

The program's @main runs, after its one SparseCore call, two TensorCore pipelines:

* pipeline 0 (`mean_kernel`, grid of 8 points): at point `t` the body loads the 10240 × 128 block of the gathered
  rows (rows `10240 t ‥ 10240 t + 10239`), sums every 20 consecutive rows, multiplies by the named constant
  `inv_20` and stores the 512 × 128 result as block `t` of the pooled array;
* pipeline 1 (`mm_kernel`, grid of 98 points): at point `t` the body loads the whole 4096 × 128 pooled array, the
  1024 × 128 block `t` of the weight matrix (rows `1024 t + i`; the last block overhangs the 100000-row matrix by
  352 rows, which hold unspecified padding), the 1 × 1024 block `t` of the padded bias, and stores
  `h · Wᵀ + b` as the 4096 × 1024 block `t` of the padded result.

Everything is stated at PARAMETERS `V` for the contents of the TensorCore's buffers when a region is entered, and over
the index and resource types of the SparseCore launch the regions are entered from.
-/

set_option maxRecDepth 16384

noncomputable section

namespace Cert.Proof.KI.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F] {U : Type} [URA U]

local notation "𝕄" => MT nD τ sig (SparseCore.Cfg.HIx 1) (Elt F) ℕ U ℕ

section Regions
-- the TensorCore's buffer contents when a region is entered: the parameter every region's half is stated at
variable (V : (c : Dev nD) → (b : Ref sig .tc) → Buf (Elt F) ((c : Thread nD τ).loc b))

/-- The regions' invariant on core `c`: the core's scoped buffers that are no staging buffer of the pipeline, at some
    contents each, and its generator register at some state: what neither body reads or writes. -/
def ΦR {gr : Nat} {W : Nat} (win : Fin W → Pipeline.WinSpec sig gr) (c : Dev nD) : sProp 𝕄 :=
  iprop(Pipeline.scopedRest (Ix := SparseCore.Cfg.HIx 1) (Name := ℕ) (U := U) (Lvl := ℕ) (Val := Elt F) win c ∗ ∃ r, prngReg c r)

/-! # Pipeline 0: `cc1_mean_kernel`, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered rows' staging buffer holds block `t` at every point, for any proof data whose array is `V`'s and
    whose body leaves the block in place: the window is uncut and never idle. -/
theorem before1_0_of {c : Dev nD} (dat : Dat τ (Elt F) (SparseCore.Cfg.HIx 1) ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole 512 × 128 buffer. -/
abbrev r1_0 : Rect S512x128 := Rect.unit (s := S512x128) ![0, 0] S512x128.size inb_S512x128_S512x128_0_0
/-- The one rectangle it loads the input through: the whole 10240 × 128 buffer. -/
abbrev r1_in : Rect S10240x128 := Rect.unit (s := S10240x128) ![0, 0] S10240x128.size inb_S10240x128_S10240x128_0_0

/-- The pooled block's staging buffer after the body, from the gathered rows' block: its one store, the payload
    (the sums of 20 consecutive rows times `inv_20`) over the whole buffer. -/
def out1_1 (x0 : Vec F S10240x128 .f32) : Vec F S512x128 .f32 :=
  View.canon [⟨r1_0, k1_pay1 (View.ld x0 r1_in)⟩]

/-- The store covers the buffer. -/
theorem cover1_1 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

set_option maxHeartbeats 1000000 in
/-- The kernel body on whole staging memrefs, the input's at read contents `x0` and the output's at anything, runs to
    the continuation holding the input's as it was and the output's at `out1_1 x0`. -/
theorem sound_kernel1 (c : Dev nD) (E : Set ℕ) (i : grid1.Coords) (arg0 : Memref sig .tc .vmem S10240x128 .f32) (harg0 : arg0.IsWhole) (arg1 : Memref sig .tc .vmem S512x128 .f32) (harg1 : arg1.IsWhole)
    (x0 : Vec F S10240x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_mean_kernel i arg0 harg0 arg1 harg1) K := by
  simp only [cc1_mean_kernel_eq_skeleton]; unfold cc1_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 0 on core `c`: the arrays as the region finds them (`V`); after the body at point `t`
    the input's buffer at its block and the output's at `out1_1` of it; the invariant the scoped rest and the generator
    register, untouched; nothing owed; full shares. -/
def dat1 (c : Dev nD) : Dat τ (Elt F) (SparseCore.Cfg.HIx 1) ℕ U ℕ cfg1 c where
  A w := V c (Pipeline.arrRef spec1 w)
  after w t := match w with
    | ⟨0, _⟩ => iblk1 V c 0 t
    | ⟨1, _⟩ => out1_1 (iblk1 V c 0 t)
  Φ _ := ΦR spec1 c
  q _ := fullShare
  owed _ := 0
  recorded _ := {p | (sc (F := F)).lev ((c : Thread nD τ), p.1) p.2 ≤ 8}

theorem A_eq1 (c : Dev nD) (w : Fin cfg1.W) : (dat1 (U := U) V c).A w = V c (Pipeline.arrRef spec1 w) := by
  dsimp only [dat1]

theorem after1_0 (c : Dev nD) (t : Fin cfg1.N) : (dat1 (U := U) V c).after 0 t = iblk1 V c 0 t := by dsimp only [dat1]
theorem after1_1 (c : Dev nD) (t : Fin cfg1.N) : (dat1 (U := U) V c).after 1 t = out1_1 (iblk1 V c 0 t) := by dsimp only [dat1]

theorem before1_0 (c : Dev nD) (t : Fin cfg1.N) (d) : (dat1 (U := U) V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 (U := U) V c).Φ t.castSucc ∗ (dat1 (U := U) V c).owesAt (none : SparseCore.Cfg.HIx 1) t.castSucc
    ∗ (∃ d, owns (c : Thread nD τ) (st1_0 t) fullShare ((dat1 (U := U) V c).before 0 t d))
    ∗ (∃ d, owns (c : Thread nD τ) (st1_1 t) fullShare ((dat1 (U := U) V c).before 1 t d)))

/-- and what it returns. -/
def bodyPost1 (c : Dev nD) (t : Fin cfg1.N) : sProp 𝕄 :=
  iprop((dat1 (U := U) V c).Φ t.succ ∗ (dat1 (U := U) V c).owesAt (none : SparseCore.Cfg.HIx 1) t.succ
    ∗ owns (c : Thread nD τ) (st1_0 t) fullShare ((dat1 (U := U) V c).after 0 t)
    ∗ owns (c : Thread nD τ) (st1_1 t) fullShare ((dat1 (U := U) V c).after 1 t))

/-- The body at any point. -/
theorem sound_body1 (c : Dev nD) (t : Fin cfg1.N) :
    bodyPre1 (U := U) V c t ⊢ wp frame (wpE (defs₀ (F := F)) Variants.none c none) Set.univ (bodyAt1 t) (fun _ => bodyPost1 V c t) := by
  unfold bodyPre1 bodyPost1 bodyAt1
  simp only [before1_0]
  rw [show (dat1 (U := U) V c).Φ t.succ = (dat1 V c).Φ t.castSucc from rfl,
    show (dat1 (U := U) V c).owesAt (none : SparseCore.Cfg.HIx 1) t.succ = (dat1 V c).owesAt none t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) (U := U) V c) (defs₀ (F := F)) Variants.none (none : SparseCore.Cfg.HIx 1) Set.univ := fun t => by
  rw [bigSep_W1, bigSep_W1]
  exact sound_body1 V c t

/-! # Pipeline 1: `cc2_mm_kernel`, at the entry contents `V`

The weight matrix's window is cut at the array's end: at the last point the fetch first overwrites the staging buffer
with words nothing names and then lands the 672 rows inside the array. What the body stores there depends on those words
(in the columns past 100000 of the padded result), so the proof data CONSTRAIN what the body leaves instead of naming it:
an input's buffer is left as found; the result's buffer holds `out2_3` of the pooled array, SOME 1024 × 128 contents that
agree with the matrix's block on the rows inside the array, and the bias block. -/

/-- Window `w`'s block at point `t` (its part inside the array), read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles of the body's accesses: each the whole staging buffer. -/
abbrev r2_in0 : Rect S4096x128 := Rect.unit (s := S4096x128) ![0, 0] S4096x128.size inb_S4096x128_S4096x128_0_0
abbrev r2_in1 : Rect S1024x128 := Rect.unit (s := S1024x128) ![0, 0] S1024x128.size inb_S1024x128_S1024x128_0_0
abbrev r2_in2 : Rect S1x1024 := Rect.unit (s := S1x1024) ![0, 0] S1x1024.size inb_S1x1024_S1x1024_0_0
abbrev r2_0 : Rect S4096x1024 := Rect.unit (s := S4096x1024) ![0, 0] S4096x1024.size inb_S4096x1024_S4096x1024_0_0

/-- The result block's staging buffer after the body, from the three inputs' buffers: its one store, the payload
    (`x0 · x1ᵀ + x2` broadcast over the rows) over the whole buffer. -/
def out2_3 (x0 : Vec F S4096x128 .f32) (x1 : Vec F S1024x128 .f32) (x2 : Vec F S1x1024 .f32) : Vec F S4096x1024 .f32 :=
  View.canon [⟨r2_0, k2_pay1 (View.ld x0 r2_in0) (View.ld x1 r2_in1) (View.ld x2 r2_in2)⟩]

/-- The store covers the buffer. -/
theorem cover2_3 (p0 : Vec F S4096x1024 .f32) (y : S4096x1024.Idx) :
    ∃ pc ∈ ([⟨r2_0, p0⟩] : List (View.Piece (Elt F) S4096x1024 .f32)), y ∈ pc.1.set :=
  View.cover_of_tiled [⟨r2_0, p0⟩] S4096x1024.size (by rfl) y

set_option maxHeartbeats 1000000 in
/-- The kernel body on whole staging memrefs, the inputs' at read contents `x0`, `x1`, `x2` and the output's at anything,
    runs to the continuation holding the inputs' as they were and the output's at `out2_3 x0 x1 x2`. -/
theorem sound_kernel2 (c : Dev nD) (E : Set ℕ) (i : grid2.Coords)
    (arg0 : Memref sig .tc .vmem S4096x128 .f32) (harg0 : arg0.IsWhole) (arg1 : Memref sig .tc .vmem S1024x128 .f32) (harg1 : arg1.IsWhole)
    (arg2 : Memref sig .tc .vmem S1x1024 .f32) (harg2 : arg2.IsWhole) (arg3 : Memref sig .tc .vmem S4096x1024 .f32) (harg3 : arg3.IsWhole)
    (x0 : Vec F S4096x128 .f32) (x1 : Vec F S1024x128 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2_mm_kernel i arg0 harg0 arg1 harg1 arg2 harg2 arg3 harg3) K := by
  simp only [cc2_mm_kernel_eq_skeleton]; unfold cc2_mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 1 on core `c`, relational: the arrays as the region finds them (`V`); each input's buffer
    left as found; the result's buffer at `out2_3` of the pooled array, some contents agreeing with the matrix's block
    on its rows inside the array, and the bias block; the invariant the scoped rest and the generator register; nothing
    owed; full shares. -/
def rdat2 (c : Dev nD) : RDat τ (Elt F) (SparseCore.Cfg.HIx 1) ℕ U ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ x1 : Vec F S1024x128 .f32, win2_1.cut (grid2.coords t) x1 = iblk2 V c 1 t
        ∧ X = out2_3 (iblk2 V c 0 t) x1 (iblk2 V c 2 t)
  Φ _ := ΦR spec2 c
  q _ := fullShare
  owed _ := 0
  recorded _ := {p | (sc (F := F)).lev ((c : Thread nD τ), p.1) p.2 ≤ 8}

theorem rA_eq2 (c : Dev nD) (w : Fin cfg2.W) : (rdat2 (U := U) V c).A w = V c (Pipeline.arrRef spec2 w) := by
  dsimp only [rdat2]

theorem rafter2_0 (c : Dev nD) (t : Fin cfg2.N) (Y X) : (rdat2 (U := U) V c).after 0 t Y X ↔ X = Y := by dsimp only [rdat2]; exact Iff.rfl
theorem rafter2_1 (c : Dev nD) (t : Fin cfg2.N) (Y X) : (rdat2 (U := U) V c).after 1 t Y X ↔ X = Y := by dsimp only [rdat2]; exact Iff.rfl
theorem rafter2_2 (c : Dev nD) (t : Fin cfg2.N) (Y X) : (rdat2 (U := U) V c).after 2 t Y X ↔ X = Y := by dsimp only [rdat2]; exact Iff.rfl
theorem rafter2_3 (c : Dev nD) (t : Fin cfg2.N) (Y X) : (rdat2 (U := U) V c).after 3 t Y X ↔
    ∃ x1 : Vec F S1024x128 .f32, win2_1.cut (grid2.coords t) x1 = iblk2 V c 1 t ∧ X = out2_3 (iblk2 V c 0 t) x1 (iblk2 V c 2 t) := by
  dsimp only [rdat2]; exact Iff.rfl

/-- What the body finds in the pooled array's buffer: the whole array, fetched at the first point and kept. -/
theorem finds2_0 (c : Dev nD) (t : Fin cfg2.N) (Y) (h : (rdat2 (U := U) V c).Finds 0 t Y) : Y = iblk2 V c 0 t := by
  obtain ⟨d, rfl⟩ := (rdat2 (U := U) V c).finds_in_eq_fetched 0 rfl (fun _ _ _ => rfl)
    (fun t Y X h => (rafter2_0 V c t Y X).mp h) t Y h
  unfold RDat.fetched RDat.blockOf iblk2; rw [rA_eq2]; try rfl

/-- In the bias's buffer: its block, fetched at every point. -/
theorem finds2_2 (c : Dev nD) (t : Fin cfg2.N) (Y) (h : (rdat2 (U := U) V c).Finds 2 t Y) : Y = iblk2 V c 2 t := by
  obtain ⟨d, rfl⟩ := ((rdat2 (U := U) V c).finds_of_fetch (fetch2_2 t) Y).mp h
  unfold RDat.fetched RDat.blockOf iblk2; rw [rA_eq2]; try rfl

/-- In the matrix's buffer: contents that agree with its block on the rows inside the array (the fetch at every point
    fills those; the rest is what the overwrite before it left). -/
theorem finds2_1 (c : Dev nD) (t : Fin cfg2.N) (Y) (h : (rdat2 (U := U) V c).Finds 1 t Y) :
    win2_1.cut (grid2.coords t) Y = iblk2 V c 1 t := by
  obtain ⟨d, rfl⟩ := ((rdat2 (U := U) V c).finds_of_fetch (fetch2_1 t) Y).mp h
  unfold RDat.fetched RDat.blockOf iblk2; rw [rA_eq2]
  exact win2_1.cut_fill _ _ _

/-- What the body is called with at point `t`, the windows one by one at contents `Y`, -/
def rbodyPre2 (c : Dev nD) (t : Fin cfg2.N) (Y : (w : Fin cfg2.W) → (cfg2.win w).block.Idx → Elt F (cfg2.win w).elt) : sProp 𝕄 :=
  iprop((rdat2 (U := U) V c).Φ t.castSucc ∗ (rdat2 (U := U) V c).owesAt (none : SparseCore.Cfg.HIx 1) t.castSucc
    ∗ owns (c : Thread nD τ) (st2_0 t) fullShare (Y 0)
    ∗ owns (c : Thread nD τ) (st2_1 t) fullShare (Y 1)
    ∗ owns (c : Thread nD τ) (st2_2 t) fullShare (Y 2)
    ∗ owns (c : Thread nD τ) (st2_3 t) fullShare (Y 3))

/-- and what it returns: each buffer at some contents its relation allows. -/
def rbodyPost2 (c : Dev nD) (t : Fin cfg2.N) (Y : (w : Fin cfg2.W) → (cfg2.win w).block.Idx → Elt F (cfg2.win w).elt) : sProp 𝕄 :=
  iprop((rdat2 (U := U) V c).Φ t.succ ∗ (rdat2 (U := U) V c).owesAt (none : SparseCore.Cfg.HIx 1) t.succ
    ∗ (∃ X, ⌜(rdat2 (U := U) V c).after 0 t (Y 0) X⌝ ∗ owns (c : Thread nD τ) (st2_0 t) fullShare X)
    ∗ (∃ X, ⌜(rdat2 (U := U) V c).after 1 t (Y 1) X⌝ ∗ owns (c : Thread nD τ) (st2_1 t) fullShare X)
    ∗ (∃ X, ⌜(rdat2 (U := U) V c).after 2 t (Y 2) X⌝ ∗ owns (c : Thread nD τ) (st2_2 t) fullShare X)
    ∗ (∃ X, ⌜(rdat2 (U := U) V c).after 3 t (Y 3) X⌝ ∗ owns (c : Thread nD τ) (st2_3 t) fullShare X))

/-- The body at any point, on whatever the buffers may hold there: the inputs' are left as found and the result's is
    `out2_3` of them. -/
theorem sound_body2 (c : Dev nD) (t : Fin cfg2.N) (Y : (w : Fin cfg2.W) → (cfg2.win w).block.Idx → Elt F (cfg2.win w).elt)
    (hY : ∀ w, (rdat2 (U := U) V c).Finds w t (Y w)) :
    rbodyPre2 (U := U) V c t Y ⊢ wp frame (wpE (defs₀ (F := F)) Variants.none c none) Set.univ (bodyAt2 t) (fun _ => rbodyPost2 V c t Y) := by
  have h0 := finds2_0 V c t _ (hY 0)
  have h1 := finds2_1 V c t _ (hY 1)
  have h2 := finds2_2 V c t _ (hY 2)
  unfold rbodyPre2 rbodyPost2 bodyAt2
  rw [show (rdat2 (U := U) V c).Φ t.succ = (rdat2 V c).Φ t.castSucc from rfl,
    show (rdat2 (U := U) V c).owesAt (none : SparseCore.Cfg.HIx 1) t.succ = (rdat2 V c).owesAt none t.castSucc from rfl]
  iintro ⟨HΦ, Ho, H0, H1, H2, H3⟩
  iapply (sound_kernel2 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (rafter2_0 V c t _ _).mpr rfl
    iexact H0
  isplitl [H1]
  · iexists (Y 1); isplitr; · ipureintro; exact (rafter2_1 V c t _ _).mpr rfl
    iexact H1
  isplitl [H2]
  · iexists (Y 2); isplitr; · ipureintro; exact (rafter2_2 V c t _ _).mpr rfl
    iexact H2
  iexists out2_3 (Y 0) (Y 1) (Y 2); isplitr
  · ipureintro; exact (rafter2_3 V c t _ _).mpr ⟨Y 1, h1, by rw [h0, h2]⟩
  iexact H3

/-- The library's relational body obligation, at every point. -/
theorem body_obligation2 (c : Dev nD) :
    (rdat2 (F := F) (U := U) V c).BodyObligation (defs₀ (F := F)) Variants.none (none : SparseCore.Cfg.HIx 1) Set.univ := fun t Y hY => by
  rw [bigSep_W2, bigSep_W2]
  exact sound_body2 V c t Y hY

end Regions

/-! # The two regions as records

Entered from the thread state "every unscoped buffer of the TensorCore at a valuation, the generator register at some
state, nothing owed and every recorded wait at or below level 8": region 0 from the valuation `WA`, region 1 from `WB`. -/

section Records

/-- A family of relational proof data whose inputs are all held at the full share holds every array at the full share. -/
theorem rshare_full {cfg : Cfg sig Λ₀} {c : Dev nD} (rd : RDat τ (Elt F) (SparseCore.Cfg.HIx 1) ℕ U ℕ cfg c) (h : ∀ w, rd.q w = fullShare) (w : Fin cfg.W) :
    rd.share w = fullShare := by
  unfold RDat.share; split
  · rfl
  · exact h w

variable (WA WB : Dev nD → Valuation τ sig (Elt F))

/-- A valuation read at the TensorCore's references: what a region's proof data take. -/
abbrev VA (W : Dev nD → Valuation τ sig (Elt F)) : (c : Dev nD) → (b : Ref sig .tc) → Buf (Elt F) ((c : Thread nD τ).loc b) := fun c b => W c b
/-- The same of one core's valuation. -/
abbrev VAc (c : Dev nD) (W : Valuation τ sig (Elt F)) : (b : Ref sig .tc) → Buf (Elt F) ((c : Thread nD τ).loc b) := fun b => W b

/-- The prefetched tables' admissible contents: no pipeline has a table. -/
abbrev adm : (p : Fin 2) → (pcfgs (F := F) p).Adm := fun p => (cfgs p).toPCfg_adm

/-- EXIT, the arrays' part, for relational data: a pipeline's arrays at contents `A'` and the unscoped rest at `V` are the
    core's unscoped buffers at any valuation `V'` that has the arrays at `A'` and agrees with `V` off them. -/
theorem unscopedBufs_of_rarrays (rds : (p : Fin 2) → (c : Dev nD) → RDat τ (Elt F) (SparseCore.Cfg.HIx 1) ℕ U ℕ (Pipeline.pin (pcfgs (F := F)) adm p) c)
    {p : Fin 2} (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare)
    (V V' : (b : Ref sig .tc) → Buf (Elt F) ((c : Thread nD τ).loc b))
    (A' : (w : Fin (Pipeline.pin (pcfgs (F := F)) adm p).W) → Buf (Elt F) (((Pipeline.pin (pcfgs (F := F)) adm p).spec w).arr.view.loc (c : Thread nD τ)))
    (hA' : ∀ w, A' w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A' ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA'])) (Entails.of_eq ?_)
  unfold Pipeline.unscopedRest
  exact bigSep_congr fun b hb => by rw [hrest b (Finset.mem_sdiff.mp hb).2]

/-- Every pipeline's proof data, each at its region's entry contents: pipeline 0's exact data read relationally,
    pipeline 1's relational data. -/
def rdats : (p : Fin 2) → (c : Dev nD) → RDat τ (Elt F) (SparseCore.Cfg.HIx 1) ℕ U ℕ (Pipeline.pin (pcfgs (F := F)) adm p) c
  | ⟨0, _⟩ => fun c => (dat1 (VA WA) c).toR
  | ⟨1, _⟩ => fun c => rdat2 (VA WB) c

/-- What rides beside the buffers: the generator register at some state, and the core owing nothing, every pair its
    waits have recorded at or below level 8 (the pipelines' own waits are recorded at index `none`, level 0). -/
abbrev R (c : Dev nD) : sProp 𝕄 :=
  iprop((∃ r, prngReg c r) ∗ ∃ W, ⌜(sc (F := F)).WBelow (c : Thread nD τ) W 8⌝
    ∗ owes (c : Thread nD τ) (0 : CellTallies nD τ sig (SparseCore.Cfg.HIx 1)) W)

/-- Every pair within a region's bound is at or below level 8: recorded before (the data's bound) or the pipeline's own
    (index `none`, level 0). -/
theorem wbelow_of_bound (c : Dev nD) {cfg : Cfg sig Λ₀} (W : Waits sig (SparseCore.Cfg.HIx 1))
    (hW : (↑W : Set (SemLoc sig × SparseCore.Cfg.HIx 1)) ⊆ {p | (sc (F := F)).lev ((c : Thread nD τ), p.1) p.2 ≤ 8} ∪ cfg.waitPairs none) :
    (sc (F := F)).WBelow (c : Thread nD τ) W 8 := fun p hp => by
  rcases hW (Finset.mem_coe.mpr hp) with h | ⟨w, s, rfl⟩
  · exact h
  · exact Nat.zero_le _

/-- Region 0's exit contents: the pooled array at what the pipeline's write-backs leave, the gathered rows' array as
    entered (an input is never written), every other buffer as entered. -/
def exit1 (c : Dev nD) : Valuation τ sig (Elt F) :=
  Pipeline.withArrays spec1 c (WA c) fun w => (dat1 (U := U) (VA WA) c).arrAt w cfg1.N
theorem exit1_arr (c : Dev nD) (w : Fin cfg1.W) :
    exit1 (U := U) WA c (Proc.devRef .tc (Pipeline.arrRef spec1 w)) = (dat1 (U := U) (VA WA) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 (U := U) WA c (Proc.devRef .tc b) = WA c (Proc.devRef .tc b) := by
  unfold exit1; exact Pipeline.withArrays_of_ne spec1 c _ _ b hb
theorem hF1 (c : Dev nD) (w : Fin cfg1.W) :
    (dat1 (U := U) (VA WA) c).arrAt w cfg1.N = VA (exit1 (U := U) WA) c (Pipeline.arrRef spec1 w) := (exit1_arr WA c w).symm
theorem hrest1 (c : Dev nD) : ∀ b, b ∉ Finset.univ.image (Pipeline.arrRef spec1) → VA (exit1 (U := U) WA) c b = VA WA c b :=
  fun b hb => exit1_of_ne WA c b fun w e => hb (Finset.mem_image.mpr ⟨w, Finset.mem_univ _, e⟩)

/-- Region 1's arrays after its write-backs, from the four contents its exit names. -/
def exitArrs (c : Dev nD) (A0 : Buf (Elt F) ((cfg2.win 0).arr.view.loc (c : Thread nD τ))) (A1 : Buf (Elt F) ((cfg2.win 1).arr.view.loc (c : Thread nD τ)))
    (A2 : Buf (Elt F) ((cfg2.win 2).arr.view.loc (c : Thread nD τ))) (A3 : Buf (Elt F) ((cfg2.win 3).arr.view.loc (c : Thread nD τ))) :
    (w : Fin cfg2.W) → Buf (Elt F) ((cfg2.win w).arr.view.loc (c : Thread nD τ))
  | ⟨0, _⟩ => A0
  | ⟨1, _⟩ => A1
  | ⟨2, _⟩ => A2
  | ⟨3, _⟩ => A3

/-- Region 1's exit contents: its arrays at `A'`, every other buffer as entered. -/
def exit2 (c : Dev nD) (A' : (w : Fin cfg2.W) → Buf (Elt F) ((cfg2.win w).arr.view.loc (c : Thread nD τ))) : Valuation τ sig (Elt F) :=
  Pipeline.withArrays spec2 c (WB c) A'
theorem exit2_arr (c : Dev nD) (A' : (w : Fin cfg2.W) → Buf (Elt F) ((cfg2.win w).arr.view.loc (c : Thread nD τ))) (w : Fin cfg2.W) :
    exit2 WB c A' (Proc.devRef .tc (Pipeline.arrRef spec2 w)) = A' w := by
  unfold exit2; exact Pipeline.withArrays_arr spec2 launch2.win.arr_inj c _ _ w
theorem exit2_of_ne (c : Dev nD) (A' : (w : Fin cfg2.W) → Buf (Elt F) ((cfg2.win w).arr.view.loc (c : Thread nD τ))) (b : Ref sig .tc)
    (hb : ∀ w, Pipeline.arrRef spec2 w ≠ b) : exit2 WB c A' (Proc.devRef .tc b) = WB c (Proc.devRef .tc b) := by
  unfold exit2; exact Pipeline.withArrays_of_ne spec2 c _ _ b hb
theorem hF2 (c : Dev nD) (A' : (w : Fin cfg2.W) → Buf (Elt F) ((cfg2.win w).arr.view.loc (c : Thread nD τ))) (w : Fin cfg2.W) :
    A' w = VAc c (exit2 WB c A') (Pipeline.arrRef spec2 w) := (exit2_arr WB c A' w).symm
theorem hrest2 (c : Dev nD) (A' : (w : Fin cfg2.W) → Buf (Elt F) ((cfg2.win w).arr.view.loc (c : Thread nD τ))) :
    ∀ b, b ∉ Finset.univ.image (Pipeline.arrRef spec2) → VAc c (exit2 WB c A') b = VA WB c b :=
  fun b hb => exit2_of_ne WB c A' b fun w e => hb (Finset.mem_image.mpr ⟨w, Finset.mem_univ _, e⟩)

set_option backward.isDefEq.respectTransparency.types false in
/-- REGION 0 (`mean_kernel`): entered from every unscoped buffer at `WA`, left with the pooled array at what the
    pipeline's write-backs leave and every other buffer as entered. -/
def reg1 : Pipeline.RDat.RegionSeg (pcfgs (F := F)) adm (rdats (U := U) WA WB) (none : SparseCore.Cfg.HIx 1) defs₀ Variants.none
    (sc (F := F)).L (sc (F := F)).lev 0 where
  win := launch1.win.to₀
  block_pos := launch1.block_pos
  stage_whole := launch1.stage_whole
  K := PEmpty
  osem k := k.elim
  ho := Pipeline.OwnSemFacts.none _
  hbody c := (body_obligation1 (U := U) (VA WA) c).toR
  hwaits := Pipeline.RDat.hwaits_of_owed_zero _ _ _ _ (sc (F := F)).L (sc (F := F)).lev 0 fun _ _ => rfl
  pre c := iprop(StableHlo.held (c : Thread nD τ) (Pipeline.ucRefs τ sig) (WA c) ∗ R c)
  post c := iprop(StableHlo.held (c : Thread nD τ) (Pipeline.ucRefs τ sig)
      (exit1 (U := U) WA c) ∗ R c)
  X c := iprop(∃ r, prngReg c r)
  Y c := iprop(∃ r, prngReg c r)
  Z c := Pipeline.unscopedRest (Ix := SparseCore.Cfg.HIx 1) (Name := ℕ) (U := U) (Lvl := ℕ) spec1 c (VA WA c)
  hentry c := by
    rw [Pipeline.ownSems0_none]
    have hsplit := Pipeline.RDat.arrays_of_unscopedBufs (p := 0) (pcfgs (F := F)) adm (rdats (U := U) WA WB) launch1.win launch1.arr_whole c
      (rshare_full _ fun _ => rfl) (VA WA c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats (U := U) WA WB 0 c).Φ 0 = ΦR spec1 c from rfl]; unfold ΦR
    iintro ⟨Hp, -, Hr⟩
    isplitl [Hr]; · iexact Hr
    iexact Hp
  hout c := by
    rw [Pipeline.ownSems0_none, show (rdats (U := U) WA WB 0 c).Φ (Fin.last _) = ΦR spec1 c from rfl]; unfold ΦR
    iintro ⟨Hr, Hp⟩
    isplitl [Hp]; · iexact Hp
    isplitr; · iempintro
    iexact Hr
  hexit c := by
    have hjoin : iprop((dat1 (U := U) (VA WA) c).arrays ((dat1 (U := U) (VA WA) c).arrAt · cfg1.N)
          ∗ Pipeline.unscopedRest (Ix := SparseCore.Cfg.HIx 1) (Name := ℕ) (U := U) (Lvl := ℕ) spec1 c (VA WA c))
        ⊢ (unscopedBufs c (VA (exit1 (U := U) WA) c) : sProp 𝕄) :=
      unscopedBufs_of_rarrays (p := 0) (rdats (U := U) WA WB) launch1.win launch1.arr_whole c
        (rshare_full _ fun _ => rfl) (VA WA c) (VA (exit1 (U := U) WA) c)
        ((dat1 (U := U) (VA WA) c).arrAt · cfg1.N) (hF1 WA c) (hrest1 WA c)
    rw [Pipeline.unscopedBufs_held] at hjoin
    rw [show (rdats (U := U) WA WB 0 c).arraysAt (Pipeline.pin (pcfgs (F := F)) adm 0).N = (dat1 (U := U) (VA WA) c).toR.arraysAt cfg1.N from rfl,
      Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, %hW, HO⟩; iexists W; isplitr
    · ipureintro; exact wbelow_of_bound c W hW
    iexact HO

set_option backward.isDefEq.respectTransparency.types false in
/-- REGION 1 (`mm_kernel`): entered from every unscoped buffer at `WB`, left at a valuation that agrees with `WB` off the
    padded result and has the padded result at contents its write-backs may leave. -/
def reg2 : Pipeline.RDat.RegionSeg (pcfgs (F := F)) adm (rdats (U := U) WA WB) (none : SparseCore.Cfg.HIx 1) defs₀ Variants.none
    (sc (F := F)).L (sc (F := F)).lev 1 where
  win := launch2.win.to₀
  block_pos := launch2.block_pos
  stage_whole := launch2.stage_whole
  K := PEmpty
  osem k := k.elim
  ho := Pipeline.OwnSemFacts.none _
  hbody c := body_obligation2 (U := U) (VA WB) c
  hwaits := Pipeline.RDat.hwaits_of_owed_zero _ _ _ _ (sc (F := F)).L (sc (F := F)).lev 1 fun _ _ => rfl
  pre c := iprop(StableHlo.held (c : Thread nD τ) (Pipeline.ucRefs τ sig) (WB c) ∗ R c)
  post c := iprop(∃ W' : Valuation τ sig (Elt F), ⌜(∀ b, b ≠ Proc.devRef .tc main_v5 → W' b = WB c b)
      ∧ (rdat2 (U := U) (VA WB) c).ArrAt 3 cfg2.N (W' (Proc.devRef .tc main_v5))⌝
      ∗ StableHlo.held (c : Thread nD τ) (Pipeline.ucRefs τ sig) W' ∗ R c)
  X c := iprop(∃ r, prngReg c r)
  Y c := iprop(∃ r, prngReg c r)
  Z c := Pipeline.unscopedRest (Ix := SparseCore.Cfg.HIx 1) (Name := ℕ) (U := U) (Lvl := ℕ) spec2 c (VA WB c)
  hentry c := by
    rw [Pipeline.ownSems0_none]
    have hsplit := Pipeline.RDat.arrays_of_unscopedBufs (p := 1) (pcfgs (F := F)) adm (rdats (U := U) WA WB) launch2.win launch2.arr_whole c
      (rshare_full _ fun _ => rfl) (VA WB c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats (U := U) WA WB 1 c).Φ 0 = ΦR spec2 c from rfl]; unfold ΦR
    iintro ⟨Hp, -, Hr⟩
    isplitl [Hr]; · iexact Hr
    iexact Hp
  hout c := by
    rw [Pipeline.ownSems0_none, show (rdats (U := U) WA WB 1 c).Φ (Fin.last _) = ΦR spec2 c from rfl]; unfold ΦR
    iintro ⟨Hr, Hp⟩
    isplitl [Hp]; · iexact Hp
    isplitr; · iempintro
    iexact Hr
  hexit c := by
    rw [show (rdats (U := U) WA WB 1 c).arraysAt (Pipeline.pin (pcfgs (F := F)) adm 1).N = (rdat2 (U := U) (VA WB) c).arraysAt cfg2.N from rfl]
    unfold Pipeline.RDat.arraysAt
    rw [bigSep_W2]
    iintro ⟨⟨⟨%A0, %h0, H0⟩, ⟨%A1, %h1, H1⟩, ⟨%A2, %h2, H2⟩, ⟨%A3, %h3, H3⟩⟩, HO, HY, Hrest⟩
    rw [RDat.ArrAt_in _ 0 rfl] at h0
    rw [RDat.ArrAt_in _ 1 rfl] at h1
    rw [RDat.ArrAt_in _ 2 rfl] at h2
    have hjoin := unscopedBufs_of_rarrays (p := 1) (rdats (U := U) WA WB) launch2.win launch2.arr_whole c
      (rshare_full _ fun _ => rfl) (VA WB c)
      (VAc c (exit2 WB c (exitArrs c A0 A1 A2 A3)))
      (exitArrs c A0 A1 A2 A3) (hF2 WB c _) (hrest2 WB c _)
    rw [Pipeline.unscopedBufs_held] at hjoin
    imodintro
    iexists exit2 WB c (exitArrs c A0 A1 A2 A3)
    isplitr
    · ipureintro
      refine ⟨fun b hb => ?_, ?_⟩
      · by_cases h : ∃ w, Proc.devRef .tc (Pipeline.arrRef spec2 w) = b
        · obtain ⟨w, rfl⟩ := h
          rw [exit2_arr WB c _ w]
          match w with
          | ⟨0, _⟩ => exact h0
          | ⟨1, _⟩ => exact h1
          | ⟨2, _⟩ => exact h2
          | ⟨3, _⟩ => exact absurd rfl hb
        · unfold exit2 Pipeline.withArrays; rw [dif_neg h]
      · have e := exit2_arr WB c (exitArrs c A0 A1 A2 A3) 3
        change (rdat2 (U := U) (VA WB) c).ArrAt 3 cfg2.N (exit2 WB c (exitArrs c A0 A1 A2 A3) (Proc.devRef .tc (Pipeline.arrRef spec2 3)))
        rw [e]; exact h3
    isplitl [H0 H1 H2 H3 Hrest]
    · iapply hjoin
      isplitr [Hrest]
      · rw [show (rdats (U := U) WA WB 1 c).arrays (exitArrs c A0 A1 A2 A3) = (rdat2 (U := U) (VA WB) c).arrays (exitArrs c A0 A1 A2 A3) from rfl]
        unfold Pipeline.RDat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, %hW, HO⟩; iexists W; isplitr
    · ipureintro; exact wbelow_of_bound c W hW
    iexact HO

end Records

end Cert.Proof.KI.Regions

end
-- ==== Proof.MainI.lean ====
/-
  @main on the TensorCore of a device, step by step: the index array flattened, the lookup handed to the two
  SparseCores and collected, the pooling region, the bias padded and laid out as a row, the projection region, the
  final slice. The buffers' contents are followed as a chain of valuations from the launch memory.
-/
import proofs.«204109_g84920093377010_cont_9to1_m_793_20_alg».proof.Proof.LaunchI
import proofs.«204109_g84920093377010_cont_9to1_m_793_20_alg».proof.Proof.RegionsI

noncomputable section

namespace Cert.Proof.KI.Main

open Cert.KernelIdeal Cert.KernelIdeal.Gen Cert.Proof.KI.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers of the SparseCore call, and the contents along @main -/

abbrev xf' : DevRef τ sig := Proc.devRef .tc (main_v0 : Ref sig .tc)
abbrev tab' : DevRef τ sig := Proc.devRef .tc (main_arg1 : Ref sig .tc)
abbrev out' : DevRef τ sig := Proc.devRef .tc (main_v1 : Ref sig .tc)

abbrev opR0 : HloOp τ sig (Elt F) := StableHlo.reshape main_arg0 main_v0 rfl shapeCasts_S4096x20_S81920

/-- The launch contents; after the flattening of the index array; after the lookup. -/
def W0 (d : Dev nD) : Valuation τ sig (Elt F) := fun b => m (d, b)
def W1 (d : Dev nD) : Valuation τ sig (Elt F) := (opR0 (F := F)).result (W0 m d)
def W2 (d : Dev nD) : Valuation τ sig (Elt F) := Function.update (W1 m d) out' (Cert.Slab.gathF (W1 m d xf') (W1 m d tab'))

/-- What the handshakes carry, at these contents. -/
abbrev Pm : (K (F := F)).Pay (nD := nD) (Val := Elt F) (Name := ℕ) (U := UU) :=
  P (F := F) (fun d => W1 m d xf') (fun d => W1 m d tab') (fun d => W1 m d out') (fun d => Cert.Slab.gathF (W1 m d xf') (W1 m d tab'))

/-- An unscoped TensorCore buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev T3 : Finset (DevRef τ sig) := {xf', tab', out'}

theorem T3_sub : T3 ⊆ Pipeline.ucRefs τ sig := by
  intro b hb
  rcases Finset.mem_insert.mp hb with rfl | hb
  · exact mem_uc main_v0 (by decide)
  rcases Finset.mem_insert.mp hb with rfl | hb
  · exact mem_uc main_arg1 (by decide)
  · rw [Finset.mem_singleton.mp hb]; exact mem_uc main_v1 (by decide)

/-- The held buffers with the call's three taken out. -/
theorem held_T3 (d : Dev nD) (W : Valuation τ sig (Elt F)) :
    (held (T d) (Pipeline.ucRefs τ sig) W : sProp 𝕄)
      = iprop(((xfLoc d ↦{fullShare} W xf') ∗ (tabLoc d ↦{fullShare} W tab') ∗ (outLoc d ↦{fullShare} W out'))
          ∗ held (T d) (Pipeline.ucRefs τ sig \ T3) W) := by
  rw [held_sub_split (T d) T3_sub W]
  congr 1
  unfold held T3
  rw [SparseCore.bigSep_insert' (by decide), SparseCore.bigSep_insert' (by decide), bigSep_singleton]

/-! ## The output as 2 × 16 slabs -/

/-- Worker numbers are pairs (core, subcore). -/
def widEquiv : Fin 2 × Fin 16 ≃ Fin 32 :=
  Equiv.ofBijective (fun p => Cert.Slab.wid p.1 p.2)
    ⟨Cert.Slab.wid_injective, fun w => let ⟨c, s, h⟩ := Cert.Slab.wid_surjective w; ⟨(c, s), h⟩⟩

theorem out_slabs (d : Dev nD) (o : Buf (Elt F) (outLoc d)) :
    (outLoc d ↦{fullShare} o : sProp 𝕄) = bigSep Finset.univ fun c : Fin 2 => bigSep Finset.univ fun i : Fin 16 => slabPts d (Cert.Slab.wid c i) o := by
  have h32 : (outLoc d ↦{fullShare} o : sProp 𝕄) = bigSep Finset.univ fun w : Fin 32 => slabPts d w o := by
    rw [← pointsTo_biUnion Finset.univ (ℓ := outLoc d) Cert.Slab.tileSet (fun w _ w' _ h => Cert.Slab.tileSet_disjoint h), Cert.Slab.tileSet_cover]; try rfl
  rw [h32, bigSep_univ_equiv widEquiv (fun w => slabPts d w o), bigSep_univ_prod]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Split
variable (d : Dev nD) (xfv : Buf (Elt F) (xfLoc d)) (tabv : Buf (Elt F) (tabLoc d))

/-- The three buffers whole are a remainder of the two inputs and, per core, its read shares and its slabs. -/
theorem call_split (o : Buf (Elt F) (outLoc d)) :
    iprop((xfLoc d ↦{fullShare} xfv) ∗ (tabLoc d ↦{fullShare} tabv) ∗ (outLoc d ↦{fullShare} o))
      ⊣⊢ (iprop(((xfLoc d ↦{Transfers.shareDrop fullShare 2} xfv) ∗ (tabLoc d ↦{Transfers.shareDrop fullShare 2} tabv))
          ∗ bigSep Finset.univ fun c : Fin 2 => iprop(((xfLoc d ↦{tokC c} xfv) ∗ (tabLoc d ↦{tokC c} tabv))
              ∗ bigSep Finset.univ fun i : Fin 16 => slabPts d (Cert.Slab.wid c i) o)) : sProp 𝕄) := by
  rw [out_slabs, bigSep_sep', bigSep_sep']
  constructor
  · iintro ⟨Hx, Ht, Ho⟩
    ihave Hx' := (Transfers.pointsTo_toks_split fullShare 2) $$ Hx
    ihave Ht' := (Transfers.pointsTo_toks_split fullShare 2) $$ Ht
    icases Hx' with ⟨Hxr, Hxs⟩
    icases Ht' with ⟨Htr, Hts⟩
    isplitl [Hxr Htr]
    · isplitl [Hxr] <;> iassumption
    isplitl [Hxs Hts]
    · isplitl [Hxs] <;> iassumption
    iexact Ho
  · iintro ⟨⟨Hxr, Htr⟩, ⟨Hxs, Hts⟩, Ho⟩
    isplitl [Hxr Hxs]
    · iapply (Transfers.pointsTo_toks_join fullShare 2); isplitl [Hxr] <;> iassumption
    isplitl [Htr Hts]
    · iapply (Transfers.pointsTo_toks_join fullShare 2); isplitl [Htr] <;> iassumption
    iexact Ho

end Split

theorem st0_eq (d : Dev nD) : (bigSep Finset.univ fun c : Fin ((K (F := F)).nCore 0) => (Pm m).st 0 d c)
    = bigSep Finset.univ fun c : Fin 2 => iprop(((xfLoc d ↦{tokC c} W1 m d xf') ∗ (tabLoc d ↦{tokC c} W1 m d tab'))
        ∗ bigSep Finset.univ fun i : Fin 16 => slabPts d (Cert.Slab.wid c i) (W1 m d out')) :=
  bigSep_cores (F := F) _
theorem dn0_eq (d : Dev nD) : (bigSep Finset.univ fun c : Fin ((K (F := F)).nCore 0) => (Pm m).dn 0 d c)
    = bigSep Finset.univ fun c : Fin 2 => iprop(((xfLoc d ↦{tokC c} W1 m d xf') ∗ (tabLoc d ↦{tokC c} W1 m d tab'))
        ∗ bigSep Finset.univ fun i : Fin 16 => slabPts d (Cert.Slab.wid c i) (Cert.Slab.gathF (W1 m d xf') (W1 m d tab'))) :=
  bigSep_cores (F := F) _

/-! ## After the lookup -/

theorem W2_xf (d : Dev nD) : W2 m d xf' = W1 m d xf' := Function.update_of_ne (show xf' ≠ out' by decide) _ _
theorem W2_tab (d : Dev nD) : W2 m d tab' = W1 m d tab' := Function.update_of_ne (show tab' ≠ out' by decide) _ _
theorem W2_out (d : Dev nD) : W2 m d out' = Cert.Slab.gathF (W1 m d xf') (W1 m d tab') := Function.update_self _ _ _
theorem W2_of_ne (d : Dev nD) (b : DevRef τ sig) (h : b ≠ out') : W2 m d b = W1 m d b := Function.update_of_ne h _ _

/-- The three buffers back, the output at the looked-up rows, and the rest: every unscoped buffer at the contents after the lookup. -/
theorem held_W2 (d : Dev nD) :
    iprop(((xfLoc d ↦{fullShare} W1 m d xf') ∗ (tabLoc d ↦{fullShare} W1 m d tab') ∗ (outLoc d ↦{fullShare} Cert.Slab.gathF (W1 m d xf') (W1 m d tab')))
        ∗ held (T d) (Pipeline.ucRefs τ sig \ T3) (W1 m d))
      ⊢ (held (T d) (Pipeline.ucRefs τ sig) (W2 m d) : sProp 𝕄) := by
  rw [held_T3 d (W2 m d), W2_xf, W2_tab, W2_out,
    StableHlo.held_congr (T d) (S := Pipeline.ucRefs τ sig \ T3) (V := W2 m d) (V' := W1 m d) (fun b hb => W2_of_ne m d b (fun e =>
      (Finset.mem_sdiff.mp hb).2 (e ▸ Finset.mem_insert_of_mem (Finset.mem_insert_of_mem (Finset.mem_singleton_self _)))))]

/-! ## The host operations of @main -/

abbrev opC : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) :=
  StableHlo.TRef.binary (.of main_arg3 : StableHlo.TRef sig ⟨S100000, .f32⟩) main_call0.v0 main_call0.v1 (fun x v => pad S100352 ![0] ![352] ![0] x v pads_S100000_S100352_03520 h_S_)
abbrev opR1 : HloOp τ sig (Elt F) := StableHlo.reshape main_v3 main_v4 rfl shapeCasts_S100352_S1x100352
abbrev opSl : HloOp τ sig (Elt F) :=
  StableHlo.unary main_v5 main_v6 ((extractStridedSlice S4096x100000 ![0, 0] · slices_S4096x100352_S4096x100000_0_0) : (⟨S4096x100352, .f32⟩ : BufTy).Contents (Elt F) → (⟨S4096x100000, .f32⟩ : BufTy).Contents (Elt F))

theorem hR0 : (opR0 (F := F)).bufs ⊆ Pipeline.ucRefs τ sig := Pipeline.sub_ucRefs _ (StableHlo.reshape_bufs_sub ..)
theorem hC : (opC (F := F)).bufs ⊆ Pipeline.ucRefs τ sig := Pipeline.sub_ucRefs _ (StableHlo.nullary_bufs_sub ..)
theorem hConv : (opConv (F := F)).bufs ⊆ Pipeline.ucRefs τ sig := Pipeline.sub_ucRefs _ (StableHlo.unary_bufs_sub ..)
theorem hPad : (opPad (F := F)).bufs ⊆ Pipeline.ucRefs τ sig := Pipeline.sub_ucRefs _ (StableHlo.binary_bufs_sub ..)
theorem hR1 : (opR1 (F := F)).bufs ⊆ Pipeline.ucRefs τ sig := Pipeline.sub_ucRefs _ (StableHlo.reshape_bufs_sub ..)
theorem hSl : (opSl (F := F)).bufs ⊆ Pipeline.ucRefs τ sig := Pipeline.sub_ucRefs _ (StableHlo.unary_bufs_sub ..)

/-- The TensorCore after the one SparseCore call owes nothing. -/
theorem tcSt_one (d : Dev nD) : ∃ Rst : sProp 𝕄, ((K (F := F)).tcSt EH d 1 : sProp 𝕄)
    = iprop((∃ W, ⌜(K (F := F)).WBelow (T d) W (8 * 1)⌝ ∗ owes (T d) (0 : CellTallies nD τ sig (HIx 1)) W) ∗ Rst) :=
  ⟨_, by unfold SparseCore.Cfg.tcSt; rw [(K (F := F)).Otc_end d (le_refl 1)]⟩

/-! ## The contents after the regions -/

/-- After the pooling region; after the bias is padded and laid out as a row (the projection region's entry). -/
def W3 (d : Dev nD) : Valuation τ sig (Elt F) := Cert.Proof.KI.Regions.exit1 (U := UU) (W2 m) d
def W4 (d : Dev nD) : Valuation τ sig (Elt F) :=
  (opR1 (F := F)).result ((opPad (F := F)).result ((opConv (F := F)).result ((opC (F := F)).result (W3 m d))))

abbrev rdatsM := Cert.Proof.KI.Regions.rdats (F := F) (U := UU) (W2 m) (W4 m)
abbrev regA := Cert.Proof.KI.Regions.reg1 (F := F) (U := UU) (W2 m) (W4 m)
abbrev regB := Cert.Proof.KI.Regions.reg2 (F := F) (U := UU) (W2 m) (W4 m)

abbrev v5' : DevRef τ sig := Proc.devRef .tc (main_v5 : Ref sig .tc)
abbrev v6' : DevRef τ sig := Proc.devRef .tc (main_v6 : Ref sig .tc)

/-- What the final contents are known to be: the projection region's exit contents, whatever they are off the
    region's output array, then the slice. -/
def FQ (d : Dev nD) (Wf : Valuation τ sig (Elt F)) : Prop :=
  ∃ W5 : Valuation τ sig (Elt F), (∀ b, b ≠ v5' → W5 b = W4 m d b)
    ∧ (Cert.Proof.KI.Regions.rdat2 (U := UU) (Cert.Proof.KI.Regions.VA (W4 m)) d).ArrAt 3 cfg2.N (W5 v5')
    ∧ Wf = (opSl (F := F)).result W5

/-- What @main leaves the claim: every unscoped buffer at such contents. -/
def FIN (d : Dev nD) : sProp 𝕄 := iprop(∃ Wf : Valuation τ sig (Elt F), ⌜FQ m d Wf⌝ ∗ held (T d) (Pipeline.ucRefs τ sig) Wf)

/-- The pipelines' ghost state, pipeline by pipeline. -/
theorem G_split (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) :=
  BI.bigSep_fin_two _

end Cert.Proof.KI.Main

end
-- ==== Proof.StepI.lean ====
/-
  Entering a TensorCore kernel region from the @main of a program that also launches SparseCore kernels: the
  region's call is the lifted call of the pipeline library's entry label, so a proof of the region under the
  pipelines' body table is a proof of it under the whole program's.
-/
import proofs.«204109_g84920093377010_cont_9to1_m_793_20_alg».proof.Proof.LaunchI

noncomputable section

namespace Cert.Proof.KI.Step

open Cert.KernelIdeal Cert.KernelIdeal.Gen Cert.Proof.KI.Launch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The region's call in @main is the pipeline library's entry call, lifted. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Q := 1) (.op (.customCall (Pipeline.entry p) ()) fun _ => .ret ⟨⟩) := rfl

/-- A proof of the region's call under the pipelines' body table gives one of @main's line. -/
theorem wp_entry (p : Fin 2) (d : Dev nD) (Φ : PUnit → sProp 𝕄) :
    wp frame (wpE (D (F := F)) 𝒱 (SparseCore.T d) none) Set.univ (.op (.customCall (Pipeline.entry p) ()) fun _ => .ret ⟨⟩) Φ
      ⊢ wp frame (wpE ((K (F := F)).defs (D (F := F))) 𝒱 (SparseCore.T d) none) Set.univ
          (Prog.lift (.customCall (SparseCore.inner (Pipeline.entry p)) ())) Φ := by
  rw [lift_entry]
  exact (K (F := F)).wp_liftProg (D (F := F)) 𝒱 (SparseCore.T d) Set.univ none _ Φ

set_option maxHeartbeats 2000000 in
set_option backward.isDefEq.respectTransparency.types false in
/-- A kernel region of @main, entered from the region boundary, the region's entry state, the level facts and the
    pipeline's staging cells' ghost state and duty tokens; the continuation is owed from the boundary and the
    region's exit state. -/
theorem region_step [∀ e, Nonempty (Elt F e)] {p : Fin 2}
    (rdats : (p : Fin 2) → (c : Dev nD) → Pipeline.RDat τ (Elt F) (HIx 1) ℕ UU ℕ (Pipeline.pin (pcfgs (F := F)) adm p) c)
    (R : Pipeline.RDat.RegionSeg (pcfgs (F := F)) adm rdats (none : HIx 1) defs₀ 𝒱₀ (K (F := F)).L (K (F := F)).lev p)
    (d : Dev nD) (Φ : PUnit → sProp 𝕄) :
    iprop(boundary (SparseCore.T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  have h := Pipeline.RDat.RegionSeg.wp (pcfgs (F := F)) adm rdats (none : HIx 1) cellOf_inj (EP (F := F)) defs₀ 𝒱₀
    (K (F := F)).L (K (F := F)).lev R d none (fun u hu => nomatch hu) (fun _ => .ret ⟨⟩) Φ
  refine BIBase.Entails.trans ?_ (wp_entry p d Φ)
  refine BIBase.Entails.trans ?_ h
  iintro ⟨Hb, Hpre, Hlev, Hcg, Htk, Hk⟩
  isplitl [Hk]
  · iintro H
    rw [wp_ret]; imodintro
    iapply Hk; iexact H
  isplitl [Hb]; · iexact Hb
  isplitl [Hpre]; · iexact Hpre
  isplitl [Hlev]; · iexact Hlev
  isplitl [Hcg]; · iexact Hcg
  iexact Htk

end Cert.Proof.KI.Step

end
-- ==== Proof.HMainI.lean ====
/-
  @main on the TensorCore of a device, run: the index array flattened, the lookup handed to the two SparseCores
  and collected, the pooling region, the bias padded and laid out as a row, the projection region, the final slice.
-/
import proofs.«204109_g84920093377010_cont_9to1_m_793_20_alg».proof.Proof.MainI
import proofs.«204109_g84920093377010_cont_9to1_m_793_20_alg».proof.Proof.StepI

noncomputable section

namespace Cert.Proof.KI.Main

open Cert.KernelIdeal Cert.KernelIdeal.Gen Cert.Proof.KI.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What rides beside the buffers through the regions: the generator register, and the TensorCore owing nothing. -/
abbrev Rr (d : Dev nD) : sProp 𝕄 :=
  iprop((∃ r, prngReg d r) ∗ ∃ W, ⌜(K (F := F)).WBelow (SparseCore.T d) W 8⌝ ∗ owes (SparseCore.T d) (0 : CellTallies nD τ sig (HIx 1)) W)

theorem regA_pre (d : Dev nD) : (regA m).pre d = iprop(held (SparseCore.T d) (Pipeline.ucRefs τ sig) (W2 m d) ∗ Rr (F := F) d) := rfl
theorem regA_post (d : Dev nD) : (regA m).post d = iprop(held (SparseCore.T d) (Pipeline.ucRefs τ sig) (W3 m d) ∗ Rr (F := F) d) := rfl
theorem regB_pre (d : Dev nD) : (regB m).pre d = iprop(held (SparseCore.T d) (Pipeline.ucRefs τ sig) (W4 m d) ∗ Rr (F := F) d) := rfl
theorem regB_post (d : Dev nD) : (regB m).post d = iprop(∃ W' : Valuation τ sig (Elt F), ⌜(∀ b, b ≠ v5' → W' b = W4 m d b)
    ∧ (Cert.Proof.KI.Regions.rdat2 (U := UU) (Cert.Proof.KI.Regions.VA (W4 m)) d).ArrAt 3 cfg2.N (W' v5')⌝
    ∗ held (SparseCore.T d) (Pipeline.ucRefs τ sig) W' ∗ Rr (F := F) d) := rfl

/-! ## @main -/

set_option maxHeartbeats 1000000 in
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) (Pipeline.ucRefs τ sig) (W0 m d)
    from Pipeline.unscopedBufs_held d (W0 m d)]
  simp only [main, fn_pad.body, wp_bind, wp_pure]
  iintro ⟨#Hctx, Hst, ⟨Hb, Hheld, Hsems, Hprng⟩, HG⟩
  -- the index array flattened
  iapply (wp_hlo_within 𝒱 (SparseCore.T d) none Set.univ (op := opR0) (S := Pipeline.ucRefs τ sig) hR0 (V := W0 m d)) $$ [Hb Hheld]
  · isplitl [Hb] <;> iassumption
  iintro ⟨Hb, Hheld⟩
  rw [wp_ret]; imodintro
  -- the lookup: the three buffers to the two SparseCores and back
  ihave Hheld := (Entails.of_eq (show (held (SparseCore.T d) (Pipeline.ucRefs τ sig) ((opR0 (F := F)).result (W0 m d)) : sProp 𝕄)
    = held (SparseCore.T d) (Pipeline.ucRefs τ sig) (W1 m d) from rfl)) $$ Hheld
  ihave Hh := (Entails.of_eq (held_T3 (F := F) d (W1 m d))) $$ Hheld
  icases Hh with ⟨H3, Hrest⟩
  ihave Hs := (call_split d (W1 m d xf') (W1 m d tab') (W1 m d out')).1 $$ H3
  icases Hs with ⟨Hrem, Hcores⟩
  iapply ((K (F := F)).wp_run (D (F := F)) 𝒱 (EH := EH) (P := Pm m) κ d 0) $$ [Hst Hcores Hb Hrest Hrem Hsems Hprng HG]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave H3 := (call_split d (W1 m d xf') (W1 m d tab') (Cert.Slab.gathF (W1 m d xf') (W1 m d tab'))).2 $$ [Hrem Hdn']
  · isplitl [Hrem] <;> iassumption
  ihave Hheld := (held_W2 m d) $$ [H3 Hrest]
  · isplitl [H3] <;> iassumption
  -- the TensorCore now owes nothing
  obtain ⟨Rst, hRst⟩ := tcSt_one (F := F) d
  ihave Hst := (Entails.of_eq (show ((K (F := F)).tcSt EH d ((0 : Fin 1).val + 1) : sProp 𝕄) = (K (F := F)).tcSt EH d 1 from rfl)) $$ Hst
  ihave Hst' := (Entails.of_eq hRst) $$ Hst
  icases Hst' with ⟨Howes, HRst⟩
  ihave Hlev := (SparseCore.Cfg.ctx_levAts κ) $$ Hctx
  ihave HG' := (Entails.of_eq (G_split (F := F) d)) $$ HG
  icases HG' with ⟨⟨Hcg0, Htk0⟩, ⟨Hcg1, Htk1⟩⟩
  -- the pooling region
  iapply (Cert.Proof.KI.Step.region_step (rdatsM m) (regA m) d _) $$ [Hb Hheld Hprng Howes Hlev Hcg0 Htk0 Hcg1 Htk1 HRst Hsems]
  isplitl [Hb]; · iexact Hb
  isplitl [Hheld Hprng Howes]
  · rw [regA_pre]
    isplitl [Hheld]; · iexact Hheld
    isplitl [Hprng]; · iexists _; iexact Hprng
    iexact Howes
  isplitr; · iexact Hlev
  isplitl [Hcg0]; · iexact Hcg0
  isplitl [Htk0]; · iexact Htk0
  iintro ⟨Hb, Hpost⟩
  ihave Hpost := (Entails.of_eq (regA_post m d)) $$ Hpost
  icases Hpost with ⟨Hheld, HR⟩
  ihave Hheld := (Entails.of_eq (show (held (SparseCore.T d) (Pipeline.ucRefs τ sig) (W3 m d) : sProp 𝕄)
    = held (SparseCore.T d) (Pipeline.ucRefs τ sig) (W3 m d) from rfl)) $$ Hheld
  -- the bias: zero word, converted, padded, laid out as a row
  iapply (wp_hlo_within 𝒱 (SparseCore.T d) none Set.univ (op := opC) (S := Pipeline.ucRefs τ sig) hC (V := W3 m d)) $$ [Hb Hheld]
  · isplitl [Hb] <;> iassumption
  iintro ⟨Hb, Hheld⟩
  rw [wp_ret]; imodintro
  iapply (wp_hlo_within 𝒱 (SparseCore.T d) none Set.univ (op := opConv) (S := Pipeline.ucRefs τ sig) hConv (V := (opC (F := F)).result (W3 m d))) $$ [Hb Hheld]
  · isplitl [Hb] <;> iassumption
  iintro ⟨Hb, Hheld⟩
  rw [wp_ret]; imodintro
  iapply (wp_hlo_within 𝒱 (SparseCore.T d) none Set.univ (op := opPad) (S := Pipeline.ucRefs τ sig) hPad (V := (opConv (F := F)).result ((opC (F := F)).result (W3 m d)))) $$ [Hb Hheld]
  · isplitl [Hb] <;> iassumption
  iintro ⟨Hb, Hheld⟩
  rw [wp_ret]; imodintro
  imodintro
  iapply (wp_hlo_within 𝒱 (SparseCore.T d) none Set.univ (op := opR1) (S := Pipeline.ucRefs τ sig) hR1 (V := (opPad (F := F)).result ((opConv (F := F)).result ((opC (F := F)).result (W3 m d))))) $$ [Hb Hheld]
  · isplitl [Hb] <;> iassumption
  iintro ⟨Hb, Hheld⟩
  rw [wp_ret]; imodintro
  -- the projection region
  iapply (Cert.Proof.KI.Step.region_step (rdatsM m) (regB m) d _) $$ [Hb Hheld HR Hlev Hcg1 Htk1 HRst Hsems]
  isplitl [Hb]; · iexact Hb
  isplitl [Hheld HR]
  · rw [regB_pre]
    isplitl [Hheld]; · iexact Hheld
    iexact HR
  isplitr; · iexact Hlev
  isplitl [Hcg1]; · iexact Hcg1
  isplitl [Htk1]; · iexact Htk1
  iintro ⟨Hb, Hpost⟩
  ihave Hpost := (Entails.of_eq (regB_post m d)) $$ Hpost
  icases Hpost with ⟨%W5, %hW5, Hheld, HR⟩
  -- the slice
  iapply (wp_hlo_within 𝒱 (SparseCore.T d) none Set.univ (op := opSl) (S := Pipeline.ucRefs τ sig) hSl (V := W5)) $$ [Hb Hheld]
  · isplitl [Hb] <;> iassumption
  iintro ⟨Hb, Hheld⟩
  rw [wp_ret]; imodintro; imodintro
  isplitl [HR HRst]
  · rw [hRst]
    icases HR with ⟨-, HO⟩
    isplitl [HO]; · iexact HO
    iexact HRst
  unfold FIN
  iexists _; isplitr
  · ipureintro; exact ⟨W5, hW5.1, hW5.2, rfl⟩
  iexact Hheld

end Cert.Proof.KI.Main

end
-- ==== Proof.TileI.lean ====
/-
  One tile's task of the lookup kernel, once, at a symbolic tile and for any float instance.

  Tile (core c, subcore s) is worker w = 2·s + c. Its slab of the flat lookup (81920 × 128) is the 2560 rows
  [2560·w, 2560·w + 2560). In trip k of its twenty trips it copies the 128 index words
  x[2560·w + 128·k .. + 128) into its index scratch, gathers the 128 table rows those words name into its row
  scratch, and copies the row scratch out to rows [2560·w + 128·k .. + 128) of the flat lookup; each copy is waited
  for before the next is issued, one semaphore per copy. Every index word is below 100000 (the hypothesis), so every
  word the gather reads names a row of the table.

  The task holds a share of the whole index array and a share of the whole table, which it only reads, and its slab
  of the output outright. The loop's invariant carries the value: before trip k the rows of the slab below
  2560·w + 128·k hold the lookup — row i is the table row named by the i-th index word — and the rows from there on
  are untouched. One trip moves the boundary by one chunk: entry (a, b) of the row scratch is column b of the table
  row named by word a of the index scratch, which is word 2560·w + 128·k + a of the index array, and the copy-out
  puts it at row 2560·w + 128·k + a, column b. After twenty trips the whole slab holds the lookup.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204109_g84920093377010_cont_9to1_m_793_20_alg».proof.Proof.Gen.KernelIdeal
import proofs.«204109_g84920093377010_cont_9to1_m_793_20_alg».proof.Proof.Gen.KernelIdeal.Skeleton
import proofs.«204109_g84920093377010_cont_9to1_m_793_20_alg».proof.Proof.Spec
import proofs.«204109_g84920093377010_cont_9to1_m_793_20_alg».proof.Proof.Slab

noncomputable section

namespace Cert.Proof.KI.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] {U : Type} [URA U] [CountersIn U]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none

local notation "𝕄" => MT nD τ sig (HIx 1) (Elt F) ℕ U ℕ

/-! ## The three arrays and the two scratch buffers -/

abbrev v0Loc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

local notation "xV" => (Memref.whole Cert.KernelIdeal.main_v0_scv : Memref Cert.KernelIdeal.sig Kind.scVector Space.hbm Cert.KernelIdeal.S81920 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S81920x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-! ## Workers, slabs and chunks

Tile (core c, subcore s) is worker 2·s + c; its slab of the flat lookup is the rows [2560·w, 2560·w + 2560), and
trip k of its loop writes the rows [2560·w + 128·k, 2560·w + 128·k + 128) of it, all 128 columns. -/

omit [FloatOps F] [Named F] [URA U] [CountersIn U] in
theorem bound_zero : grid0.bound 0 = 2 := rfl
omit [FloatOps F] [Named F] [URA U] [CountersIn U] in
theorem bound_one : grid0.bound 1 = 16 := rfl

/-- The worker number of the tile at grid point L. -/
abbrev wid (L : grid0.Coords) : Fin 32 := Cert.Slab.wid ⟨(L 0).val, (L 0).isLt⟩ ⟨(L 1).val, (L 1).isLt⟩

/-- The first row of the tile's slab. -/
def base (L : grid0.Coords) : ℕ := 5120 * (L 1).val + 2560 * (L 0).val

theorem base_eq (L : grid0.Coords) : base L = 2560 * (wid L).val := by
  show 5120 * (L 1).val + 2560 * (L 0).val = 2560 * ((L 1).val * 2 + (L 0).val)
  omega

theorem base_le (L : grid0.Coords) : base L + 2560 ≤ 81920 := by
  have h := (wid L).isLt
  rw [base_eq]; omega

/-- The entries of the flat lookup whose row lies in [a, b). -/
def rowsSet (a b : ℕ) : Finset Cert.Slab.OIdx := Finset.univ.filter fun i => a ≤ (i 0).val ∧ (i 0).val < b

theorem mem_rowsSet {a b : ℕ} {i : Cert.Slab.OIdx} : i ∈ rowsSet a b ↔ a ≤ (i 0).val ∧ (i 0).val < b := by
  simp [rowsSet]

theorem rowsSet_empty (a : ℕ) : rowsSet a a = ∅ := by
  ext i; rw [mem_rowsSet]; simp only [Finset.notMem_empty, iff_false]; omega

theorem rowsSet_union {a b c : ℕ} (hab : a ≤ b) (hbc : b ≤ c) : rowsSet a b ∪ rowsSet b c = rowsSet a c := by
  ext i; rw [Finset.mem_union, mem_rowsSet, mem_rowsSet, mem_rowsSet]; omega

theorem rowsSet_disjoint (a b c : ℕ) : Disjoint (rowsSet a b) (rowsSet b c) :=
  Finset.disjoint_left.mpr fun i hi hj => by rw [mem_rowsSet] at hi hj; omega

/-- The tile's slab is its 2560 rows. -/
theorem tileSet_eq_rows (L : grid0.Coords) : Cert.Slab.tileSet (wid L) = rowsSet (base L) (base L + 2560) := by
  ext i; rw [Cert.Slab.mem_tileSet, mem_rowsSet, base_eq]
  have := (wid L).isLt
  constructor
  · intro h; have := Nat.div_add_mod (i 0).val 2560; have := Nat.mod_lt (i 0).val (show 0 < 2560 by decide); omega
  · intro h; omega

/-- The rectangle of the flat lookup that trip k's copy-out writes, as the program spells it. -/
abbrev orectK (L : grid0.Coords) (k : Fin k0_t1_loop.trips) : Rect S81920x128 :=
  Rect.unit (s := S81920x128) (k0_off2 L k) S128x128.size (k0_off2_inb L k)
/-- The rectangle of the index array that trip k's fetch reads. -/
abbrev irectK (L : grid0.Coords) (k : Fin k0_t1_loop.trips) : Rect S81920 :=
  Rect.unit (s := S81920) (k0_off1 L k) S128.size (k0_off1_inb L k)
abbrev oChunkK (L : grid0.Coords) (k : Fin k0_t1_loop.trips) : Memref sig .scVector .hbm S128x128 .f32 := (oV).slice (orectK L k) (fun _ => rfl)
abbrev iChunkK (L : grid0.Coords) (k : Fin k0_t1_loop.trips) : Memref sig .scVector .hbm S128 .i32 := (xV).slice (irectK L k) (fun _ => rfl)
abbrev tAllK : Memref sig .scVector .hbm S100000x128 .f32 :=
  (tV).slice (Rect.unit (s := S100000x128) ![0, 0] S100000x128.size inb_S100000x128_S100000x128_0_0) (fun _ => rfl)

theorem trips_eq : k0_t1_loop.trips = 20 := by decide

/-- Trip k's chunk of the output is the rows [base + 128·k, base + 128·k + 128). -/
theorem set_oChunkK (L : grid0.Coords) (k : Fin k0_t1_loop.trips) :
    (oChunkK L k).view.set = rowsSet (base L + 128 * k.val) (base L + 128 * k.val + 128) := by
  show ((View.whole (main_v1_scv : Ref sig .scVector)).slice (orectK L k)).set = _
  rw [View.set_slice_whole]
  ext i
  rw [Rect.mem_set_unit, mem_rowsSet, k0_off2_eq]
  unfold base
  constructor
  · intro h
    have h0 : 5120 * (L 1).val + 2560 * (L 0).val + 128 * k.val ≤ (i 0).val
        ∧ (i 0).val < 5120 * (L 1).val + 2560 * (L 0).val + 128 * k.val + 128 := h 0
    exact h0
  · intro h a
    match a with
    | 0 => exact h
    | 1 => exact ⟨Nat.zero_le _, (i 1).isLt⟩

omit [FloatOps F] [Named F] [URA U] [CountersIn U] in
/-- The twenty chunks of a tile are pairwise disjoint … -/
theorem chunks_disjoint (L : grid0.Coords) {k k' : Fin k0_t1_loop.trips} (h : k ≠ k') :
    Disjoint (oChunkK L k).view.set (oChunkK L k').view.set := by
  rw [set_oChunkK, set_oChunkK]
  refine Finset.disjoint_left.mpr fun i hi hj => ?_
  rw [mem_rowsSet] at hi hj
  have hne : k.val ≠ k'.val := Fin.val_ne_of_ne h
  omega

omit [FloatOps F] [Named F] [URA U] [CountersIn U] in
/-- … and together they are the tile's slab. -/
theorem chunks_cover (L : grid0.Coords) :
    (Finset.univ : Finset (Fin k0_t1_loop.trips)).biUnion (fun k => (oChunkK L k).view.set) = Cert.Slab.tileSet (wid L) := by
  rw [tileSet_eq_rows]
  ext i
  rw [Finset.mem_biUnion, mem_rowsSet]
  constructor
  · rintro ⟨k, -, hk'⟩
    rw [set_oChunkK, mem_rowsSet] at hk'
    have hk : k.val < 20 := trips_eq ▸ k.isLt
    omega
  · intro h
    have hk : ((i 0).val - base L) / 128 < k0_t1_loop.trips := by rw [trips_eq]; omega
    refine ⟨⟨((i 0).val - base L) / 128, hk⟩, Finset.mem_univ _, ?_⟩
    rw [set_oChunkK, mem_rowsSet]
    show base L + 128 * (((i 0).val - base L) / 128) ≤ (i 0).val
      ∧ (i 0).val < base L + 128 * (((i 0).val - base L) / 128) + 128
    omega

/-! ## The tile's thread, its semaphores and its scratch -/

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

section Body

variable (d : Dev nD) (L : grid0.Coords)

omit [FloatOps F] [Named F] [CountersIn U] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] [Named F] [CountersIn U] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The value: row i of the flat lookup is the table row the i-th index word names -/

/-- The flat lookup as one function of the index array and the table, at the arrays' own index types. -/
abbrev gathF {d : Dev nD} (xf : Buf (Elt F) (v0Loc d)) (tab : Buf (Elt F) (tabLoc d)) : Buf (Elt F) (outLoc d) :=
  Cert.Slab.gathF xf tab

omit [FloatOps F] [Named F] [CountersIn U] in
/-- The rows still to do before trip k are trip k's chunk and the rows still to do after it. -/
theorem todo_split (k : Fin k0_t1_loop.trips) (q : PosShare TreeShare) (f : Buf (Elt F) (outLoc d)) :
    (outLoc d ↦[rowsSet (base L + 128 * k.val) (base L + 2560)]{q} f : sProp 𝕄)
      ⊣⊢ iprop(((oChunkK L k).view.loc (thrV d L) ↦[(oChunkK L k).view.set]{q} f)
          ∗ outLoc d ↦[rowsSet (base L + 128 * (k.val + 1)) (base L + 2560)]{q} f) := by
  have hk : k.val < 20 := trips_eq ▸ k.isLt
  have hsplit : rowsSet (base L + 128 * k.val) (base L + 2560)
      = (oChunkK L k).view.set ∪ rowsSet (base L + 128 * (k.val + 1)) (base L + 2560) := by
    rw [set_oChunkK, show base L + 128 * k.val + 128 = base L + 128 * (k.val + 1) by omega]
    exact (rowsSet_union (by omega) (by omega)).symm
  have hdisj : Disjoint (oChunkK L k).view.set (rowsSet (base L + 128 * (k.val + 1)) (base L + 2560)) := by
    rw [set_oChunkK, show base L + 128 * k.val + 128 = base L + 128 * (k.val + 1) by omega]
    exact rowsSet_disjoint _ _ _
  rw [hsplit]
  exact pointsTo_union (ℓ := outLoc d) (q := q) (f := f) (I := (oChunkK L k).view.set)
    (J := rowsSet (base L + 128 * (k.val + 1)) (base L + 2560)) hdisj

omit [FloatOps F] [Named F] [CountersIn U] in
/-- The rows done before trip k and trip k's chunk are the rows done before trip k + 1. -/
theorem done_join (k : Fin k0_t1_loop.trips) (q : PosShare TreeShare) (f : Buf (Elt F) (outLoc d)) :
    (outLoc d ↦[rowsSet (base L) (base L + 128 * (k.val + 1))]{q} f : sProp 𝕄)
      ⊣⊢ iprop((outLoc d ↦[rowsSet (base L) (base L + 128 * k.val)]{q} f)
          ∗ (oChunkK L k).view.loc (thrV d L) ↦[(oChunkK L k).view.set]{q} f) := by
  have hsplit : rowsSet (base L) (base L + 128 * (k.val + 1))
      = rowsSet (base L) (base L + 128 * k.val) ∪ (oChunkK L k).view.set := by
    rw [set_oChunkK, show base L + 128 * k.val + 128 = base L + 128 * (k.val + 1) by omega]
    exact (rowsSet_union (by omega) (by omega)).symm
  have hdisj : Disjoint (rowsSet (base L) (base L + 128 * k.val)) (oChunkK L k).view.set := by
    rw [set_oChunkK]
    exact rowsSet_disjoint _ _ _
  rw [hsplit]
  exact pointsTo_union (ℓ := outLoc d) (q := q) (f := f) (I := rowsSet (base L) (base L + 128 * k.val))
    (J := (oChunkK L k).view.set) hdisj

omit [Named F] [URA U] [CountersIn U] in
/-- The words the index fetch of trip k landed in the index scratch are in range of the table's rows: they are a chunk
    of the index array, every word of which is. -/
theorem inb_of_lt {xf : Buf (Elt F) (v0Loc d)} (hxf : ∀ i, (xf i).toNat < 100000) (k : Fin k0_t1_loop.trips)
    (fs : Buf (Elt F) ((sV).view.loc (thrV d L))) (pay : S128.Idx → Elt F .i32)
    (hpay : pay = (iChunkK L k).view.read (Elt F) xf) :
    ∀ x, ((sV).view.read (Elt F) (View.write (Elt F) (sV).view fs pay Finset.univ) x).toNat
      < S100000x128.size gathers_S100000x128_S128x128.axis := by
  subst hpay; intro x
  rw [View.write_whole_univ]
  simp only [Memref.view_whole, View.read_whole]
  rw [show ∀ j, (iChunkK L k).view.read (Elt F) xf j = xf ((iChunkK L k).view.emb j) from
    fun j => (View.read_apply _ _).trans (cast_eq _ _)]
  exact hxf _

/-! ## The value of one chunk -/

section Value
open Idealize.ShloMosaic.ValueIdx

omit [FloatOps F] [Named F] [URA U] [CountersIn U] in
/-- A position of the one-axis index scratch, read back from its row-major number, is that number. -/
theorem rowMajor_symm_val (j : Fin S128.numel) : ((S128.rowMajor.symm j) 0).val = j.val := by
  have h := Shape.rowMajor_val_one (S128.rowMajor.symm j)
  rw [Equiv.apply_symm_apply] at h
  exact h.symm

/-- The row of the flat lookup that entry (a, ·) of trip k's chunk is. -/
theorem chunk_row_lt (k : Fin k0_t1_loop.trips) (a : Fin 128) : base L + 128 * k.val + a.val < 81920 := by
  have hk : k.val < 20 := trips_eq ▸ k.isLt
  have := base_le L
  omega

omit [FloatOps F] [Named F] [URA U] [CountersIn U] in
/-- Entry (a, b) of trip k's output chunk is entry (base + 128·k + a, b) of the flat lookup. -/
theorem oChunk_emb (k : Fin k0_t1_loop.trips) (a b : Fin 128) :
    (oChunkK L k).view.emb (ix2 a b) = (ix2 ⟨base L + 128 * k.val + a.val, chunk_row_lt L k a⟩ b : S81920x128.Idx) := by
  funext c
  apply Fin.ext
  show ((orectK L k).emb (ix2 a b) c).val = _
  rw [Rect.emb_apply, Rect.off_unit, Rect.stride_unit, k0_off2_eq]
  unfold base
  match c with
  | 0 => show 5120 * (L 1).val + 2560 * (L 0).val + 128 * k.val + 1 * a.val = 5120 * (L 1).val + 2560 * (L 0).val + 128 * k.val + a.val; omega
  | 1 => show 0 + 1 * b.val = b.val; omega

omit [FloatOps F] [Named F] [URA U] [CountersIn U] in
/-- Word a of trip k's index chunk is word base + 128·k + a of the index array. -/
theorem iChunk_emb (k : Fin k0_t1_loop.trips) (y : S128.Idx) :
    (iChunkK L k).view.emb y = (ix1 ⟨base L + 128 * k.val + (y 0).val, chunk_row_lt L k (y 0)⟩ : S81920.Idx) := by
  funext c
  apply Fin.ext
  show ((irectK L k).emb y c).val = _
  rw [Rect.emb_apply, Rect.off_unit, Rect.stride_unit, k0_off1_eq]
  unfold base
  match c with
  | 0 => show 5120 * (L 1).val + 2560 * (L 0).val + 128 * k.val + 1 * (y 0).val = 5120 * (L 1).val + 2560 * (L 0).val + 128 * k.val + (y 0).val; omega

omit [Named F] [URA U] [CountersIn U] in
/-- What the copy-out of a trip leaves on its chunk: the payload, entry by entry. -/
theorem copyout_value (k : Fin k0_t1_loop.trips) (o g : Buf (Elt F) (outLoc d)) (pay : S128x128.Idx → Elt F .f32)
    (hg : ∀ a b : Fin 128, pay (ix2 a b) = g ((oChunkK L k).view.emb (ix2 a b))) :
    ∀ i ∈ (oChunkK L k).view.set, (oChunkK L k).view.writes (Elt F) o [⟨Rect.whole S128x128, pay⟩] i = g i := by
  intro i hi
  obtain ⟨j, -, rfl⟩ := Finset.mem_map.mp hi
  obtain ⟨a, b, rfl⟩ : ∃ (a b : Fin 128), j = ix2 a b := ⟨j 0, j 1, eq_ix2 j⟩
  have h := View.read_writes_cons_emb (oChunkK L k).view o (Rect.whole S128x128) pay [] (ix2 a b)
  rw [Rect.emb_whole_apply, View.read_apply] at h
  exact ((cast_eq _ _).symm.trans h).trans (hg a b)

omit [Named F] [URA U] [CountersIn U] in
/-- The row scratch read back after the gather wrote it whole is the gather's payload. -/
theorem readback_value (fr : Buf (Elt F) ((rV).view.loc (thrV d L))) (G : cc0_scratch1.ty.shape.Idx → Elt F cc0_scratch1.ty.elt)
    (x : cc0_scratch1.ty.shape.Idx) :
    (rV).view.read (Elt F) ((rV).view.writes (Elt F) fr [⟨Rect.whole cc0_scratch1.ty.shape, G⟩]) x = G x := by
  have h := View.read_writes_cons_emb (rV).view fr (Rect.whole cc0_scratch1.ty.shape) G [] x
  rw [Rect.emb_whole_apply] at h
  exact h

omit [Named F] [URA U] [CountersIn U] in
/-- The gather's payload at (a, b): column b of the table row the list names at a. -/
theorem gather_value (tab : Buf (Elt F) (tabLoc d)) (r : Fin (S128x128.size gathers_S100000x128_S128x128.axis') → Fin (S100000x128.size gathers_S100000x128_S128x128.axis))
    (a b : Fin 128) :
    SparseCore.gatherPayload gathers_S100000x128_S128x128 ((tAllK).view.read (Elt F) tab) r (ix2 a b)
      = tab (ix2 (r a) b : S100000x128.Idx) := by
  unfold SparseCore.gatherPayload
  rw [View.read_apply, cast_eq]
  congr 1
  funext c
  apply Fin.ext
  show ((Rect.unit (s := S100000x128) ![0, 0] S100000x128.size inb_S100000x128_S100000x128_0_0).emb
    (gathers_S100000x128_S128x128.idx r (ix2 a b)) c).val = _
  rw [Rect.emb_apply, Rect.off_unit, Rect.stride_unit]
  match c with
  | 0 =>
    have h := Shape.Gathers.idx_axis gathers_S100000x128_S128x128 r (ix2 a b)
    show 0 + 1 * (gathers_S100000x128_S128x128.idx r (ix2 a b) gathers_S100000x128_S128x128.axis).val = (r a).val
    rw [h]; show 0 + 1 * (r a).val = (r a).val; omega
  | 1 =>
    have h := Shape.Gathers.idx_of_ne gathers_S100000x128_S128x128 r (ix2 a b) 1 (by decide)
    show 0 + 1 * (gathers_S100000x128_S128x128.idx r (ix2 a b) 1).val = b.val
    rw [h]; show 0 + 1 * b.val = b.val; omega

omit [Named F] [URA U] [CountersIn U] in
/-- After trip k's three copies the chunk of the output holds the lookup: entry (a, b) of the row scratch is column b
    of the table row named by word a of the index scratch, which is word base + 128·k + a of the index array, and
    the copy-out puts it at row base + 128·k + a, column b. -/
theorem chunk_value {xf : Buf (Elt F) (v0Loc d)} {tab : Buf (Elt F) (tabLoc d)} (hxf : ∀ i, (xf i).toNat < 100000)
    (k : Fin k0_t1_loop.trips) (o : Buf (Elt F) (outLoc d))
    (fs : Buf (Elt F) ((sV).view.loc (thrV d L))) (fr : Buf (Elt F) ((rV).view.loc (thrV d L)))
    (pay0 : S128.Idx → Elt F .i32) (hpay0 : pay0 = (iChunkK L k).view.read (Elt F) xf)
    (hin : ∀ x, ((sV).view.read (Elt F) (View.write (Elt F) (sV).view fs pay0 Finset.univ) x).toNat
      < S100000x128.size gathers_S100000x128_S128x128.axis)
    (pay : S128x128.Idx → Elt F .f32)
    (hpay : pay = (rV).view.read (Elt F) ((rV).view.writes (Elt F) fr
      [⟨Rect.whole S128x128, SparseCore.gatherPayload gathers_S100000x128_S128x128 ((tAllK).view.read (Elt F) tab)
        (SparseCore.rows ((sV).view.read (Elt F) (View.write (Elt F) (sV).view fs pay0 Finset.univ)) rfl hin)⟩])) :
    ∀ i ∈ (oChunkK L k).view.set,
      (oChunkK L k).view.writes (Elt F) o [⟨Rect.whole S128x128, pay⟩] i = gathF xf tab i := by
  subst hpay
  refine copyout_value d L k o (gathF xf tab) _ fun a b => ?_
  refine (readback_value d L fr _ (ix2 a b)).trans ?_
  refine (gather_value d tab _ a b).trans ?_
  rw [oChunk_emb]
  show _ = tab (ix2 (Cert.Spec.row (xf (ix1 ⟨base L + 128 * k.val + a.val, chunk_row_lt L k a⟩))) b)
  congr 2
  apply Fin.ext
  rw [Cert.Spec.row_val_of_lt (hxf _)]
  show (((sV).view.read (Elt F) (View.write (Elt F) (sV).view fs pay0 Finset.univ))
    (S128.rowMajor.symm (Fin.cast (rfl : S128.numel = S128x128.size gathers_S100000x128_S128x128.axis').symm a))).toNat = _
  rw [View.write_whole_univ]
  simp only [Memref.view_whole, View.read_whole]
  subst hpay0
  rw [View.read_apply, cast_eq, iChunk_emb]
  congr 3
  apply Fin.ext
  show base L + 128 * k.val + ((S128.rowMajor.symm (Fin.cast (rfl : S128.numel = S128x128.size gathers_S100000x128_S128x128.axis').symm a)) 0).val
    = base L + 128 * k.val + a.val
  rw [rowMajor_symm_val]
  rfl

end Value

/-! ## The loop's invariant -/

/-- Before trip k: the index array and the table at their shares; the rows of the slab below chunk k at the lookup,
    the rows from chunk k on as they were; the two scratch buffers at some contents; the three counters at zero; the
    waits recorded so far all at index none. -/
def inv (xf : Buf (Elt F) (v0Loc d)) (tab : Buf (Elt F) (tabLoc d)) (o0 : Buf (Elt F) (outLoc d)) (q q' : PosShare TreeShare)
    (O : CellTallies nD τ sig (HIx 1)) (W : Waits sig (HIx 1)) (k : Nat) (_ : PUnit) : sProp 𝕄 :=
  iprop(Transfers.MayWaits (thrV d L) (none : HIx 1) O
    ∗ ((xV).view.loc (thrV d L) ↦{q} xf)
    ∗ ((tV).view.loc (thrV d L) ↦{q'} tab)
    ∗ (outLoc d ↦[rowsSet (base L) (base L + 128 * k)]{fullShare} gathF xf tab)
    ∗ (outLoc d ↦[rowsSet (base L + 128 * k) (base L + 2560)]{fullShare} o0)
    ∗ (∃ fs, (sV).view.loc (thrV d L) ↦{fullShare} fs)
    ∗ (∃ fr, (rV).view.loc (thrV d L) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (thrV d L) O W')

end Body

/-! ## The task -/

set_option maxHeartbeats 4000000 in
/-- The task on vector subcore (L 0, L 1) of device d: from shares of the index array and of the table and the tile's
    slab of the flat lookup at any contents, to the same shares and the slab at the lookup. -/
theorem tile_body (hF : (K (F := F)).Facts) (d : Dev nD) (L : grid0.Coords) (xf : Buf (Elt F) (v0Loc d)) (tab : Buf (Elt F) (tabLoc d)) (o0 : Buf (Elt F) (outLoc d))
    (hxf : ∀ i, (xf i).toNat < 100000) (q q' : PosShare TreeShare)
    (O : CellTallies nD τ sig (HIx 1)) (W : Waits sig (HIx 1)) (hO : ∀ g, O g none = 0) :
    iprop(levAts (K (F := F)).L (K (F := F)).lev ∗ emp
        ∗ ((v0Loc d ↦{q} xf) ∗ (tabLoc d ↦{q'} tab) ∗ (outLoc d ↦[Cert.Slab.tileSet (wid L)]{fullShare} o0))
        ∗ scopedBufs (thrV d L) ∗ scopedSems0 (thrV d L) ∗ owes (thrV d L) O W)
      ⊢ (wp frame (wpE (defs₀ (F := F)) 𝒱₀ (thrV d L) none) Set.univ
          (cc0_gather_kernel L xV (Memref.isWhole_whole _) tV (Memref.isWhole_whole _) oV (Memref.isWhole_whole _)
            sV (Memref.isWhole_whole _) rV (Memref.isWhole_whole _) cc0_scratch2 cc0_scoped0 cc0_scoped1)
          (fun _ => iprop(((v0Loc d ↦{q} xf) ∗ (tabLoc d ↦{q'} tab) ∗ (outLoc d ↦[Cert.Slab.tileSet (wid L)]{fullShare} gathF xf tab))
            ∗ scopedBufs (thrV d L) ∗ scopedSems0 (thrV d L)
            ∗ ∃ W', ⌜∀ p ∈ W', p ∈ W ∨ p.2 = none⌝ ∗ owes (thrV d L) O W')) : sProp 𝕄) := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    tileSet_eq_rows]
  iintro ⟨#Hlv, -, ⟨Hx, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thrV d L) (default : HIx 1) O from
    (K (F := F)).mayWaits_none (thr := thrV d L) hO) $$ Hlv
  sl_for (inv d L xf tab o0 q q' O W) $$ [Hmw Hx Ht Ho Hs Hr HsemG HsemA HsemB HO]
  case region =>
    intro k _
    unfold inv
    iintro ⟨Hmw, Hx, Ht, Hdone, Htodo, ⟨%fs, Hs⟩, ⟨%fr, Hr⟩, HsemG, HsemA, HsemB, %W', %hW', HO⟩
    ihave Htodo' := (todo_split (F := F) (U := U) d L k fullShare o0).1 $$ Htodo
    icases Htodo' with ⟨Ho, Hrest⟩
    -- the index fetch and its wait
    sl_exec
    -- the words just landed are in range: the gather, its wait, the copy-out and its wait
    have hin := inb_of_lt (F := F) d L hxf k fs (tile_body.sl.dma0 d L xf k) rfl
    sl_exec
    sl_step
    isplitl [Hmw]; · iexact Hmw
    isplitl [Hx]; · iexact Hx
    isplitl [Ht]; · iexact Ht
    isplitl [Hdone Ho]
    · iapply (done_join (F := F) (U := U) d L k fullShare (gathF xf tab)).2
      isplitl [Hdone]; · iexact Hdone
      iapply (Entails.of_eq (pointsTo_congr (chunk_value (F := F) d L hxf k o0 fs fr (tile_body.sl.dma0 d L xf k) rfl hin
        (tile_body.sl.dma0_1 d L xf tab k fs fr hin) rfl)))
      iexact Ho
    isplitl [Hrest]; · iexact Hrest
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · -- before the first trip nothing is done and the whole slab is to do
    unfold inv
    have e0 : rowsSet (base L) (base L + 128 * 0) = ∅ := by rw [Nat.mul_zero, Nat.add_zero]; exact rowsSet_empty _
    have e1 : rowsSet (base L + 128 * 0) (base L + 2560) = rowsSet (base L) (base L + 2560) := by rw [Nat.mul_zero, Nat.add_zero]
    rw [e0, e1, pointsTo_empty]
    isplitl [Hmw]; · iexact Hmw
    isplitl [Hx]; · iexact Hx
    isplitl [Ht]; · iexact Ht
    isplitr; · iempintro
    isplitl [Ho]; · iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  -- after the last trip the whole slab is done
  iintro %_ HI
  unfold inv
  icases HI with ⟨-, Hx, Ht, Hdone, Htodo, ⟨%fs', Hs⟩, ⟨%fr', Hr⟩, HsemG, HsemA, HsemB, %W', %hW', HO⟩
  ihave Hdone' := (Entails.of_eq (show (outLoc d ↦[rowsSet (base L) (base L + 128 * k0_t1_loop.trips)]{fullShare} gathF xf tab : sProp 𝕄)
      = outLoc d ↦[rowsSet (base L) (base L + 2560)]{fullShare} gathF xf tab by rw [trips_eq])) $$ Hdone
  ihave He := (Entails.of_eq (show (outLoc d ↦[rowsSet (base L + 128 * k0_t1_loop.trips) (base L + 2560)]{fullShare} o0 : sProp 𝕄)
      = (iprop(emp) : sProp 𝕄) by rw [trips_eq, show base L + 128 * 20 = base L + 2560 by omega, rowsSet_empty, pointsTo_empty])) $$ Htodo
  icases He with -
  sl_exec
  sl_step
  isplitl [Hx Ht Hdone']
  · isplitl [Hx]; · iexact Hx
    isplitl [Ht]; · iexact Ht
    iexact Hdone'
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Cert.Proof.KI.Tile

end
-- ==== Proof.ObligI.lean ====
/-
  The vector-subcore kernel's obligation for the launch: one subcore's task, from its read shares of the index
  array and the table and its slab of the output, to the same with the slab holding the looked-up rows.
-/
import proofs.«204109_g84920093377010_cont_9to1_m_793_20_alg».proof.Proof.LaunchI
import proofs.«204109_g84920093377010_cont_9to1_m_793_20_alg».proof.Proof.TileI

noncomputable section

namespace Cert.Proof.KI.Oblig

open Cert.KernelIdeal Cert.KernelIdeal.Gen Cert.Proof.KI.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The grid point of subcore s of core c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) cc0_scratch2 cc0_scoped0 cc0_scoped1) ⟨⟩ c s := rfl

section
variable (xf : (d : Dev nD) → Buf (Elt F) (xfLoc d)) (tab : (d : Dev nD) → Buf (Elt F) (tabLoc d))
  (o0 : (d : Dev nD) → Buf (Elt F) (outLoc d))

set_option maxRecDepth 16384 in
theorem tileObl (hF : (K (F := F)).Facts) (hxf : ∀ d i, (xf d i).toNat < 100000) :
    (K (F := F)).TileObl (D (F := F)) 𝒱 (P xf tab o0 (fun d => Cert.Slab.gathF (xf d) (tab d))) v₀ 0 := by
  intro d c i O W hO _ _
  simp only [show (P (F := F) xf tab o0 (fun d => Cert.Slab.gathF (xf d) (tab d))).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BIBase.Entails.trans ?_ ((Cert.Proof.KI.Tile.tile_body (U := UU) hF d (coordsV ⟨_, hci.1⟩ ⟨_, hci.2⟩) (xf d) (tab d) (o0 d) (hxf d)
    (tokT (cC c) (iT i)) (tokT (cC c) (iT i)) O W hO).trans (wp_mono frame _ _ fun _ => ?_))
  · rw [show (P (F := F) xf tab o0 (fun d => Cert.Slab.gathF (xf d) (tab d))).go 0 d c i
        = iprop(inPts xf tab d (tokT (cC c) (iT i)) ∗ slabPts d (Cert.Slab.wid (cC c) (iT i)) (o0 d)) from rfl]
    iintro ⟨Hlv, -, ⟨⟨Hxf, Htab⟩, Hslab⟩, Hsb, Hss, HO⟩
    isplitl [Hlv]; · iexact Hlv
    isplitr; · iempintro
    isplitl [Hxf Htab Hslab]
    · isplitl [Hxf]; · iexact Hxf
      isplitl [Htab]; · iexact Htab
      iexact Hslab
    isplitl [Hsb]; · iexact Hsb
    isplitl [Hss]; · iexact Hss
    iexact HO
  · rw [show (P (F := F) xf tab o0 (fun d => Cert.Slab.gathF (xf d) (tab d))).td 0 d c i
        = iprop(inPts xf tab d (tokT (cC c) (iT i)) ∗ slabPts d (Cert.Slab.wid (cC c) (iT i)) (Cert.Slab.gathF (xf d) (tab d))) from rfl]
    iintro ⟨⟨Hxf, Htab, Hslab⟩, Hsb, Hss, %W', %hW', HO⟩
    isplitl [Hxf Htab Hslab]
    · isplitl [Hxf Htab]
      · isplitl [Hxf]; · iexact Hxf
        iexact Htab
      iexact Hslab
    isplitl [Hsb]; · iexact Hsb
    isplitl [Hss]; · iexact Hss
    iexists W'; isplitr
    · ipureintro; exact fun p hp => (hW' p hp).imp_right Or.inl
    · iexact HO

end

end Cert.Proof.KI.Oblig

end
-- ==== Proof.KValueI.lean ====
/-
  What the kernel program's final contents are at a buffer the program never writes.

  The chain of contents along @main (launch; the index array flattened; the lookup; the pooling region; the bias
  padded and laid out as a row; the projection region; the final slice) writes nine buffers and no other: the
  flattened indices, the looked-up rows, the pooled rows, the integer zero and its float conversion, the padded
  bias and its row form, the projection's array and its slice. An argument buffer is none of them, so walking
  the chain back from the final contents at an argument ends at the launch memory. The flattened index array is
  the index array in row-major order, so a range that holds of every index word holds of every flattened word.
  All of this holds at every float instance.
-/
import proofs.«204109_g84920093377010_cont_9to1_m_793_20_alg».proof.Proof.MainI
import Idealize.ShloMosaic.Lib.ValueLayout

noncomputable section

namespace Cert.Proof.KI.KValue

open Cert.KernelIdeal Cert.KernelIdeal.Gen Cert.Proof.KI.Launch Cert.Proof.KI.Main
open Idealize.ShloMosaic

variable {F : FTy → Type} [FloatOps F] [Named F]
variable (m : (ℓ : Loc nD τ sig) → Buf (Elt F) ℓ) (d : Dev nD)

/-! ## A buffer the chain does not write ends as launched -/

section Walk
variable (a : Ref sig .tc)

/-- The flattening writes only the flat index array. -/
theorem W1_of_ne (h0 : a ≠ main_v0) : W1 m d (Proc.devRef .tc a) = m (d, Proc.devRef .tc a) := by
  unfold W1
  exact StableHlo.reshape_result_ne _ _ _ _ _ _ (W0 m d) h0

/-- The lookup writes only the looked-up rows. -/
theorem W2_of_ne' (h0 : a ≠ main_v0) (h1 : a ≠ main_v1) : W2 m d (Proc.devRef .tc a) = m (d, Proc.devRef .tc a) :=
  (W2_of_ne m d _ (StableHlo.devRef_ne_of_ne h1)).trans (W1_of_ne m d a h0)

/-- The pooling region leaves every buffer but its two arrays as entered. -/
theorem W3_of_ne (h0 : a ≠ main_v0) (h1 : a ≠ main_v1) (hs : ∀ w, Pipeline.arrRef spec1 w ≠ a) :
    W3 m d (Proc.devRef .tc a) = m (d, Proc.devRef .tc a) := by
  unfold W3
  exact (Cert.Proof.KI.Regions.exit1_of_ne (U := UU) (W2 m) d a hs).trans (W2_of_ne' m d a h0 h1)

/-- The four host operations before the projection write only the integer zero, its conversion, the padded
    bias and its row form. -/
theorem W4_of_ne (hc : a ≠ main_c) (hv : a ≠ main_call0_v0) (h3 : a ≠ main_v3) (h4 : a ≠ main_v4) :
    W4 m d (Proc.devRef .tc a) = W3 m d (Proc.devRef .tc a) := by
  unfold W4
  exact (StableHlo.reshape_result_ne _ _ _ _ _ _ _ h4).trans ((StableHlo.binary_result_ne _ _ _ _ _ _ _ _ h3).trans
    ((StableHlo.unary_result_ne _ _ _ _ _ _ hv).trans (StableHlo.nullary_result_ne _ _ _ _ hc)))

/-- The projection region's exit contents differ from its entry contents only at its output array, and the
    slice writes only its result. -/
theorem FQ_of_ne {Wf : Valuation τ sig (Elt F)} (h : FQ m d Wf) (h5 : a ≠ main_v5) (h6 : a ≠ main_v6) :
    Wf (Proc.devRef .tc a) = W4 m d (Proc.devRef .tc a) := by
  obtain ⟨W5, hrest, -, rfl⟩ := h
  exact (StableHlo.unary_result_ne _ _ _ _ _ W5 h6).trans (hrest _ (StableHlo.devRef_ne_of_ne h5))

/-- A buffer that is none of the nine the chain writes ends at the launch memory. -/
theorem FQ_unwritten {Wf : Valuation τ sig (Elt F)} (h : FQ m d Wf) (h0 : a ≠ main_v0) (h1 : a ≠ main_v1)
    (hs : ∀ w, Pipeline.arrRef spec1 w ≠ a) (hc : a ≠ main_c) (hv : a ≠ main_call0_v0) (h3 : a ≠ main_v3)
    (h4 : a ≠ main_v4) (h5 : a ≠ main_v5) (h6 : a ≠ main_v6) : Wf (Proc.devRef .tc a) = m (d, Proc.devRef .tc a) :=
  (FQ_of_ne m d a h h5 h6).trans ((W4_of_ne m d a hc hv h3 h4).trans (W3_of_ne m d a h0 h1 hs))

end Walk

/-! ## The four arguments -/

section Args
variable {m d} {Wf : Valuation τ sig (Elt F)}

theorem FQ_arg0 (h : FQ m d Wf) : Wf (Proc.devRef .tc main_arg0) = m ((SparseCore.T d).loc main_arg0) :=
  FQ_unwritten m d main_arg0 h (by decide) (by decide) (by decide) (by decide) (by decide) (by decide) (by decide) (by decide) (by decide)
theorem FQ_arg1 (h : FQ m d Wf) : Wf (Proc.devRef .tc main_arg1) = m ((SparseCore.T d).loc main_arg1) :=
  FQ_unwritten m d main_arg1 h (by decide) (by decide) (by decide) (by decide) (by decide) (by decide) (by decide) (by decide) (by decide)
theorem FQ_arg2 (h : FQ m d Wf) : Wf (Proc.devRef .tc main_arg2) = m ((SparseCore.T d).loc main_arg2) :=
  FQ_unwritten m d main_arg2 h (by decide) (by decide) (by decide) (by decide) (by decide) (by decide) (by decide) (by decide) (by decide)
theorem FQ_arg3 (h : FQ m d Wf) : Wf (Proc.devRef .tc main_arg3) = m ((SparseCore.T d).loc main_arg3) :=
  FQ_unwritten m d main_arg3 h (by decide) (by decide) (by decide) (by decide) (by decide) (by decide) (by decide) (by decide) (by decide)

end Args

/-! ## The flat index array -/

/-- The flat index array is the index array in row-major order. -/
theorem W1_xf_eq : W1 m d xf' = shapeCast S81920 (m ((SparseCore.T d).loc main_arg0)) shapeCasts_S4096x20_S81920 :=
  StableHlo.reshape_result main_arg0 main_v0 rfl shapeCasts_S4096x20_S81920 _ _ (W0 m d)

/-- The flat index array at position 20·r + j is the index array at (r, j). -/
theorem W1_xf_apply (r : Fin 4096) (j : Fin 20) (h : 20 * r.val + j.val < 81920) :
    W1 m d xf' (ValueIdx.ix1 ⟨20 * r.val + j.val, h⟩) = m ((SparseCore.T d).loc main_arg0) (ValueIdx.ix2 r j) := by
  rw [W1_xf_eq]
  refine shapeCast_apply _ _ _ (ValueIdx.ix2 r j) ?_
  rw [Shape.rowMajor_val_two, Shape.rowMajor_val_one]
  show r.val * 20 + j.val = 20 * r.val + j.val
  omega

/-- Every word of the flat index array is a word of the index array: a range that holds of the one holds of
    the other. -/
theorem W1_range (hx : ∀ i, (m ((SparseCore.T d).loc main_arg0) i).toNat < 100000) :
    ∀ i, (W1 m d xf' i).toNat < 100000 := by
  intro i
  rw [W1_xf_eq]
  unfold shapeCast
  exact hx _

end Cert.Proof.KI.KValue

end
-- ==== Proof.FinalI.lean ====
/-
  The kernel program's run and what it gives the claim: every weakly fair execution of @main on the TensorCore and
  of the lookup on the SparseCores terminates without a fault, the four argument arrays end as launched, and the
  result array ends at the slice of what the projection region left.
-/
import proofs.«204109_g84920093377010_cont_9to1_m_793_20_alg».proof.Proof.HMainI
import proofs.«204109_g84920093377010_cont_9to1_m_793_20_alg».proof.Proof.ObligI
import proofs.«204109_g84920093377010_cont_9to1_m_793_20_alg».proof.Proof.KValueI
import proofs.«204109_g84920093377010_cont_9to1_m_793_20_alg».proof.Proof.PreDecode
import proofs.«204109_g84920093377010_cont_9to1_m_793_20_alg».proof.Defs

noncomputable section

namespace Cert.Proof.KI.Final

open Cert.KernelIdeal Cert.KernelIdeal.Gen Cert.Proof.KI.Launch Cert.Proof.KI.Main

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What a final state is known to hold on device d: the unscoped buffers at contents of the known kind. -/
def fq (d : Dev nD) (s' : Phys nD τ sig (Elt F)) : Prop :=
  ∃ Wf : Valuation τ sig (Elt F), FQ m d Wf ∧ ∀ b ∈ Pipeline.ucRefs τ sig, s'.mem.mem ((d, b) : Loc nD τ sig) = Wf b

theorem hfin (d : Dev nD) (s' : Phys nD τ sig (Elt F)) : iprop(FIN m d ∗ SI s') ⊢ (⌜fq m d s'⌝ : sProp 𝕄) := by
  unfold FIN
  iintro ⟨⟨%Wf, %hWf, Hh⟩, HSI⟩
  unfold StableHlo.held
  ihave H := (pointsTo_read_all (Pipeline.ucRefs τ sig) (fun b => ((d, b) : Loc nD τ sig)) Wf s') $$ [Hh HSI]
  · isplitl [Hh] <;> iassumption
  icases H with ⟨%h, -⟩
  ipureintro; exact ⟨Wf, hWf, h⟩

def QC : PUnit × MemSt nD τ sig (Elt F) → Prop := fun r =>
  ∀ c : Dev nD, ∃ Wf : Valuation τ sig (Elt F), FQ m c Wf ∧ ∀ b ∈ Pipeline.ucRefs τ sig, r.2.mem ((c, b) : Loc nD τ sig) = Wf b

theorem run_main [∀ e, Nonempty (Elt F e)] (hx : ∀ (d : Dev nD) i, (m ((SparseCore.T d).loc main_arg0) i).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => Cert.Proof.KI.Oblig.tileObl _ _ _ facts (fun d => Cert.Proof.KI.KValue.W1_range m d (hx d)))
    (fun q _ => match q with | 0 => SparseCore.Cfg.VecSplit.of_plain (vecSplit _ _ _ _))
    m ρ main (fun d => G (F := F) d) (FIN m) (u₀ (F := F)) (sep_elim_left.trans (hu₀ _ _ _ _)) (hmain m ρ) (fq m) (hfin m) (QC m) (fun _ h => h)

/-- The run with the four arguments read back: each ends as launched. -/
theorem run_args [∀ e, Nonempty (Elt F e)] (hx : ∀ (d : Dev nD) i, (m ((SparseCore.T d).loc main_arg0) i).toNat < 100000) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono (fun r h c => by
    obtain ⟨Wf, hWf, hmem⟩ := h c
    exact ⟨(hmem _ (mem_uc main_arg0 (by decide))).trans (Cert.Proof.KI.KValue.FQ_arg0 hWf),
      (hmem _ (mem_uc main_arg1 (by decide))).trans (Cert.Proof.KI.KValue.FQ_arg1 hWf),
      (hmem _ (mem_uc main_arg2 (by decide))).trans (Cert.Proof.KI.KValue.FQ_arg2 hWf),
      (hmem _ (mem_uc main_arg3 (by decide))).trans (Cert.Proof.KI.KValue.FQ_arg3 hWf)⟩) (run_main m ρ hx)

end Cert.Proof.KI.Final

end
-- ==== Proof.RegionsValueI.lean ====
import proofs.«204109_g84920093377010_cont_9to1_m_793_20_alg».proof.Proof.RegionsI
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

/-!
# The two TensorCore regions' results as functions of what they read, at the ideal instance

* pipeline 0: the pooled array after the region is, entry (r, e), the sum of the gathered rows 20 r ‥ 20 r + 19 at
  column e times 1/20 (`pooled_value`): each point writes one 512-row block, the blocks tile the array, and a block's
  entry reads the 20 rows of the point's 10240-row input block that lie at the same place in the whole array;
* pipeline 1: whatever the padded result may hold after the region's write-backs, its entry (r, v) for a column v
  below 100000 is Σ_e pooled[r, e] · W[v, e] + bias[v] (`logits_value`): point t writes columns 1024 t ‥ 1024 t + 1023,
  entry (r, j) of the stored block reads row j of the weight matrix's staged block, which inside the array is the
  matrix's row 1024 t + j whatever the padding past its end holds; by induction on the points, the columns below 1024 n
  inside the array are settled after the write-backs of the points below n.
-/

set_option maxRecDepth 16384

noncomputable section

open scoped BigOperators

namespace Cert.Proof.KI.Regions

open Cert.KernelIdeal Cert.KernelIdeal.Gen
open Idealize.ShloMosaic Idealize.ShloMosaic.TcCoe Idealize.ShloMosaic.ValueIdx
open Idealize.SL Idealize.SL.RA
open Idealize.ShloMosaic.Pipeline (Dat RDat Cfg Window)

variable {U : Type} [URA U]

/-! # The payloads at an index, at the ideal instance -/

/-- The named constant `inv_20` is the rational 1/20. -/
theorem inv_20 : Named.named (F := Ideal) κ "inv_20" (φ := .f32) 0x3D4CCCCD#32 = ((1 / 20 : ℝ) : EReal) :=
  IdealRules.named_const.ideal_named_scalar _ _ _ _ rfl

/-- The sum over the middle axis of a 512 × 20 × 128 vector, at (r, e). -/
theorem sum_mid (src : FVec Ideal S512x20x128 .f32) (r : Fin 512) (e : Fin 128) :
    multiReduction (F := Ideal) .add [1] S512x128 src 0x00000000#32 reduces_S512x20x128_S512x128 (.inl rfl) rfl (ix2 r e)
      = ∑ j : Fin 20, src (ix3 r j e) := by
  refine (Ideal.multiReduction_add_single src 0x00000000#32 reduces_S512x20x128_S512x128 (.inl rfl) rfl (ix2 r e)).trans ?_
  show ∑ j : Fin 20, _ = _
  refine Finset.sum_congr rfl fun j _ => congrArg src ?_
  funext c; apply Fin.ext
  match c with
  | ⟨0, _⟩ => rfl
  | ⟨1, _⟩ => rfl
  | ⟨2, _⟩ => rfl

/-- The 10240 × 128 block read as 512 × 20 × 128: entry (r, j, e) is row 20 r + j, column e. -/
theorem cast_rows (x0 : Vec Ideal S10240x128 .f32) (r : Fin 512) (j : Fin 20) (e : Fin 128) :
    shapeCast S512x20x128 (shapeCast S10240x128 x0 shapeCasts_S10240x128_S10240x128) shapeCasts_S10240x128_S512x20x128 (ix3 r j e)
      = x0 (ix2 (⟨20 * r.val + j.val, by have := r.isLt; have := j.isLt; omega⟩ : Fin 10240) e) := by
  rw [shapeCast_self]
  refine shapeCast_apply x0 _ (ix3 r j e) _ ?_
  rw [Shape.rowMajor_val_two, Shape.rowMajor_val_three]
  show (20 * r.val + j.val) * 128 + e.val = (r.val * 20 + j.val) * 128 + e.val
  omega

/-- Entry (r, e) of the pooling payload: the sum of rows 20 r ‥ 20 r + 19 of the loaded block at column e, times 1/20. -/
theorem k1_pay1_apply (x0 : Vec Ideal S10240x128 .f32) (r : Fin 512) (e : Fin 128) :
    k1_pay1 (F := Ideal) x0 (ix2 r e)
      = (∑ j : Fin 20, x0 (ix2 (⟨20 * r.val + j.val, by have := r.isLt; have := j.isLt; omega⟩ : Fin 10240) e)) * ((1 / 20 : ℝ) : EReal) := by
  show (multiReduction (F := Ideal) .add [1] S512x128 (shapeCast S512x20x128 (shapeCast S10240x128 x0 shapeCasts_S10240x128_S10240x128) shapeCasts_S10240x128_S512x20x128)
      0x00000000#32 reduces_S512x20x128_S512x128 (.inl rfl) rfl (ix2 r e)) * Named.named (F := Ideal) κ "inv_20" (φ := .f32) 0x3D4CCCCD#32 = _
  rw [inv_20, sum_mid]
  refine congrArg (· * ((1 / 20 : ℝ) : EReal)) (Finset.sum_congr rfl fun j _ => cast_rows x0 r j e)

/-- The matmul's dimension numbers: both operands contract their axis 1; the rows of the left and of the right are free. -/
abbrev DD : DotDims S4096x128 S1024x128 S4096x1024 := dot_S4096x128_S1024x128_S4096x1024_1_1_0_0_n_n

theorem lhs_0 (i : S4096x1024.Idx) (q : DD.contr.Idx) : (DD.lhsIdx i q 0).val = (i 0).val := by
  unfold DotDims.lhsIdx
  rw [dif_neg (show ¬(0 : Fin S4096x128.rank) ∈ DD.lhsBatch by decide), dif_pos (show (0 : Fin S4096x128.rank) ∈ DD.lhsNonContracting by decide)]
  rfl
theorem lhs_1 (i : S4096x1024.Idx) (q : DD.contr.Idx) : (DD.lhsIdx i q 1).val = (q ⟨0, by decide⟩).val :=
  DD.lhsIdx_val_of_single rfl i q
theorem rhs_0 (i : S4096x1024.Idx) (q : DD.contr.Idx) : (DD.rhsIdx i q 0).val = (i 1).val := by
  unfold DotDims.rhsIdx
  rw [dif_neg (show ¬(0 : Fin S1024x128.rank) ∈ DD.rhsBatch by decide), dif_pos (show (0 : Fin S1024x128.rank) ∈ DD.rhsNonContracting by decide)]
  rfl
theorem rhs_1 (i : S4096x1024.Idx) (q : DD.contr.Idx) : (DD.rhsIdx i q 1).val = (q ⟨0, by decide⟩).val :=
  DD.rhsIdx_val_of_single rfl i q

/-- Entry (r, j) of the projection payload: row r of the left block against row j of the right block, plus the bias
    block's entry j. -/
theorem k2_pay1_apply (x0 : Vec Ideal S4096x128 .f32) (x1 : Vec Ideal S1024x128 .f32) (x2 : Vec Ideal S1x1024 .f32) (r : Fin 4096) (j : Fin 1024) :
    k2_pay1 (F := Ideal) x0 x1 x2 (ix2 r j)
      = (∑ e : Fin 128, x0 (ix2 r e) * x1 (ix2 j e)) + x2 (ix2 (⟨0, Nat.one_pos⟩ : Fin 1) j) := by
  show FloatOps.matmul DD none (shapeCast S4096x128 x0 shapeCasts_S4096x128_S4096x128) x1 (constant (F := Ideal) S4096x1024 .f32 0x00000000#32) (ix2 r j)
      + broadcastTo S4096x1024 (shapeCast S1x1024 x2 shapeCasts_S1x1024_S1x1024) broadcasts_S1x1024_S4096x1024 (ix2 r j) = _
  rw [shapeCast_self, shapeCast_self, Ideal.matmul_constant_zero_apply, ← Equiv.sum_comp (contrEquiv1 DD 128 rfl rfl).symm]
  refine congrArg₂ (· + ·) (Finset.sum_congr rfl fun e _ => ?_) ?_
  · have hk := contrEquiv1_symm_val DD 128 rfl rfl e
    have el : DD.lhsIdx (ix2 r j) ((contrEquiv1 DD 128 rfl rfl).symm e) = ix2 r e := funext fun a => Fin.ext (by
      match a with
      | ⟨0, _⟩ => exact lhs_0 _ _
      | ⟨1, _⟩ => exact (lhs_1 _ _).trans hk)
    have er : DD.rhsIdx (ix2 r j) ((contrEquiv1 DD 128 rfl rfl).symm e) = ix2 j e := funext fun a => Fin.ext (by
      match a with
      | ⟨0, _⟩ => exact rhs_0 _ _
      | ⟨1, _⟩ => exact (rhs_1 _ _).trans hk)
    rw [el, er]
  · refine broadcastTo_apply x2 _ (ix2 r j) (ix2 (⟨0, Nat.one_pos⟩ : Fin 1) j) ?_
    intro a
    match a with
    | ⟨0, _⟩ => rfl
    | ⟨1, _⟩ => rfl

/-! # Pipeline 0: the pooled array as one function of the gathered rows -/

section Values
variable (V : (c : Dev nD) → (b : Ref sig .tc) → Buf (Elt Ideal) ((c : Thread nD τ).loc b))

theorem hz : (![0, 0] : Fin 2 → Nat) = fun _ => 0 := funext fun a => by fin_cases a <;> rfl

/-- Entry (r, e) of the pooled array: the sum of rows 20 r ‥ 20 r + 19 of the gathered rows at column e, times 1/20. -/
def pooledOf (g : S81920x128.Idx → EReal) : S4096x128.Idx → EReal := fun i =>
  (∑ j : Fin 20, g (ix2 (⟨20 * (i 0).val + j.val, by have := idx2_lt0 i; have := j.isLt; omega⟩ : Fin 81920) (⟨(i 1).val, idx2_lt1 i⟩ : Fin 128)))
    * ((1 / 20 : ℝ) : EReal)

/-- The index maps, decided over the grid: at point t both windows are at block (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of `pooledOf` of the gathered rows as the region finds them. -/
theorem flushed1_eq (c : Dev nD) (t : Fin cfg1.N) :
    (dat1 (F := Ideal) (U := U) V c).flushed 1 t = ((cfg1.win 1).blk t).view.read (Elt Ideal) (pooledOf (V c main_v1)) := by
  show (cfg1.win 1).cut (grid1.coords t) ((dat1 (F := Ideal) (U := U) V c).after 1 t) = _
  rw [after1_1]
  unfold out1_1
  rw [View.canon_unit_zero hz]
  simp only [View.ld_unit_zero (S := S10240x128) hz]
  obtain ⟨e0, e1, e2, e3⟩ := idx_facts1 t
  funext y
  obtain ⟨r, e, rfl⟩ : ∃ (r : Fin 512) (e : Fin 128), y = ix2 r e := ⟨y 0, y 1, eq_ix2 y⟩
  refine (k1_pay1_apply (iblk1 V c 0 t) r e).trans ?_
  show _ = pooledOf (V c main_v1) (((cfg1.win 1).blk t).view.emb (ix2 r e))
  unfold pooledOf
  refine congrArg (· * ((1 / 20 : ℝ) : EReal)) (Finset.sum_congr rfl fun j _ => ?_)
  show V c main_v1 (((cfg1.win 0).blk t).view.emb (ix2 (⟨20 * r.val + j.val, _⟩ : Fin 10240) e)) = V c main_v1 _
  refine congrArg (V c main_v1) (funext fun a => Fin.ext ?_)
  match a with
  | ⟨0, _⟩ =>
    show win1_0.index t (0 : Fin 2) * 10240 + 1 * (20 * r.val + j.val) = 20 * (win1_1.index t (0 : Fin 2) * 512 + 1 * r.val) + j.val
    omega
  | ⟨1, _⟩ =>
    show win1_0.index t (1 : Fin 2) * 128 + 1 * e.val = win1_1.index t (1 : Fin 2) * 128 + 1 * e.val
    omega

/-- An index of the pooled array is in point t's block iff each coordinate is in the block's range on its axis. -/
theorem mem_blk1 (t : Fin cfg1.N) (i : S4096x128.Idx) :
    i ∈ ((cfg1.win 1).blk t).view.set ↔ ∀ a : Fin 2, win1_1.index t a * S512x128.size a ≤ (i a).val ∧ (i a).val < win1_1.index t a * S512x128.size a + S512x128.size a := by
  show i ∈ ((View.whole main_v2).slice (win1_1.rect t)).set ↔ _
  rw [View.set_slice_whole, Rect.mem_set_unit]
  exact Iff.rfl

/-- Row r of the pooled array is in block r / 512. -/
theorem cover1 (i : S4096x128.Idx) : ∃ t : Fin cfg1.N, (cfg1.win 1).flush t = true ∧ i ∈ ((cfg1.win 1).blk t).view.set := by
  have hi0 := idx2_lt0 i
  have hi1 := idx2_lt1 i
  have ht : (i 0).val / 512 < cfg1.N := by show _ < grid1.N; rw [N_1]; omega
  obtain ⟨e0, e1, e2, e3⟩ := idx_facts1 ⟨(i 0).val / 512, ht⟩
  refine ⟨⟨(i 0).val / 512, ht⟩, flush1_1 _, ?_⟩
  rw [mem_blk1]
  intro a
  match a with
  | ⟨0, _⟩ =>
    show win1_1.index ⟨(i 0).val / 512, ht⟩ (0 : Fin 2) * 512 ≤ (i 0).val ∧ (i 0).val < win1_1.index ⟨(i 0).val / 512, ht⟩ (0 : Fin 2) * 512 + 512
    rw [e2]; show (i 0).val / 512 * 512 ≤ _ ∧ _ < (i 0).val / 512 * 512 + 512; omega
  | ⟨1, _⟩ =>
    show win1_1.index ⟨(i 0).val / 512, ht⟩ (1 : Fin 2) * 128 ≤ (i 1).val ∧ (i 1).val < win1_1.index ⟨(i 0).val / 512, ht⟩ (1 : Fin 2) * 128 + 128
    rw [e3]; omega

/-- The pooled array after region 0: `pooledOf` of the gathered rows. -/
theorem final1 (c : Dev nD) : (dat1 (F := Ideal) (U := U) V c).arrAt 1 cfg1.N = pooledOf (V c main_v1) :=
  (dat1 (F := Ideal) (U := U) V c).arrAt_eq_of_cover 1 (pooledOf (V c main_v1)) (fun t _ => flushed1_eq V c t) cover1

/-- The arrays the two regions read, as functions of their indices into the extended reals (the buffers' contents, their
    types unfolded). -/
abbrev rowsOf (d : Dev nD) : S81920x128.Idx → EReal := V d main_v1
abbrev pooledIn (d : Dev nD) : S4096x128.Idx → EReal := V d main_v2
abbrev weightsOf (d : Dev nD) : S100000x128.Idx → EReal := V d main_arg2
abbrev biasOf (d : Dev nD) : S1x100352.Idx → EReal := V d main_v4

/-- The pooled array after region 0, as a function of its index. -/
abbrev pooledOut (d : Dev nD) : S4096x128.Idx → EReal := (dat1 (F := Ideal) (U := U) V d).arrAt 1 cfg1.N

/-- Entry (r, e) of it. -/
theorem pooled_value (d : Dev nD) (r : Fin 4096) (e : Fin 128) :
    pooledOut (U := U) V d (ix2 r e)
      = (∑ j : Fin 20, rowsOf V d (ix2 (⟨20 * r.val + j.val, by have := r.isLt; have := j.isLt; omega⟩ : Fin 81920) e)) * ((1 / 20 : ℝ) : EReal) :=
  (congrFun (final1 (U := U) V d) (ix2 r e)).trans rfl

/-! # Pipeline 1: the padded result, inside the array's 100000 columns -/

/-- Entry (r, v) of the result for a column v inside the array: the pooled row r against row v of the weight matrix, plus
    the padded bias at v. -/
def logitsOf (d : Dev nD) (r : Fin 4096) (v : Fin 100000) : EReal :=
  (∑ e : Fin 128, pooledIn V d (ix2 r e) * weightsOf V d (ix2 v e))
    + biasOf V d (ix2 (⟨0, Nat.one_pos⟩ : Fin 1) (⟨v.val, by have := v.isLt; omega⟩ : Fin 100352))

/-- The index maps, decided over the grid: at point t the pooled array's window is at block (0, 0), the weight matrix's at
    (t, 0), the bias's and the result's at (0, t); the weight matrix's block has min 1024 (100000 − 1024 t) rows inside
    the array and all its 128 columns. -/
theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = min 1024 (100000 - 1024 * t.val)
    ∧ win2_1.xsize (grid2.coords t) (1 : Fin 2) = 128 :=
  (by decide +kernel : ∀ t : Fin grid2.N, _)

/-- What the body stores at point t, at (r, j), when column 1024 t + j is inside the array: the result's entry there. -/
theorem block_value (d : Dev nD) (t : Fin cfg2.N) (x1 : Vec Ideal S1024x128 .f32)
    (hx1 : win2_1.cut (grid2.coords t) x1 = iblk2 V d 1 t) (r : Fin 4096) (j : Fin 1024) (v : Fin 100000)
    (hv : v.val = 1024 * t.val + j.val) :
    out2_3 (iblk2 V d 0 t) x1 (iblk2 V d 2 t) (ix2 r j) = logitsOf V d r v := by
  unfold out2_3
  rw [View.canon_unit_zero hz]
  simp only [View.ld_unit_zero (S := S4096x128) hz, View.ld_unit_zero (S := S1024x128) hz, View.ld_unit_zero (S := S1x1024) hz]
  refine (k2_pay1_apply _ _ _ r j).trans ?_
  obtain ⟨a0, a1, b0, b1, c0, c1, d0, d1, xs0, xs1⟩ := idx_facts2 t
  have hvlt := v.isLt
  unfold logitsOf
  refine congrArg₂ (· + ·) (Finset.sum_congr rfl fun e _ => congrArg₂ (· * ·) ?_ ?_) ?_
  · show V d main_v2 (((cfg2.win 0).blk t).view.emb (ix2 r e)) = V d main_v2 (ix2 r e)
    refine congrArg (V d main_v2) (funext fun a => Fin.ext ?_)
    match a with
    | ⟨0, _⟩ => show win2_0.index t (0 : Fin 2) * 4096 + 1 * r.val = r.val; omega
    | ⟨1, _⟩ => show win2_0.index t (1 : Fin 2) * 128 + 1 * e.val = e.val; omega
  · have hj : j.val < win2_1.xsize (grid2.coords t) (0 : Fin 2) := by rw [xs0]; omega
    have he : e.val < win2_1.xsize (grid2.coords t) (1 : Fin 2) := by rw [xs1]; exact e.isLt
    have hy := congrFun hx1 (fun a : Fin 2 => match a with | ⟨0, _⟩ => ⟨j.val, hj⟩ | ⟨1, _⟩ => ⟨e.val, he⟩)
    refine (congrArg x1 (funext fun a => Fin.ext (by match a with | ⟨0, _⟩ => rfl | ⟨1, _⟩ => rfl)) :
      x1 (ix2 j e) = x1 (win2_1.xinj (grid2.coords t) (fun a : Fin 2 => match a with | ⟨0, _⟩ => ⟨j.val, hj⟩ | ⟨1, _⟩ => ⟨e.val, he⟩))).trans (hy.trans ?_)
    show V d main_arg2 (((cfg2.win 1).blk t).view.emb _) = V d main_arg2 (ix2 v e)
    refine congrArg (V d main_arg2) (funext fun a => Fin.ext ?_)
    match a with
    | ⟨0, _⟩ => show win2_1.index t (0 : Fin 2) * 1024 + 1 * j.val = v.val; omega
    | ⟨1, _⟩ => show win2_1.index t (1 : Fin 2) * 128 + 1 * e.val = e.val; omega
  · show V d main_v4 (((cfg2.win 2).blk t).view.emb (ix2 (⟨0, Nat.one_pos⟩ : Fin 1) j)) = V d main_v4 (ix2 (⟨0, Nat.one_pos⟩ : Fin 1) (⟨v.val, _⟩ : Fin 100352))
    refine congrArg (V d main_v4) (funext fun a => Fin.ext ?_)
    match a with
    | ⟨0, _⟩ => show win2_2.index t (0 : Fin 2) * 1 + 1 * 0 = 0; omega
    | ⟨1, _⟩ => show win2_2.index t (1 : Fin 2) * 1024 + 1 * j.val = v.val; omega

/-- An index of the padded result is in point t's block iff each coordinate is in the block's range on its axis. -/
theorem mem_blk2 (t : Fin cfg2.N) (i : S4096x100352.Idx) :
    i ∈ ((cfg2.win 3).blk t).view.set ↔ ∀ a : Fin 2, win2_3.index t a * S4096x1024.size a ≤ (i a).val ∧ (i a).val < win2_3.index t a * S4096x1024.size a + S4096x1024.size a := by
  show i ∈ ((View.whole main_v5).slice (win2_3.rect t)).set ↔ _
  rw [View.set_slice_whole, Rect.mem_set_unit]
  exact Iff.rfl

/-- The padded result's contents read as a function of the index. -/
abbrev resultOf {d : Dev nD} (G5 : Buf (Elt Ideal) ((cfg2.win 3).arr.view.loc (d : Thread nD τ))) : S4096x100352.Idx → EReal := G5

/-- Whatever the padded result may hold after the write-backs of the points below n, its columns below 1024 n that
    are inside the array hold the result's entries: point n writes columns 1024 n ‥ 1024 n + 1023, each at the stored
    block's entry, which inside the array does not depend on the padding; the columns before are left as they were. -/
theorem arrAt_value (d : Dev nD) : ∀ (n : Nat), n ≤ 98 →
    ∀ G5 : Buf (Elt Ideal) ((cfg2.win 3).arr.view.loc (d : Thread nD τ)), (rdat2 (F := Ideal) (U := U) V d).ArrAt 3 n G5 →
    ∀ (r : Fin 4096) (v : Fin 100000), v.val < 1024 * n →
      resultOf G5 (ix2 r (⟨v.val, by have := v.isLt; omega⟩ : Fin 100352)) = logitsOf V d r v
  | 0, _, _, _, _, v, hv => absurd hv (by omega)
  | n + 1, hn, G5, h, r, v, hv => by
    have hN : n < cfg2.N := by show n < grid2.N; rw [N_2]; omega
    rw [show n + 1 = (⟨n, hN⟩ : Fin cfg2.N).val + 1 from rfl, RDat.ArrAt_succ, if_pos (flush2_3 _)] at h
    obtain ⟨G₀, X, hG₀, ⟨Y, -, hXY⟩, rfl⟩ := h
    obtain ⟨x1, hx1, rfl⟩ := (rafter2_3 V d _ _ _).mp hXY
    obtain ⟨a0, a1, b0, b1, c0, c1, d0, d1', xs0, xs1⟩ := idx_facts2 ⟨n, hN⟩
    have d1 : win2_3.index ⟨n, hN⟩ (1 : Fin 2) = n := d1'
    have hvlt := v.isLt
    by_cases hin : 1024 * n ≤ v.val
    · have hj : v.val - 1024 * n < 1024 := by omega
      have e : (ix2 r (⟨v.val, by omega⟩ : Fin 100352) : S4096x100352.Idx)
          = ((cfg2.win 3).blk ⟨n, hN⟩).view.emb (ix2 r (⟨v.val - 1024 * n, hj⟩ : Fin 1024)) := funext fun a => Fin.ext (by
        match a with
        | ⟨0, _⟩ => show r.val = win2_3.index ⟨n, hN⟩ (0 : Fin 2) * 4096 + 1 * r.val; omega
        | ⟨1, _⟩ => show v.val = win2_3.index ⟨n, hN⟩ (1 : Fin 2) * 1024 + 1 * (v.val - 1024 * n); omega)
      show ((cfg2.win 3).blk ⟨n, hN⟩).view.write (Elt Ideal) G₀ _ Finset.univ (ix2 r (⟨v.val, _⟩ : Fin 100352)) = _
      rw [e, View.write_emb_of_mem _ _ (Finset.mem_univ _)]
      exact (cast_eq _ _).trans (block_value V d ⟨n, hN⟩ x1 hx1 r ⟨v.val - 1024 * n, hj⟩ v (by show v.val = 1024 * n + (v.val - 1024 * n); omega))
    · have hnot : (ix2 r (⟨v.val, by omega⟩ : Fin 100352) : S4096x100352.Idx) ∉ ((cfg2.win 3).blk ⟨n, hN⟩).view.setOn Finset.univ := by
        rw [View.setOn_univ, mem_blk2]
        intro hmem
        have h1 : win2_3.index ⟨n, hN⟩ (1 : Fin 2) * 1024 ≤ v.val ∧ v.val < win2_3.index ⟨n, hN⟩ (1 : Fin 2) * 1024 + 1024 := hmem 1
        omega
      show ((cfg2.win 3).blk ⟨n, hN⟩).view.write (Elt Ideal) G₀ _ Finset.univ (ix2 r (⟨v.val, _⟩ : Fin 100352)) = _
      rw [View.write_of_not_mem _ _ _ hnot]
      exact arrAt_value d n (by omega) G₀ hG₀ r v (by omega)

/-- THE PADDED RESULT after region 1, inside the array: whatever contents its write-backs may leave, entry (r, v) for a
    column v below 100000 is the pooled row r against row v of the weight matrix plus the bias at v. -/
theorem logits_value (d : Dev nD) (G5 : Buf (Elt Ideal) ((cfg2.win 3).arr.view.loc (d : Thread nD τ)))
    (h : (rdat2 (F := Ideal) (U := U) V d).ArrAt 3 cfg2.N G5) (r : Fin 4096) (v : Fin 100000) :
    resultOf G5 (ix2 r (⟨v.val, by have := v.isLt; omega⟩ : Fin 100352))
      = (∑ e : Fin 128, pooledIn V d (ix2 r e) * weightsOf V d (ix2 v e))
        + biasOf V d (ix2 (⟨0, Nat.one_pos⟩ : Fin 1) (⟨v.val, by have := v.isLt; omega⟩ : Fin 100352)) :=
  arrAt_value (U := U) V d 98 le_rfl G5 (by have e : cfg2.N = 98 := N_2; rw [← e]; exact h) r v (by have := v.isLt; omega)

end Values

end Cert.Proof.KI.Regions

end
-- ==== Proof.KValue2I.lean ====
/-
  The kernel program's result, read index by index at the exact (extended-real) values.

  The result entry (r, v) is walked back through the chain of contents along @main: the final slice reads the
  projection region's array at (r, v); that entry is the pooled row r against row v of the weight matrix plus the
  bias row at v (the projection region's value: a hypothesis here); the bias row at a column v < 100000 is the
  bias at v, since the padding lies above; the pooled rows are the pooling region's array, whose entry (r, e) is
  the sum of rows 20r … 20r + 19 of the looked-up rows at column e, times 1/20 (the pooling region's value: a
  hypothesis here); and row 20r + j of the looked-up rows is the table row named by the index word at (r, j).
  The last theorem puts the two regions' values in.
-/
import proofs.«204109_g84920093377010_cont_9to1_m_793_20_alg».proof.Proof.KValueI
import proofs.«204109_g84920093377010_cont_9to1_m_793_20_alg».proof.Proof.RegionsValueI

noncomputable section

open scoped BigOperators

namespace Cert.Proof.KI.KValue

open Cert.KernelIdeal Cert.KernelIdeal.Gen Cert.Proof.KI.Launch Cert.Proof.KI.Main
open Idealize.ShloMosaic Idealize.ShloMosaic.ValueIdx Idealize.ShloMosaic.TcCoe

/-- A buffer's contents read as an array of extended reals over a literal shape (the identity: it only names
    the type the contents have). -/
abbrev asE (S : Shape) (f : S.Idx → EReal) : S.Idx → EReal := f

variable (m : (ℓ : Loc nD τ sig) → Buf (Elt Ideal) ℓ) (d : Dev nD)

/-- Row 20r + j of the looked-up rows is the table row the index word at (r, j) names. -/
theorem W2_out_apply (r : Fin 4096) (j : Fin 20) (e : Fin 128) (h : 20 * r.val + j.val < 81920) :
    asE S81920x128 (W2 m d out') (ix2 ⟨20 * r.val + j.val, h⟩ e)
      = asE S100000x128 (m ((SparseCore.T d).loc main_arg1))
          (ix2 (Cert.Spec.row (m ((SparseCore.T d).loc main_arg0) (ix2 r j))) e) := by
  show W2 m d out' (ix2 ⟨20 * r.val + j.val, h⟩ e)
      = m ((SparseCore.T d).loc main_arg1) (ix2 (Cert.Spec.row (m ((SparseCore.T d).loc main_arg0) (ix2 r j))) e)
  refine (congrFun (W2_out m d) _).trans ((Cert.Slab.gathF_apply _ _ ⟨20 * r.val + j.val, h⟩ e).trans ?_)
  rw [W1_xf_apply m d r j h]
  exact congrFun (W1_of_ne m d main_arg1 (by decide)) _

/-- The pooled rows after the pooling region are the specification's, given the region's value. -/
theorem W3_pooled
    (hmean : ∀ (r : Fin 4096) (e : Fin 128),
      asE S4096x128 ((Cert.Proof.KI.Regions.dat1 (F := Ideal) (U := UU) (Cert.Proof.KI.Regions.VA (W2 m)) d).arrAt 1 cfg1.N) (ix2 r e)
        = (∑ j : Fin 20, asE S81920x128 (Cert.Proof.KI.Regions.VA (W2 m) d main_v1)
            (ix2 (⟨20 * r.val + j.val, by omega⟩ : Fin 81920) e)) * ((1 / 20 : ℝ) : EReal))
    (r : Fin 4096) (e : Fin 128) :
    asE S4096x128 (W3 m d (Proc.devRef .tc main_v2)) (ix2 r e)
      = Cert.Spec.pooled (m ((SparseCore.T d).loc main_arg0)) (m ((SparseCore.T d).loc main_arg1)) r e := by
  have e1 : asE S4096x128 (W3 m d (Proc.devRef .tc main_v2))
      = asE S4096x128 ((Cert.Proof.KI.Regions.dat1 (F := Ideal) (U := UU) (Cert.Proof.KI.Regions.VA (W2 m)) d).arrAt 1 cfg1.N) :=
    Cert.Proof.KI.Regions.exit1_arr (U := UU) (W2 m) d 1
  refine (congrFun e1 _).trans ((hmean r e).trans ?_)
  unfold Cert.Spec.pooled
  exact congrArg (fun s : EReal => s * ((1 / 20 : ℝ) : EReal))
    (Finset.sum_congr rfl fun j _ => W2_out_apply m d r j e (by omega))

/-- The padded bias at a position below the padding is the bias at that position. -/
theorem pad_bias_apply (b : S100000.Idx → EReal) (p : S_.Idx → EReal) (v : Fin 100000) :
    pad S100352 ![0] ![352] ![0] b p pads_S100000_S100352_03520 h_S_ (ix1 (⟨v.val, by omega⟩ : Fin 100352)) = b (ix1 v) := by
  unfold pad
  have hin : ∀ a : Fin S100000.rank,
      (![0] : Fin 1 → Nat) a ≤ ((ix1 (⟨v.val, by omega⟩ : Fin 100352) : S100352.Idx) (a.cast pads_S100000_S100352_03520.1)).val
      ∧ (((ix1 (⟨v.val, by omega⟩ : Fin 100352) : S100352.Idx) (a.cast pads_S100000_S100352_03520.1)).val - (![0] : Fin 1 → Nat) a)
          % ((![0] : Fin 1 → Nat) a + 1) = 0
      ∧ (((ix1 (⟨v.val, by omega⟩ : Fin 100352) : S100352.Idx) (a.cast pads_S100000_S100352_03520.1)).val - (![0] : Fin 1 → Nat) a)
          / ((![0] : Fin 1 → Nat) a + 1) < S100000.size a := by
    intro a
    match a with
    | ⟨0, _⟩ =>
      have := v.isLt
      refine ⟨Nat.zero_le _, ?_, ?_⟩
      · show (v.val - 0) % (0 + 1) = 0
        omega
      · show (v.val - 0) / (0 + 1) < 100000
        omega
  rw [dif_pos hin]
  refine congrArg b (funext fun a => Fin.ext ?_)
  match a with
  | ⟨0, _⟩ =>
    show (v.val - 0) / (0 + 1) = v.val
    omega

/-- The bias row before the projection region, read below the padding: the bias at the column. -/
theorem W4_bias (v : Fin 100000) :
    asE S1x100352 (W4 m d (Proc.devRef .tc main_v4)) (ix2 (⟨0, Nat.one_pos⟩ : Fin 1) (⟨v.val, by omega⟩ : Fin 100352))
      = asE S100000 (m ((SparseCore.T d).loc main_arg3)) (ix1 v) := by
  -- the contents just before the pad: the conversion and the integer zero write neither the bias nor anything it reads
  have ea : asE S100000 (((opConv (F := Ideal)).result ((opC (F := Ideal)).result (W3 m d))) (Proc.devRef .tc main_arg3))
      = asE S100000 (m ((SparseCore.T d).loc main_arg3)) :=
    (StableHlo.unary_result_ne _ _ _ _ _ _ (by decide)).trans ((StableHlo.nullary_result_ne _ _ _ _ (by decide)).trans
      (W3_of_ne m d main_arg3 (by decide) (by decide) (by decide)))
  -- the padded bias is the pad of it
  have e3 : asE S100352 (((opPad (F := Ideal)).result ((opConv (F := Ideal)).result ((opC (F := Ideal)).result (W3 m d))))
        (Proc.devRef .tc main_v3))
      = pad S100352 ![0] ![352] ![0]
          (asE S100000 (((opConv (F := Ideal)).result ((opC (F := Ideal)).result (W3 m d))) (Proc.devRef .tc main_arg3)))
          (asE S_ (((opConv (F := Ideal)).result ((opC (F := Ideal)).result (W3 m d))) (Proc.devRef .tc main_call0_v0)))
          pads_S100000_S100352_03520 h_S_ :=
    StableHlo.binary_result main_arg3 main_call0_v0 main_v3 _ _ _ _ _
  -- the row form is the padded bias at the same position
  have e4 : asE S1x100352 (W4 m d (Proc.devRef .tc main_v4))
      = shapeCast S1x100352 (asE S100352 (((opPad (F := Ideal)).result ((opConv (F := Ideal)).result ((opC (F := Ideal)).result (W3 m d))))
          (Proc.devRef .tc main_v3))) shapeCasts_S100352_S1x100352 :=
    StableHlo.reshape_result main_v3 main_v4 rfl shapeCasts_S100352_S1x100352 _ _ _
  refine (congrFun e4 _).trans ?_
  refine (shapeCast_apply _ _ _ (ix1 (⟨v.val, by omega⟩ : Fin 100352)) ?_).trans ?_
  · rw [Shape.rowMajor_val_two, Shape.rowMajor_val_one]
    show v.val = 0 * 100352 + v.val
    omega
  refine (congrFun e3 _).trans ?_
  rw [ea]
  exact pad_bias_apply _ _ v

/-- The slice of the projection region's array reads it at the same position. -/
theorem slice_apply (W5 : Valuation τ sig (Elt Ideal)) (r : Fin 4096) (v : Fin 100000) :
    asE S4096x100000 ((opSl (F := Ideal)).result W5 (Proc.devRef .tc main_v6)) (ix2 r v)
      = asE S4096x100352 (W5 v5') (ix2 r (⟨v.val, by omega⟩ : Fin 100352)) := by
  have e6 : asE S4096x100000 ((opSl (F := Ideal)).result W5 (Proc.devRef .tc main_v6))
      = extractStridedSlice S4096x100000 ![0, 0] (asE S4096x100352 (W5 v5')) slices_S4096x100352_S4096x100000_0_0 :=
    StableHlo.unary_result main_v5 main_v6 _ _ _ W5
  refine (congrFun e6 _).trans ?_
  exact extractStridedSlice_apply _ _ _ _ (ix2 r (⟨v.val, by omega⟩ : Fin 100352)) fun a => match a with
    | ⟨0, _⟩ => (Nat.zero_add _).symm
    | ⟨1, _⟩ => (Nat.zero_add _).symm

/-- The kernel's value, given the two regions' values: the final contents of the result buffer are the
    specification of the launch contents of the four arguments. (The range of the index words is not needed
    here: the specification caps a word the same way the lookup's contents are stated.) -/
theorem FQ_value_of {Wf : Valuation τ sig (Elt Ideal)}
    (hmean : ∀ (r : Fin 4096) (e : Fin 128),
      asE S4096x128 ((Cert.Proof.KI.Regions.dat1 (F := Ideal) (U := UU) (Cert.Proof.KI.Regions.VA (W2 m)) d).arrAt 1 cfg1.N) (ix2 r e)
        = (∑ j : Fin 20, asE S81920x128 (Cert.Proof.KI.Regions.VA (W2 m) d main_v1)
            (ix2 (⟨20 * r.val + j.val, by omega⟩ : Fin 81920) e)) * ((1 / 20 : ℝ) : EReal))
    (hmm : ∀ (G5 : Buf (Elt Ideal) ((cfg2.win 3).arr.view.loc (d : Thread nD τ))),
      (Cert.Proof.KI.Regions.rdat2 (F := Ideal) (U := UU) (Cert.Proof.KI.Regions.VA (W4 m)) d).ArrAt 3 cfg2.N G5 →
      ∀ (r : Fin 4096) (v : Fin 100000), asE S4096x100352 G5 (ix2 r (⟨v.val, by omega⟩ : Fin 100352))
        = (∑ e : Fin 128, asE S4096x128 (Cert.Proof.KI.Regions.VA (W4 m) d main_v2) (ix2 r e)
              * asE S100000x128 (Cert.Proof.KI.Regions.VA (W4 m) d main_arg2) (ix2 v e))
          + asE S1x100352 (Cert.Proof.KI.Regions.VA (W4 m) d main_v4) (ix2 (⟨0, Nat.one_pos⟩ : Fin 1) (⟨v.val, by omega⟩ : Fin 100352)))
    (h : FQ (F := Ideal) m d Wf) :
    asE S4096x100000 (Wf (Proc.devRef .tc main_v6))
      = Cert.Spec.G (m ((SparseCore.T d).loc main_arg0)) (m ((SparseCore.T d).loc main_arg1))
          (m ((SparseCore.T d).loc main_arg2)) (m ((SparseCore.T d).loc main_arg3)) := by
  obtain ⟨W5, hrest, hA, rfl⟩ := h
  funext i
  obtain ⟨r, v, rfl⟩ : ∃ (r : Fin 4096) (v : Fin 100000), i = ix2 r v := ⟨i 0, i 1, eq_ix2 i⟩
  refine (slice_apply W5 r v).trans ((hmm (W5 v5') hA r v).trans ?_)
  rw [Cert.Spec.G_apply]
  unfold Cert.Spec.logit
  have e2 : asE S4096x128 (Cert.Proof.KI.Regions.VA (W4 m) d main_v2) = asE S4096x128 (W3 m d (Proc.devRef .tc main_v2)) :=
    W4_of_ne m d main_v2 (by decide) (by decide) (by decide) (by decide)
  have eW : asE S100000x128 (Cert.Proof.KI.Regions.VA (W4 m) d main_arg2) = asE S100000x128 (m ((SparseCore.T d).loc main_arg2)) :=
    (W4_of_ne m d main_arg2 (by decide) (by decide) (by decide) (by decide)).trans (W3_of_ne m d main_arg2 (by decide) (by decide) (by decide))
  refine congrArg₂ (fun s t : EReal => s + t) (Finset.sum_congr rfl fun e _ => ?_) (W4_bias m d v)
  rw [e2, eW]
  exact congrArg (fun s : EReal => s * asE S100000x128 (m ((SparseCore.T d).loc main_arg2)) (ix2 v e)) (W3_pooled m d hmean r e)

variable {m d}

/-- THE KERNEL'S VALUE: the final contents of the result buffer are the specification of the launch contents of
    the four arguments: the pooling region's array is the mean of each twenty looked-up rows, the projection
    region's array the pooled rows against the weight matrix plus the bias row. (Stated under the range
    hypothesis on the index words for symmetry with the reference's side; the chain does not use it.) -/
theorem FQ_value {Wf : Valuation τ sig (Elt Ideal)}
    (hx : ∀ i, (m ((SparseCore.T d).loc main_arg0) i).toNat < 100000) (h : FQ (F := Ideal) m d Wf) :
    Wf (Proc.devRef .tc main_v6)
      = Cert.Spec.G (m ((SparseCore.T d).loc main_arg0)) (m ((SparseCore.T d).loc main_arg1))
          (m ((SparseCore.T d).loc main_arg2)) (m ((SparseCore.T d).loc main_arg3)) :=
  FQ_value_of m d
    (fun r e => Cert.Proof.KI.Regions.pooled_value (U := UU) (Cert.Proof.KI.Regions.VA (W2 m)) d r e)
    (fun G5 hA r v => Cert.Proof.KI.Regions.logits_value (U := UU) (Cert.Proof.KI.Regions.VA (W4 m)) d G5 hA r v) h

end Cert.Proof.KI.KValue

end
-- ==== Proof.FinalValueI.lean ====
/-
  The idealized kernel program's run with its result read: the result array ends at the one function of the
  arguments that the reference computes too.
-/
import proofs.«204109_g84920093377010_cont_9to1_m_793_20_alg».proof.Proof.FinalI
import proofs.«204109_g84920093377010_cont_9to1_m_793_20_alg».proof.Proof.KValue2I

noncomputable section

namespace Cert.Proof.KI.Final

open Cert.KernelIdeal Cert.KernelIdeal.Gen Cert.Proof.KI.Launch Cert.Proof.KI.Main

open Idealize.ShloMosaic
open Idealize.SL.Sem

theorem run_value (m : (ℓ : Loc nD τ sig) → Buf (Elt Ideal) ℓ) (ρ : Dev nD → PrngReg)
    (hx : ∀ (d : Dev nD) i, (m ((SparseCore.T d).loc main_arg0) i).toNat < 100000) :
    θ_run (Cert.KernelIdeal.defs (F := Ideal)) (Cert.KernelIdeal.threads (F := Ideal)) ⟨m, fun _ => 0, ρ⟩ (fun r => ∀ c : Dev nD,
      r.2.mem ((c.tc : Thread nD τ).loc main_v6)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono (fun r h c => by
    obtain ⟨Wf, hWf, hmem⟩ := h c
    exact ⟨(hmem _ (mem_uc main_v6 (by decide))).trans (Cert.Proof.KI.KValue.FQ_value (hx c) hWf),
      (hmem _ (mem_uc main_arg0 (by decide))).trans (Cert.Proof.KI.KValue.FQ_arg0 hWf),
      (hmem _ (mem_uc main_arg1 (by decide))).trans (Cert.Proof.KI.KValue.FQ_arg1 hWf),
      (hmem _ (mem_uc main_arg2 (by decide))).trans (Cert.Proof.KI.KValue.FQ_arg2 hWf),
      (hmem _ (mem_uc main_arg3 (by decide))).trans (Cert.Proof.KI.KValue.FQ_arg3 hWf)⟩) (run_main (F := Ideal) m ρ hx)

end Cert.Proof.KI.Final

end
-- ==== Proof.LaunchB.lean ====
/-
  The launch of the lookup program, part 1: the program as the launch theorem sees it, the ghost state, and what the
  handshakes carry.

  One SparseCore call runs on 2 cores × 16 vector subcores. The TensorCore hands each core a read share of the
  flat index array and of the table, and full ownership of that core's sixteen slabs of the flat output (slab
  w = 2·s + c for subcore s of core c: 2560 consecutive rows); each core deals its sixteen subcores a read share of
  both inputs and one slab. A subcore brings its slab back holding, in row i, the table row named by the i-th index
  word; the core and then the TensorCore collect the slabs into the whole output at that one function.
-/
import proofs.«204109_g84920093377010_cont_9to1_m_793_20_alg».proof.Kernel
import proofs.«204109_g84920093377010_cont_9to1_m_793_20_alg».proof.Proof.Gen.Kernel
import proofs.«204109_g84920093377010_cont_9to1_m_793_20_alg».proof.Proof.Gen.Kernel.Skeleton
import proofs.«204109_g84920093377010_cont_9to1_m_793_20_alg».proof.Proof.Gen.Kernel.Launch
import proofs.«204109_g84920093377010_cont_9to1_m_793_20_alg».proof.Proof.Gen.Kernel.Points
import proofs.«204109_g84920093377010_cont_9to1_m_793_20_alg».proof.Proof.Slab
import proofs.«204109_g84920093377010_cont_9to1_m_793_20_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameSuffix
import Idealize.ShloMosaic.Lib.Tactic

noncomputable section

namespace Cert.Proof.KB.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The buffers the call moves -/

variable (m : (ℓ : Loc nD τ sig) → Buf (Elt F) ℓ) (ρ : Dev nD → PrngReg)

abbrev xfLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

/-- The read share of core c, and of subcore i of core c. -/
abbrev tokC (c : Fin 2) : PosShare TreeShare := Transfers.shareTok fullShare 2 c
abbrev tokT (c : Fin 2) (i : Fin 16) : PosShare TreeShare := Transfers.shareTok (tokC c) 16 i

variable [FloatOps F]

/-! ## What the handshakes carry -/

section Pay

variable (xf : (d : Dev nD) → Buf (Elt F) (xfLoc d)) (tab : (d : Dev nD) → Buf (Elt F) (tabLoc d))
  (o0 o1 : (d : Dev nD) → Buf (Elt F) (outLoc d))

/-- A read share of the index array and of the table, -/
abbrev inPts (d : Dev nD) (q : PosShare TreeShare) : sProp 𝕄 := iprop((xfLoc d ↦{q} xf d) ∗ (tabLoc d ↦{q} tab d))
/-- and one slab of the output, owned whole, at given contents. -/
abbrev slabPts (d : Dev nD) (w : Fin 32) (o : Buf (Elt F) (outLoc d)) : sProp 𝕄 := outLoc d ↦[Cert.Slab.tileSet w]{fullShare} o

abbrev cC (c : Fin ((K (F := F)).nCore 0)) : Fin 2 := Fin.cast nCore_zero c
abbrev iT (i : Fin ((K (F := F)).nSub 0)) : Fin 16 := Fin.cast nSub_zero i

/-- The one call: each core a read share of both inputs and its sixteen slabs at the entry contents `o0`, back at
    `o1`; each subcore a read share and its slab. -/
def P : (K (F := F)).Pay (nD := nD) (Val := Elt F) (Name := ℕ) (U := UU) where
  st := fun q d c => match q with
    | 0 => iprop(inPts xf tab d (tokC (cC c)) ∗ bigSep Finset.univ fun i : Fin 16 => slabPts d (Cert.Slab.wid (cC c) i) (o0 d))
  dn := fun q d c => match q with
    | 0 => iprop(inPts xf tab d (tokC (cC c)) ∗ bigSep Finset.univ fun i : Fin 16 => slabPts d (Cert.Slab.wid (cC c) i) (o1 d))
  go := fun q d c i => match q with
    | 0 => iprop(inPts xf tab d (tokT (cC c) (iT i)) ∗ slabPts d (Cert.Slab.wid (cC c) (iT i)) (o0 d))
  td := fun q d c i => match q with
    | 0 => iprop(inPts xf tab d (tokT (cC c) (iT i)) ∗ slabPts d (Cert.Slab.wid (cC c) (iT i)) (o1 d))
  x := fun _ _ => iprop(emp)

instance P_storable : (P (F := F) xf tab o0 o1).IsStorable where
  st q d c := match q with
    | 0 => (inferInstance : BI.Storable (upEmb : UEmb _ 𝕄)
      iprop(inPts xf tab d (tokC (cC c)) ∗ bigSep Finset.univ fun i : Fin 16 => slabPts d (Cert.Slab.wid (cC c) i) (o0 d)))
  dn q d c := match q with
    | 0 => (inferInstance : BI.Storable (upEmb : UEmb _ 𝕄)
      iprop(inPts xf tab d (tokC (cC c)) ∗ bigSep Finset.univ fun i : Fin 16 => slabPts d (Cert.Slab.wid (cC c) i) (o1 d)))
  go q d c i := match q with
    | 0 => (inferInstance : BI.Storable (upEmb : UEmb _ 𝕄)
      iprop(inPts xf tab d (tokT (cC c) (iT i)) ∗ slabPts d (Cert.Slab.wid (cC c) (iT i)) (o0 d)))
  td q d c i := match q with
    | 0 => (inferInstance : BI.Storable (upEmb : UEmb _ 𝕄)
      iprop(inPts xf tab d (tokT (cC c) (iT i)) ∗ slabPts d (Cert.Slab.wid (cC c) (iT i)) (o1 d)))

/-! ## A core's operands split into its subcores' and gather back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's read share of an array is its sixteen subcores' shares and a remainder that waits for them. -/
theorem vecSplit : (K (F := F)).VecSplit' (P xf tab o0 o1) 0 := by
  intro d c
  show iprop(inPts xf tab d (tokC (cC c)) ∗ bigSep Finset.univ fun i : Fin 16 => slabPts d (Cert.Slab.wid (cC c) i) (o0 d)) ⊢ |={Set.univ}=> iprop(
      (bigSep Finset.univ fun i : Fin ((K (F := F)).nSub 0) =>
        iprop(inPts xf tab d (tokT (cC c) (iT i)) ∗ slabPts d (Cert.Slab.wid (cC c) (iT i)) (o0 d)))
      ∗ ((bigSep Finset.univ fun i : Fin ((K (F := F)).nSub 0) =>
          iprop(inPts xf tab d (tokT (cC c) (iT i)) ∗ slabPts d (Cert.Slab.wid (cC c) (iT i)) (o1 d)))
          -∗ iprop(inPts xf tab d (tokC (cC c)) ∗ bigSep Finset.univ fun i : Fin 16 => slabPts d (Cert.Slab.wid (cC c) i) (o1 d))))
  rw [bigSep_tasks (F := F) (fun i => iprop(inPts xf tab d (tokT (cC c) i) ∗ slabPts d (Cert.Slab.wid (cC c) i) (o0 d))),
    bigSep_tasks (F := F) (fun i => iprop(inPts xf tab d (tokT (cC c) i) ∗ slabPts d (Cert.Slab.wid (cC c) i) (o1 d))),
    bigSep_sep', bigSep_sep', bigSep_sep', bigSep_sep']
  iintro ⟨⟨Hx, Ht⟩, Ho⟩
  ihave Hx' := (Transfers.pointsTo_toks_split (tokC (cC c)) 16) $$ Hx
  ihave Ht' := (Transfers.pointsTo_toks_split (tokC (cC c)) 16) $$ Ht
  icases Hx' with ⟨Hxr, Hxs⟩
  icases Ht' with ⟨Htr, Hts⟩
  imodintro
  isplitl [Hxs Hts Ho]
  · isplitl [Hxs Hts]
    · isplitl [Hxs]; · iexact Hxs
      iexact Hts
    iexact Ho
  iintro ⟨⟨Hxs, Hts⟩, Ho⟩
  isplitl [Hxr Hxs Htr Hts]
  · isplitl [Hxr Hxs]
    · iapply (Transfers.pointsTo_toks_join (tokC (cC c)) 16); isplitl [Hxr] <;> iassumption
    · iapply (Transfers.pointsTo_toks_join (tokC (cC c)) 16); isplitl [Htr] <;> iassumption
  iexact Ho

end Pay

/-! ## The launch element of the ghost state -/

/-- No pipeline has a prefetched table: the admissible contents are the empty ones. -/
abbrev adm : (p : Fin 2) → (pcfgs (F := F) p).Adm := fun p => (cfgs p).toPCfg_adm

/-- The handshakes' launch element, the pipelines' staging cells' launch element, the counters'. -/
def u₀ : UU := (initOf (K (F := F)).hsCells (K (F := F)).hsToks, (initOf (Pipeline.cells cfgs cellOf_inj) (Pipeline.launchToks cfgs cellOf_inj), 1))

/-- What @main's proof starts from beside the buffers: each pipeline's staging cells' ghost state and duty tokens. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

section Pay2
variable (xf : (d : Dev nD) → Buf (Elt F) (xfLoc d)) (tab : (d : Dev nD) → Buf (Elt F) (tabLoc d))
  (o0 o1 : (d : Dev nD) → Buf (Elt F) (outLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P xf tab o0 o1).x q thr) := by
  unfold u₀
  iintro Hu
  have h1 := ownU_pair (nD := nD) (τ := τ) (sig := sig) (Ix := HIx 1) (Val := Elt F) (Name := ℕ) (Lvl := ℕ) (A := UH) (B := UP × Counters)
    (initOf (K (F := F)).hsCells (K (F := F)).hsToks) (initOf (Pipeline.cells cfgs cellOf_inj) (Pipeline.launchToks cfgs cellOf_inj), 1)
  have h2 := own_pair_emb (embR : Emb (UP × Counters) (MT nD τ sig (HIx 1) (Elt F) ℕ UU ℕ))
    (initOf (Pipeline.cells cfgs cellOf_inj) (Pipeline.launchToks cfgs cellOf_inj)) (1 : Counters)
  ihave H := h1 $$ Hu
  icases H with ⟨HH, HR⟩
  ihave H2 := h2 $$ HR
  icases H2 with ⟨HP, -⟩
  ihave HP := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
    = BI.own ((EP (F := F)) (initOf (Pipeline.cells cfgs cellOf_inj) (Pipeline.launchToks cfgs cellOf_inj))) from rfl)) $$ HP
  imod (Pipeline.fund_ghost cfgs (EP (F := F)) cellOf_inj) $$ HP with ⟨Hg, Ht⟩
  imodintro
  isplitl [HH]; · iexact HH
  isplitl [Hg Ht]
  · have hG : ∀ d : Dev nD, (G (F := F) d : sProp 𝕄)
        = bigSep Finset.univ fun p : Fin 2 => iprop(Pipeline.cellsGhost cfgs (EP (F := F)) p d ∗ Pipeline.toksInit cfgs (EP (F := F)) p d) := fun d => rfl
    simp only [hG, bigSep_sep']
    isplitl [Hg] <;> iassumption
  rw [show (bigSep Finset.univ fun thr : Thread nD τ => bigSep Finset.univ fun q : Fin 1 => (P (F := F) xf tab o0 o1).x q thr) = bigSep Finset.univ fun _ => iprop(emp) from
    bigSep_congr fun _ _ => bigSep_univ_of_subsingleton (0 : Fin 1), bigSep_emp']
  iempintro

end Pay2

end Cert.Proof.KB.Launch

end
-- ==== Proof.RegionsB.lean ====
import proofs.«204109_g84920093377010_cont_9to1_m_793_20_alg».proof.Proof.Gen.Kernel.Launch
import proofs.«204109_g84920093377010_cont_9to1_m_793_20_alg».proof.Proof.Gen.Kernel.Skeleton
import proofs.«204109_g84920093377010_cont_9to1_m_793_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.SparseCore
import Idealize.ShloMosaic.Lib.SparseCore.Launch
import Idealize.ShloMosaic.Lib.Ring
import Idealize.ShloMosaic.Lib.Tactic

/-!
# The two TensorCore regions of @main, as region records

The program's @main runs, after its one SparseCore call, two TensorCore pipelines:

* pipeline 0 (`mean_kernel`, grid of 8 points): at point `t` the body loads the 10240 × 128 block of the gathered
  rows (rows `10240 t ‥ 10240 t + 10239`), sums every 20 consecutive rows, multiplies by the named constant
  `inv_20` and stores the 512 × 128 result as block `t` of the pooled array;
* pipeline 1 (`mm_kernel`, grid of 98 points): at point `t` the body loads the whole 4096 × 128 pooled array, the
  1024 × 128 block `t` of the weight matrix (rows `1024 t + i`; the last block overhangs the 100000-row matrix by
  352 rows, which hold unspecified padding), the 1 × 1024 block `t` of the padded bias, and stores
  `h · Wᵀ + b` as the 4096 × 1024 block `t` of the padded result.

Everything is stated at PARAMETERS `V` for the contents of the TensorCore's buffers when a region is entered, and over
the index and resource types of the SparseCore launch the regions are entered from.
-/

set_option maxRecDepth 16384

noncomputable section

namespace Cert.Proof.KB.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] {U : Type} [URA U]

local notation "𝕄" => MT nD τ sig (SparseCore.Cfg.HIx 1) (Elt F) ℕ U ℕ

section Regions
-- the TensorCore's buffer contents when a region is entered: the parameter every region's half is stated at
variable (V : (c : Dev nD) → (b : Ref sig .tc) → Buf (Elt F) ((c : Thread nD τ).loc b))

/-- The regions' invariant on core `c`: the core's scoped buffers that are no staging buffer of the pipeline, at some
    contents each, and its generator register at some state: what neither body reads or writes. -/
def ΦR {gr : Nat} {W : Nat} (win : Fin W → Pipeline.WinSpec sig gr) (c : Dev nD) : sProp 𝕄 :=
  iprop(Pipeline.scopedRest (Ix := SparseCore.Cfg.HIx 1) (Name := ℕ) (U := U) (Lvl := ℕ) (Val := Elt F) win c ∗ ∃ r, prngReg c r)

/-! # Pipeline 0: `cc1_mean_kernel`, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered rows' staging buffer holds block `t` at every point, for any proof data whose array is `V`'s and
    whose body leaves the block in place: the window is uncut and never idle. -/
theorem before1_0_of {c : Dev nD} (dat : Dat τ (Elt F) (SparseCore.Cfg.HIx 1) ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole 512 × 128 buffer. -/
abbrev r1_0 : Rect S512x128 := Rect.unit (s := S512x128) ![0, 0] S512x128.size inb_S512x128_S512x128_0_0
/-- The one rectangle it loads the input through: the whole 10240 × 128 buffer. -/
abbrev r1_in : Rect S10240x128 := Rect.unit (s := S10240x128) ![0, 0] S10240x128.size inb_S10240x128_S10240x128_0_0

/-- The pooled block's staging buffer after the body, from the gathered rows' block: its one store, the payload
    (the sums of 20 consecutive rows times `inv_20`) over the whole buffer. -/
def out1_1 (x0 : Vec F S10240x128 .f32) : Vec F S512x128 .f32 :=
  View.canon [⟨r1_0, k1_pay1 (View.ld x0 r1_in)⟩]

/-- The store covers the buffer. -/
theorem cover1_1 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

set_option maxHeartbeats 1000000 in
/-- The kernel body on whole staging memrefs, the input's at read contents `x0` and the output's at anything, runs to
    the continuation holding the input's as it was and the output's at `out1_1 x0`. -/
theorem sound_kernel1 (c : Dev nD) (E : Set ℕ) (i : grid1.Coords) (arg0 : Memref sig .tc .vmem S10240x128 .f32) (harg0 : arg0.IsWhole) (arg1 : Memref sig .tc .vmem S512x128 .f32) (harg1 : arg1.IsWhole)
    (x0 : Vec F S10240x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_mean_kernel i arg0 harg0 arg1 harg1) K := by
  simp only [cc1_mean_kernel_eq_skeleton]; unfold cc1_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 0 on core `c`: the arrays as the region finds them (`V`); after the body at point `t`
    the input's buffer at its block and the output's at `out1_1` of it; the invariant the scoped rest and the generator
    register, untouched; nothing owed; full shares. -/
def dat1 (c : Dev nD) : Dat τ (Elt F) (SparseCore.Cfg.HIx 1) ℕ U ℕ cfg1 c where
  A w := V c (Pipeline.arrRef spec1 w)
  after w t := match w with
    | ⟨0, _⟩ => iblk1 V c 0 t
    | ⟨1, _⟩ => out1_1 (iblk1 V c 0 t)
  Φ _ := ΦR spec1 c
  q _ := fullShare
  owed _ := 0
  recorded _ := {p | (sc (F := F)).lev ((c : Thread nD τ), p.1) p.2 ≤ 8}

theorem A_eq1 (c : Dev nD) (w : Fin cfg1.W) : (dat1 (U := U) V c).A w = V c (Pipeline.arrRef spec1 w) := by
  dsimp only [dat1]

theorem after1_0 (c : Dev nD) (t : Fin cfg1.N) : (dat1 (U := U) V c).after 0 t = iblk1 V c 0 t := by dsimp only [dat1]
theorem after1_1 (c : Dev nD) (t : Fin cfg1.N) : (dat1 (U := U) V c).after 1 t = out1_1 (iblk1 V c 0 t) := by dsimp only [dat1]

theorem before1_0 (c : Dev nD) (t : Fin cfg1.N) (d) : (dat1 (U := U) V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 (U := U) V c).Φ t.castSucc ∗ (dat1 (U := U) V c).owesAt (none : SparseCore.Cfg.HIx 1) t.castSucc
    ∗ (∃ d, owns (c : Thread nD τ) (st1_0 t) fullShare ((dat1 (U := U) V c).before 0 t d))
    ∗ (∃ d, owns (c : Thread nD τ) (st1_1 t) fullShare ((dat1 (U := U) V c).before 1 t d)))

/-- and what it returns. -/
def bodyPost1 (c : Dev nD) (t : Fin cfg1.N) : sProp 𝕄 :=
  iprop((dat1 (U := U) V c).Φ t.succ ∗ (dat1 (U := U) V c).owesAt (none : SparseCore.Cfg.HIx 1) t.succ
    ∗ owns (c : Thread nD τ) (st1_0 t) fullShare ((dat1 (U := U) V c).after 0 t)
    ∗ owns (c : Thread nD τ) (st1_1 t) fullShare ((dat1 (U := U) V c).after 1 t))

/-- The body at any point. -/
theorem sound_body1 (c : Dev nD) (t : Fin cfg1.N) :
    bodyPre1 (U := U) V c t ⊢ wp frame (wpE (defs₀ (F := F)) Variants.none c none) Set.univ (bodyAt1 t) (fun _ => bodyPost1 V c t) := by
  unfold bodyPre1 bodyPost1 bodyAt1
  simp only [before1_0]
  rw [show (dat1 (U := U) V c).Φ t.succ = (dat1 V c).Φ t.castSucc from rfl,
    show (dat1 (U := U) V c).owesAt (none : SparseCore.Cfg.HIx 1) t.succ = (dat1 V c).owesAt none t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) (U := U) V c) (defs₀ (F := F)) Variants.none (none : SparseCore.Cfg.HIx 1) Set.univ := fun t => by
  rw [bigSep_W1, bigSep_W1]
  exact sound_body1 V c t

/-! # Pipeline 1: `cc2_mm_kernel`, at the entry contents `V`

The weight matrix's window is cut at the array's end: at the last point the fetch first overwrites the staging buffer
with words nothing names and then lands the 672 rows inside the array. What the body stores there depends on those words
(in the columns past 100000 of the padded result), so the proof data CONSTRAIN what the body leaves instead of naming it:
an input's buffer is left as found; the result's buffer holds `out2_3` of the pooled array, SOME 1024 × 128 contents that
agree with the matrix's block on the rows inside the array, and the bias block. -/

/-- Window `w`'s block at point `t` (its part inside the array), read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles of the body's accesses: each the whole staging buffer. -/
abbrev r2_in0 : Rect S4096x128 := Rect.unit (s := S4096x128) ![0, 0] S4096x128.size inb_S4096x128_S4096x128_0_0
abbrev r2_in1 : Rect S1024x128 := Rect.unit (s := S1024x128) ![0, 0] S1024x128.size inb_S1024x128_S1024x128_0_0
abbrev r2_in2 : Rect S1x1024 := Rect.unit (s := S1x1024) ![0, 0] S1x1024.size inb_S1x1024_S1x1024_0_0
abbrev r2_0 : Rect S4096x1024 := Rect.unit (s := S4096x1024) ![0, 0] S4096x1024.size inb_S4096x1024_S4096x1024_0_0

/-- The result block's staging buffer after the body, from the three inputs' buffers: its one store, the payload
    (`x0 · x1ᵀ + x2` broadcast over the rows) over the whole buffer. -/
def out2_3 (x0 : Vec F S4096x128 .f32) (x1 : Vec F S1024x128 .f32) (x2 : Vec F S1x1024 .f32) : Vec F S4096x1024 .f32 :=
  View.canon [⟨r2_0, k2_pay1 (View.ld x0 r2_in0) (View.ld x1 r2_in1) (View.ld x2 r2_in2)⟩]

/-- The store covers the buffer. -/
theorem cover2_3 (p0 : Vec F S4096x1024 .f32) (y : S4096x1024.Idx) :
    ∃ pc ∈ ([⟨r2_0, p0⟩] : List (View.Piece (Elt F) S4096x1024 .f32)), y ∈ pc.1.set :=
  View.cover_of_tiled [⟨r2_0, p0⟩] S4096x1024.size (by rfl) y

set_option maxHeartbeats 1000000 in
/-- The kernel body on whole staging memrefs, the inputs' at read contents `x0`, `x1`, `x2` and the output's at anything,
    runs to the continuation holding the inputs' as they were and the output's at `out2_3 x0 x1 x2`. -/
theorem sound_kernel2 (c : Dev nD) (E : Set ℕ) (i : grid2.Coords)
    (arg0 : Memref sig .tc .vmem S4096x128 .f32) (harg0 : arg0.IsWhole) (arg1 : Memref sig .tc .vmem S1024x128 .f32) (harg1 : arg1.IsWhole)
    (arg2 : Memref sig .tc .vmem S1x1024 .f32) (harg2 : arg2.IsWhole) (arg3 : Memref sig .tc .vmem S4096x1024 .f32) (harg3 : arg3.IsWhole)
    (x0 : Vec F S4096x128 .f32) (x1 : Vec F S1024x128 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2_mm_kernel i arg0 harg0 arg1 harg1 arg2 harg2 arg3 harg3) K := by
  simp only [cc2_mm_kernel_eq_skeleton]; unfold cc2_mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 1 on core `c`, relational: the arrays as the region finds them (`V`); each input's buffer
    left as found; the result's buffer at `out2_3` of the pooled array, some contents agreeing with the matrix's block
    on its rows inside the array, and the bias block; the invariant the scoped rest and the generator register; nothing
    owed; full shares. -/
def rdat2 (c : Dev nD) : RDat τ (Elt F) (SparseCore.Cfg.HIx 1) ℕ U ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ x1 : Vec F S1024x128 .f32, win2_1.cut (grid2.coords t) x1 = iblk2 V c 1 t
        ∧ X = out2_3 (iblk2 V c 0 t) x1 (iblk2 V c 2 t)
  Φ _ := ΦR spec2 c
  q _ := fullShare
  owed _ := 0
  recorded _ := {p | (sc (F := F)).lev ((c : Thread nD τ), p.1) p.2 ≤ 8}

theorem rA_eq2 (c : Dev nD) (w : Fin cfg2.W) : (rdat2 (U := U) V c).A w = V c (Pipeline.arrRef spec2 w) := by
  dsimp only [rdat2]

theorem rafter2_0 (c : Dev nD) (t : Fin cfg2.N) (Y X) : (rdat2 (U := U) V c).after 0 t Y X ↔ X = Y := by dsimp only [rdat2]; exact Iff.rfl
theorem rafter2_1 (c : Dev nD) (t : Fin cfg2.N) (Y X) : (rdat2 (U := U) V c).after 1 t Y X ↔ X = Y := by dsimp only [rdat2]; exact Iff.rfl
theorem rafter2_2 (c : Dev nD) (t : Fin cfg2.N) (Y X) : (rdat2 (U := U) V c).after 2 t Y X ↔ X = Y := by dsimp only [rdat2]; exact Iff.rfl
theorem rafter2_3 (c : Dev nD) (t : Fin cfg2.N) (Y X) : (rdat2 (U := U) V c).after 3 t Y X ↔
    ∃ x1 : Vec F S1024x128 .f32, win2_1.cut (grid2.coords t) x1 = iblk2 V c 1 t ∧ X = out2_3 (iblk2 V c 0 t) x1 (iblk2 V c 2 t) := by
  dsimp only [rdat2]; exact Iff.rfl

/-- What the body finds in the pooled array's buffer: the whole array, fetched at the first point and kept. -/
theorem finds2_0 (c : Dev nD) (t : Fin cfg2.N) (Y) (h : (rdat2 (U := U) V c).Finds 0 t Y) : Y = iblk2 V c 0 t := by
  obtain ⟨d, rfl⟩ := (rdat2 (U := U) V c).finds_in_eq_fetched 0 rfl (fun _ _ _ => rfl)
    (fun t Y X h => (rafter2_0 V c t Y X).mp h) t Y h
  unfold RDat.fetched RDat.blockOf iblk2; rw [rA_eq2]; try rfl

/-- In the bias's buffer: its block, fetched at every point. -/
theorem finds2_2 (c : Dev nD) (t : Fin cfg2.N) (Y) (h : (rdat2 (U := U) V c).Finds 2 t Y) : Y = iblk2 V c 2 t := by
  obtain ⟨d, rfl⟩ := ((rdat2 (U := U) V c).finds_of_fetch (fetch2_2 t) Y).mp h
  unfold RDat.fetched RDat.blockOf iblk2; rw [rA_eq2]; try rfl

/-- In the matrix's buffer: contents that agree with its block on the rows inside the array (the fetch at every point
    fills those; the rest is what the overwrite before it left). -/
theorem finds2_1 (c : Dev nD) (t : Fin cfg2.N) (Y) (h : (rdat2 (U := U) V c).Finds 1 t Y) :
    win2_1.cut (grid2.coords t) Y = iblk2 V c 1 t := by
  obtain ⟨d, rfl⟩ := ((rdat2 (U := U) V c).finds_of_fetch (fetch2_1 t) Y).mp h
  unfold RDat.fetched RDat.blockOf iblk2; rw [rA_eq2]
  exact win2_1.cut_fill _ _ _

/-- What the body is called with at point `t`, the windows one by one at contents `Y`, -/
def rbodyPre2 (c : Dev nD) (t : Fin cfg2.N) (Y : (w : Fin cfg2.W) → (cfg2.win w).block.Idx → Elt F (cfg2.win w).elt) : sProp 𝕄 :=
  iprop((rdat2 (U := U) V c).Φ t.castSucc ∗ (rdat2 (U := U) V c).owesAt (none : SparseCore.Cfg.HIx 1) t.castSucc
    ∗ owns (c : Thread nD τ) (st2_0 t) fullShare (Y 0)
    ∗ owns (c : Thread nD τ) (st2_1 t) fullShare (Y 1)
    ∗ owns (c : Thread nD τ) (st2_2 t) fullShare (Y 2)
    ∗ owns (c : Thread nD τ) (st2_3 t) fullShare (Y 3))

/-- and what it returns: each buffer at some contents its relation allows. -/
def rbodyPost2 (c : Dev nD) (t : Fin cfg2.N) (Y : (w : Fin cfg2.W) → (cfg2.win w).block.Idx → Elt F (cfg2.win w).elt) : sProp 𝕄 :=
  iprop((rdat2 (U := U) V c).Φ t.succ ∗ (rdat2 (U := U) V c).owesAt (none : SparseCore.Cfg.HIx 1) t.succ
    ∗ (∃ X, ⌜(rdat2 (U := U) V c).after 0 t (Y 0) X⌝ ∗ owns (c : Thread nD τ) (st2_0 t) fullShare X)
    ∗ (∃ X, ⌜(rdat2 (U := U) V c).after 1 t (Y 1) X⌝ ∗ owns (c : Thread nD τ) (st2_1 t) fullShare X)
    ∗ (∃ X, ⌜(rdat2 (U := U) V c).after 2 t (Y 2) X⌝ ∗ owns (c : Thread nD τ) (st2_2 t) fullShare X)
    ∗ (∃ X, ⌜(rdat2 (U := U) V c).after 3 t (Y 3) X⌝ ∗ owns (c : Thread nD τ) (st2_3 t) fullShare X))

/-- The body at any point, on whatever the buffers may hold there: the inputs' are left as found and the result's is
    `out2_3` of them. -/
theorem sound_body2 (c : Dev nD) (t : Fin cfg2.N) (Y : (w : Fin cfg2.W) → (cfg2.win w).block.Idx → Elt F (cfg2.win w).elt)
    (hY : ∀ w, (rdat2 (U := U) V c).Finds w t (Y w)) :
    rbodyPre2 (U := U) V c t Y ⊢ wp frame (wpE (defs₀ (F := F)) Variants.none c none) Set.univ (bodyAt2 t) (fun _ => rbodyPost2 V c t Y) := by
  have h0 := finds2_0 V c t _ (hY 0)
  have h1 := finds2_1 V c t _ (hY 1)
  have h2 := finds2_2 V c t _ (hY 2)
  unfold rbodyPre2 rbodyPost2 bodyAt2
  rw [show (rdat2 (U := U) V c).Φ t.succ = (rdat2 V c).Φ t.castSucc from rfl,
    show (rdat2 (U := U) V c).owesAt (none : SparseCore.Cfg.HIx 1) t.succ = (rdat2 V c).owesAt none t.castSucc from rfl]
  iintro ⟨HΦ, Ho, H0, H1, H2, H3⟩
  iapply (sound_kernel2 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (rafter2_0 V c t _ _).mpr rfl
    iexact H0
  isplitl [H1]
  · iexists (Y 1); isplitr; · ipureintro; exact (rafter2_1 V c t _ _).mpr rfl
    iexact H1
  isplitl [H2]
  · iexists (Y 2); isplitr; · ipureintro; exact (rafter2_2 V c t _ _).mpr rfl
    iexact H2
  iexists out2_3 (Y 0) (Y 1) (Y 2); isplitr
  · ipureintro; exact (rafter2_3 V c t _ _).mpr ⟨Y 1, h1, by rw [h0, h2]⟩
  iexact H3

/-- The library's relational body obligation, at every point. -/
theorem body_obligation2 (c : Dev nD) :
    (rdat2 (F := F) (U := U) V c).BodyObligation (defs₀ (F := F)) Variants.none (none : SparseCore.Cfg.HIx 1) Set.univ := fun t Y hY => by
  rw [bigSep_W2, bigSep_W2]
  exact sound_body2 V c t Y hY

end Regions

/-! # The two regions as records

Entered from the thread state "every unscoped buffer of the TensorCore at a valuation, the generator register at some
state, nothing owed and every recorded wait at or below level 8": region 0 from the valuation `WA`, region 1 from `WB`. -/

section Records

/-- A family of relational proof data whose inputs are all held at the full share holds every array at the full share. -/
theorem rshare_full {cfg : Cfg sig Λ₀} {c : Dev nD} (rd : RDat τ (Elt F) (SparseCore.Cfg.HIx 1) ℕ U ℕ cfg c) (h : ∀ w, rd.q w = fullShare) (w : Fin cfg.W) :
    rd.share w = fullShare := by
  unfold RDat.share; split
  · rfl
  · exact h w

variable (WA WB : Dev nD → Valuation τ sig (Elt F))

/-- A valuation read at the TensorCore's references: what a region's proof data take. -/
abbrev VA (W : Dev nD → Valuation τ sig (Elt F)) : (c : Dev nD) → (b : Ref sig .tc) → Buf (Elt F) ((c : Thread nD τ).loc b) := fun c b => W c b
/-- The same of one core's valuation. -/
abbrev VAc (c : Dev nD) (W : Valuation τ sig (Elt F)) : (b : Ref sig .tc) → Buf (Elt F) ((c : Thread nD τ).loc b) := fun b => W b

/-- The prefetched tables' admissible contents: no pipeline has a table. -/
abbrev adm : (p : Fin 2) → (pcfgs (F := F) p).Adm := fun p => (cfgs p).toPCfg_adm

/-- EXIT, the arrays' part, for relational data: a pipeline's arrays at contents `A'` and the unscoped rest at `V` are the
    core's unscoped buffers at any valuation `V'` that has the arrays at `A'` and agrees with `V` off them. -/
theorem unscopedBufs_of_rarrays (rds : (p : Fin 2) → (c : Dev nD) → RDat τ (Elt F) (SparseCore.Cfg.HIx 1) ℕ U ℕ (Pipeline.pin (pcfgs (F := F)) adm p) c)
    {p : Fin 2} (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare)
    (V V' : (b : Ref sig .tc) → Buf (Elt F) ((c : Thread nD τ).loc b))
    (A' : (w : Fin (Pipeline.pin (pcfgs (F := F)) adm p).W) → Buf (Elt F) (((Pipeline.pin (pcfgs (F := F)) adm p).spec w).arr.view.loc (c : Thread nD τ)))
    (hA' : ∀ w, A' w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A' ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA'])) (Entails.of_eq ?_)
  unfold Pipeline.unscopedRest
  exact bigSep_congr fun b hb => by rw [hrest b (Finset.mem_sdiff.mp hb).2]

/-- Every pipeline's proof data, each at its region's entry contents: pipeline 0's exact data read relationally,
    pipeline 1's relational data. -/
def rdats : (p : Fin 2) → (c : Dev nD) → RDat τ (Elt F) (SparseCore.Cfg.HIx 1) ℕ U ℕ (Pipeline.pin (pcfgs (F := F)) adm p) c
  | ⟨0, _⟩ => fun c => (dat1 (VA WA) c).toR
  | ⟨1, _⟩ => fun c => rdat2 (VA WB) c

/-- What rides beside the buffers: the generator register at some state, and the core owing nothing, every pair its
    waits have recorded at or below level 8 (the pipelines' own waits are recorded at index `none`, level 0). -/
abbrev R (c : Dev nD) : sProp 𝕄 :=
  iprop((∃ r, prngReg c r) ∗ ∃ W, ⌜(sc (F := F)).WBelow (c : Thread nD τ) W 8⌝
    ∗ owes (c : Thread nD τ) (0 : CellTallies nD τ sig (SparseCore.Cfg.HIx 1)) W)

/-- Every pair within a region's bound is at or below level 8: recorded before (the data's bound) or the pipeline's own
    (index `none`, level 0). -/
theorem wbelow_of_bound (c : Dev nD) {cfg : Cfg sig Λ₀} (W : Waits sig (SparseCore.Cfg.HIx 1))
    (hW : (↑W : Set (SemLoc sig × SparseCore.Cfg.HIx 1)) ⊆ {p | (sc (F := F)).lev ((c : Thread nD τ), p.1) p.2 ≤ 8} ∪ cfg.waitPairs none) :
    (sc (F := F)).WBelow (c : Thread nD τ) W 8 := fun p hp => by
  rcases hW (Finset.mem_coe.mpr hp) with h | ⟨w, s, rfl⟩
  · exact h
  · exact Nat.zero_le _

/-- Region 0's exit contents: the pooled array at what the pipeline's write-backs leave, the gathered rows' array as
    entered (an input is never written), every other buffer as entered. -/
def exit1 (c : Dev nD) : Valuation τ sig (Elt F) :=
  Pipeline.withArrays spec1 c (WA c) fun w => (dat1 (U := U) (VA WA) c).arrAt w cfg1.N
theorem exit1_arr (c : Dev nD) (w : Fin cfg1.W) :
    exit1 (U := U) WA c (Proc.devRef .tc (Pipeline.arrRef spec1 w)) = (dat1 (U := U) (VA WA) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 (U := U) WA c (Proc.devRef .tc b) = WA c (Proc.devRef .tc b) := by
  unfold exit1; exact Pipeline.withArrays_of_ne spec1 c _ _ b hb
theorem hF1 (c : Dev nD) (w : Fin cfg1.W) :
    (dat1 (U := U) (VA WA) c).arrAt w cfg1.N = VA (exit1 (U := U) WA) c (Pipeline.arrRef spec1 w) := (exit1_arr WA c w).symm
theorem hrest1 (c : Dev nD) : ∀ b, b ∉ Finset.univ.image (Pipeline.arrRef spec1) → VA (exit1 (U := U) WA) c b = VA WA c b :=
  fun b hb => exit1_of_ne WA c b fun w e => hb (Finset.mem_image.mpr ⟨w, Finset.mem_univ _, e⟩)

/-- Region 1's arrays after its write-backs, from the four contents its exit names. -/
def exitArrs (c : Dev nD) (A0 : Buf (Elt F) ((cfg2.win 0).arr.view.loc (c : Thread nD τ))) (A1 : Buf (Elt F) ((cfg2.win 1).arr.view.loc (c : Thread nD τ)))
    (A2 : Buf (Elt F) ((cfg2.win 2).arr.view.loc (c : Thread nD τ))) (A3 : Buf (Elt F) ((cfg2.win 3).arr.view.loc (c : Thread nD τ))) :
    (w : Fin cfg2.W) → Buf (Elt F) ((cfg2.win w).arr.view.loc (c : Thread nD τ))
  | ⟨0, _⟩ => A0
  | ⟨1, _⟩ => A1
  | ⟨2, _⟩ => A2
  | ⟨3, _⟩ => A3

/-- Region 1's exit contents: its arrays at `A'`, every other buffer as entered. -/
def exit2 (c : Dev nD) (A' : (w : Fin cfg2.W) → Buf (Elt F) ((cfg2.win w).arr.view.loc (c : Thread nD τ))) : Valuation τ sig (Elt F) :=
  Pipeline.withArrays spec2 c (WB c) A'
theorem exit2_arr (c : Dev nD) (A' : (w : Fin cfg2.W) → Buf (Elt F) ((cfg2.win w).arr.view.loc (c : Thread nD τ))) (w : Fin cfg2.W) :
    exit2 WB c A' (Proc.devRef .tc (Pipeline.arrRef spec2 w)) = A' w := by
  unfold exit2; exact Pipeline.withArrays_arr spec2 launch2.win.arr_inj c _ _ w
theorem exit2_of_ne (c : Dev nD) (A' : (w : Fin cfg2.W) → Buf (Elt F) ((cfg2.win w).arr.view.loc (c : Thread nD τ))) (b : Ref sig .tc)
    (hb : ∀ w, Pipeline.arrRef spec2 w ≠ b) : exit2 WB c A' (Proc.devRef .tc b) = WB c (Proc.devRef .tc b) := by
  unfold exit2; exact Pipeline.withArrays_of_ne spec2 c _ _ b hb
theorem hF2 (c : Dev nD) (A' : (w : Fin cfg2.W) → Buf (Elt F) ((cfg2.win w).arr.view.loc (c : Thread nD τ))) (w : Fin cfg2.W) :
    A' w = VAc c (exit2 WB c A') (Pipeline.arrRef spec2 w) := (exit2_arr WB c A' w).symm
theorem hrest2 (c : Dev nD) (A' : (w : Fin cfg2.W) → Buf (Elt F) ((cfg2.win w).arr.view.loc (c : Thread nD τ))) :
    ∀ b, b ∉ Finset.univ.image (Pipeline.arrRef spec2) → VAc c (exit2 WB c A') b = VA WB c b :=
  fun b hb => exit2_of_ne WB c A' b fun w e => hb (Finset.mem_image.mpr ⟨w, Finset.mem_univ _, e⟩)

set_option backward.isDefEq.respectTransparency.types false in
/-- REGION 0 (`mean_kernel`): entered from every unscoped buffer at `WA`, left with the pooled array at what the
    pipeline's write-backs leave and every other buffer as entered. -/
def reg1 : Pipeline.RDat.RegionSeg (pcfgs (F := F)) adm (rdats (U := U) WA WB) (none : SparseCore.Cfg.HIx 1) defs₀ Variants.none
    (sc (F := F)).L (sc (F := F)).lev 0 where
  win := launch1.win.to₀
  block_pos := launch1.block_pos
  stage_whole := launch1.stage_whole
  K := PEmpty
  osem k := k.elim
  ho := Pipeline.OwnSemFacts.none _
  hbody c := (body_obligation1 (U := U) (VA WA) c).toR
  hwaits := Pipeline.RDat.hwaits_of_owed_zero _ _ _ _ (sc (F := F)).L (sc (F := F)).lev 0 fun _ _ => rfl
  pre c := iprop(StableHlo.held (c : Thread nD τ) (Pipeline.ucRefs τ sig) (WA c) ∗ R c)
  post c := iprop(StableHlo.held (c : Thread nD τ) (Pipeline.ucRefs τ sig)
      (exit1 (U := U) WA c) ∗ R c)
  X c := iprop(∃ r, prngReg c r)
  Y c := iprop(∃ r, prngReg c r)
  Z c := Pipeline.unscopedRest (Ix := SparseCore.Cfg.HIx 1) (Name := ℕ) (U := U) (Lvl := ℕ) spec1 c (VA WA c)
  hentry c := by
    rw [Pipeline.ownSems0_none]
    have hsplit := Pipeline.RDat.arrays_of_unscopedBufs (p := 0) (pcfgs (F := F)) adm (rdats (U := U) WA WB) launch1.win launch1.arr_whole c
      (rshare_full _ fun _ => rfl) (VA WA c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats (U := U) WA WB 0 c).Φ 0 = ΦR spec1 c from rfl]; unfold ΦR
    iintro ⟨Hp, -, Hr⟩
    isplitl [Hr]; · iexact Hr
    iexact Hp
  hout c := by
    rw [Pipeline.ownSems0_none, show (rdats (U := U) WA WB 0 c).Φ (Fin.last _) = ΦR spec1 c from rfl]; unfold ΦR
    iintro ⟨Hr, Hp⟩
    isplitl [Hp]; · iexact Hp
    isplitr; · iempintro
    iexact Hr
  hexit c := by
    have hjoin : iprop((dat1 (U := U) (VA WA) c).arrays ((dat1 (U := U) (VA WA) c).arrAt · cfg1.N)
          ∗ Pipeline.unscopedRest (Ix := SparseCore.Cfg.HIx 1) (Name := ℕ) (U := U) (Lvl := ℕ) spec1 c (VA WA c))
        ⊢ (unscopedBufs c (VA (exit1 (U := U) WA) c) : sProp 𝕄) :=
      unscopedBufs_of_rarrays (p := 0) (rdats (U := U) WA WB) launch1.win launch1.arr_whole c
        (rshare_full _ fun _ => rfl) (VA WA c) (VA (exit1 (U := U) WA) c)
        ((dat1 (U := U) (VA WA) c).arrAt · cfg1.N) (hF1 WA c) (hrest1 WA c)
    rw [Pipeline.unscopedBufs_held] at hjoin
    rw [show (rdats (U := U) WA WB 0 c).arraysAt (Pipeline.pin (pcfgs (F := F)) adm 0).N = (dat1 (U := U) (VA WA) c).toR.arraysAt cfg1.N from rfl,
      Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, %hW, HO⟩; iexists W; isplitr
    · ipureintro; exact wbelow_of_bound c W hW
    iexact HO

set_option backward.isDefEq.respectTransparency.types false in
/-- REGION 1 (`mm_kernel`): entered from every unscoped buffer at `WB`, left at a valuation that agrees with `WB` off the
    padded result and has the padded result at contents its write-backs may leave. -/
def reg2 : Pipeline.RDat.RegionSeg (pcfgs (F := F)) adm (rdats (U := U) WA WB) (none : SparseCore.Cfg.HIx 1) defs₀ Variants.none
    (sc (F := F)).L (sc (F := F)).lev 1 where
  win := launch2.win.to₀
  block_pos := launch2.block_pos
  stage_whole := launch2.stage_whole
  K := PEmpty
  osem k := k.elim
  ho := Pipeline.OwnSemFacts.none _
  hbody c := body_obligation2 (U := U) (VA WB) c
  hwaits := Pipeline.RDat.hwaits_of_owed_zero _ _ _ _ (sc (F := F)).L (sc (F := F)).lev 1 fun _ _ => rfl
  pre c := iprop(StableHlo.held (c : Thread nD τ) (Pipeline.ucRefs τ sig) (WB c) ∗ R c)
  post c := iprop(∃ W' : Valuation τ sig (Elt F), ⌜(∀ b, b ≠ Proc.devRef .tc main_v5 → W' b = WB c b)
      ∧ (rdat2 (U := U) (VA WB) c).ArrAt 3 cfg2.N (W' (Proc.devRef .tc main_v5))⌝
      ∗ StableHlo.held (c : Thread nD τ) (Pipeline.ucRefs τ sig) W' ∗ R c)
  X c := iprop(∃ r, prngReg c r)
  Y c := iprop(∃ r, prngReg c r)
  Z c := Pipeline.unscopedRest (Ix := SparseCore.Cfg.HIx 1) (Name := ℕ) (U := U) (Lvl := ℕ) spec2 c (VA WB c)
  hentry c := by
    rw [Pipeline.ownSems0_none]
    have hsplit := Pipeline.RDat.arrays_of_unscopedBufs (p := 1) (pcfgs (F := F)) adm (rdats (U := U) WA WB) launch2.win launch2.arr_whole c
      (rshare_full _ fun _ => rfl) (VA WB c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats (U := U) WA WB 1 c).Φ 0 = ΦR spec2 c from rfl]; unfold ΦR
    iintro ⟨Hp, -, Hr⟩
    isplitl [Hr]; · iexact Hr
    iexact Hp
  hout c := by
    rw [Pipeline.ownSems0_none, show (rdats (U := U) WA WB 1 c).Φ (Fin.last _) = ΦR spec2 c from rfl]; unfold ΦR
    iintro ⟨Hr, Hp⟩
    isplitl [Hp]; · iexact Hp
    isplitr; · iempintro
    iexact Hr
  hexit c := by
    rw [show (rdats (U := U) WA WB 1 c).arraysAt (Pipeline.pin (pcfgs (F := F)) adm 1).N = (rdat2 (U := U) (VA WB) c).arraysAt cfg2.N from rfl]
    unfold Pipeline.RDat.arraysAt
    rw [bigSep_W2]
    iintro ⟨⟨⟨%A0, %h0, H0⟩, ⟨%A1, %h1, H1⟩, ⟨%A2, %h2, H2⟩, ⟨%A3, %h3, H3⟩⟩, HO, HY, Hrest⟩
    rw [RDat.ArrAt_in _ 0 rfl] at h0
    rw [RDat.ArrAt_in _ 1 rfl] at h1
    rw [RDat.ArrAt_in _ 2 rfl] at h2
    have hjoin := unscopedBufs_of_rarrays (p := 1) (rdats (U := U) WA WB) launch2.win launch2.arr_whole c
      (rshare_full _ fun _ => rfl) (VA WB c)
      (VAc c (exit2 WB c (exitArrs c A0 A1 A2 A3)))
      (exitArrs c A0 A1 A2 A3) (hF2 WB c _) (hrest2 WB c _)
    rw [Pipeline.unscopedBufs_held] at hjoin
    imodintro
    iexists exit2 WB c (exitArrs c A0 A1 A2 A3)
    isplitr
    · ipureintro
      refine ⟨fun b hb => ?_, ?_⟩
      · by_cases h : ∃ w, Proc.devRef .tc (Pipeline.arrRef spec2 w) = b
        · obtain ⟨w, rfl⟩ := h
          rw [exit2_arr WB c _ w]
          match w with
          | ⟨0, _⟩ => exact h0
          | ⟨1, _⟩ => exact h1
          | ⟨2, _⟩ => exact h2
          | ⟨3, _⟩ => exact absurd rfl hb
        · unfold exit2 Pipeline.withArrays; rw [dif_neg h]
      · have e := exit2_arr WB c (exitArrs c A0 A1 A2 A3) 3
        change (rdat2 (U := U) (VA WB) c).ArrAt 3 cfg2.N (exit2 WB c (exitArrs c A0 A1 A2 A3) (Proc.devRef .tc (Pipeline.arrRef spec2 3)))
        rw [e]; exact h3
    isplitl [H0 H1 H2 H3 Hrest]
    · iapply hjoin
      isplitr [Hrest]
      · rw [show (rdats (U := U) WA WB 1 c).arrays (exitArrs c A0 A1 A2 A3) = (rdat2 (U := U) (VA WB) c).arrays (exitArrs c A0 A1 A2 A3) from rfl]
        unfold Pipeline.RDat.arrays
        rw [bigSep_W2]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, %hW, HO⟩; iexists W; isplitr
    · ipureintro; exact wbelow_of_bound c W hW
    iexact HO

end Records

end Cert.Proof.KB.Regions

end
-- ==== Proof.MainB.lean ====
/-
  @main on the TensorCore of a device, step by step: the index array flattened, the lookup handed to the two
  SparseCores and collected, the pooling region, the bias padded and laid out as a row, the projection region, the
  final slice. The buffers' contents are followed as a chain of valuations from the launch memory.
-/
import proofs.«204109_g84920093377010_cont_9to1_m_793_20_alg».proof.Proof.LaunchB
import proofs.«204109_g84920093377010_cont_9to1_m_793_20_alg».proof.Proof.RegionsB

noncomputable section

namespace Cert.Proof.KB.Main

open Cert.Kernel Cert.Kernel.Gen Cert.Proof.KB.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers of the SparseCore call, and the contents along @main -/

abbrev xf' : DevRef τ sig := Proc.devRef .tc (main_v0 : Ref sig .tc)
abbrev tab' : DevRef τ sig := Proc.devRef .tc (main_arg1 : Ref sig .tc)
abbrev out' : DevRef τ sig := Proc.devRef .tc (main_v1 : Ref sig .tc)

abbrev opR0 : HloOp τ sig (Elt F) := StableHlo.reshape main_arg0 main_v0 rfl shapeCasts_S4096x20_S81920

/-- The launch contents; after the flattening of the index array; after the lookup. -/
def W0 (d : Dev nD) : Valuation τ sig (Elt F) := fun b => m (d, b)
def W1 (d : Dev nD) : Valuation τ sig (Elt F) := (opR0 (F := F)).result (W0 m d)
def W2 (d : Dev nD) : Valuation τ sig (Elt F) := Function.update (W1 m d) out' (Cert.Slab.gathF (W1 m d xf') (W1 m d tab'))

/-- What the handshakes carry, at these contents. -/
abbrev Pm : (K (F := F)).Pay (nD := nD) (Val := Elt F) (Name := ℕ) (U := UU) :=
  P (F := F) (fun d => W1 m d xf') (fun d => W1 m d tab') (fun d => W1 m d out') (fun d => Cert.Slab.gathF (W1 m d xf') (W1 m d tab'))

/-- An unscoped TensorCore buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev T3 : Finset (DevRef τ sig) := {xf', tab', out'}

theorem T3_sub : T3 ⊆ Pipeline.ucRefs τ sig := by
  intro b hb
  rcases Finset.mem_insert.mp hb with rfl | hb
  · exact mem_uc main_v0 (by decide)
  rcases Finset.mem_insert.mp hb with rfl | hb
  · exact mem_uc main_arg1 (by decide)
  · rw [Finset.mem_singleton.mp hb]; exact mem_uc main_v1 (by decide)

/-- The held buffers with the call's three taken out. -/
theorem held_T3 (d : Dev nD) (W : Valuation τ sig (Elt F)) :
    (held (T d) (Pipeline.ucRefs τ sig) W : sProp 𝕄)
      = iprop(((xfLoc d ↦{fullShare} W xf') ∗ (tabLoc d ↦{fullShare} W tab') ∗ (outLoc d ↦{fullShare} W out'))
          ∗ held (T d) (Pipeline.ucRefs τ sig \ T3) W) := by
  rw [held_sub_split (T d) T3_sub W]
  congr 1
  unfold held T3
  rw [SparseCore.bigSep_insert' (by decide), SparseCore.bigSep_insert' (by decide), bigSep_singleton]

/-! ## The output as 2 × 16 slabs -/

/-- Worker numbers are pairs (core, subcore). -/
def widEquiv : Fin 2 × Fin 16 ≃ Fin 32 :=
  Equiv.ofBijective (fun p => Cert.Slab.wid p.1 p.2)
    ⟨Cert.Slab.wid_injective, fun w => let ⟨c, s, h⟩ := Cert.Slab.wid_surjective w; ⟨(c, s), h⟩⟩

theorem out_slabs (d : Dev nD) (o : Buf (Elt F) (outLoc d)) :
    (outLoc d ↦{fullShare} o : sProp 𝕄) = bigSep Finset.univ fun c : Fin 2 => bigSep Finset.univ fun i : Fin 16 => slabPts d (Cert.Slab.wid c i) o := by
  have h32 : (outLoc d ↦{fullShare} o : sProp 𝕄) = bigSep Finset.univ fun w : Fin 32 => slabPts d w o := by
    rw [← pointsTo_biUnion Finset.univ (ℓ := outLoc d) Cert.Slab.tileSet (fun w _ w' _ h => Cert.Slab.tileSet_disjoint h), Cert.Slab.tileSet_cover]; try rfl
  rw [h32, bigSep_univ_equiv widEquiv (fun w => slabPts d w o), bigSep_univ_prod]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Split
variable (d : Dev nD) (xfv : Buf (Elt F) (xfLoc d)) (tabv : Buf (Elt F) (tabLoc d))

/-- The three buffers whole are a remainder of the two inputs and, per core, its read shares and its slabs. -/
theorem call_split (o : Buf (Elt F) (outLoc d)) :
    iprop((xfLoc d ↦{fullShare} xfv) ∗ (tabLoc d ↦{fullShare} tabv) ∗ (outLoc d ↦{fullShare} o))
      ⊣⊢ (iprop(((xfLoc d ↦{Transfers.shareDrop fullShare 2} xfv) ∗ (tabLoc d ↦{Transfers.shareDrop fullShare 2} tabv))
          ∗ bigSep Finset.univ fun c : Fin 2 => iprop(((xfLoc d ↦{tokC c} xfv) ∗ (tabLoc d ↦{tokC c} tabv))
              ∗ bigSep Finset.univ fun i : Fin 16 => slabPts d (Cert.Slab.wid c i) o)) : sProp 𝕄) := by
  rw [out_slabs, bigSep_sep', bigSep_sep']
  constructor
  · iintro ⟨Hx, Ht, Ho⟩
    ihave Hx' := (Transfers.pointsTo_toks_split fullShare 2) $$ Hx
    ihave Ht' := (Transfers.pointsTo_toks_split fullShare 2) $$ Ht
    icases Hx' with ⟨Hxr, Hxs⟩
    icases Ht' with ⟨Htr, Hts⟩
    isplitl [Hxr Htr]
    · isplitl [Hxr] <;> iassumption
    isplitl [Hxs Hts]
    · isplitl [Hxs] <;> iassumption
    iexact Ho
  · iintro ⟨⟨Hxr, Htr⟩, ⟨Hxs, Hts⟩, Ho⟩
    isplitl [Hxr Hxs]
    · iapply (Transfers.pointsTo_toks_join fullShare 2); isplitl [Hxr] <;> iassumption
    isplitl [Htr Hts]
    · iapply (Transfers.pointsTo_toks_join fullShare 2); isplitl [Htr] <;> iassumption
    iexact Ho

end Split

theorem st0_eq (d : Dev nD) : (bigSep Finset.univ fun c : Fin ((K (F := F)).nCore 0) => (Pm m).st 0 d c)
    = bigSep Finset.univ fun c : Fin 2 => iprop(((xfLoc d ↦{tokC c} W1 m d xf') ∗ (tabLoc d ↦{tokC c} W1 m d tab'))
        ∗ bigSep Finset.univ fun i : Fin 16 => slabPts d (Cert.Slab.wid c i) (W1 m d out')) :=
  bigSep_cores (F := F) _
theorem dn0_eq (d : Dev nD) : (bigSep Finset.univ fun c : Fin ((K (F := F)).nCore 0) => (Pm m).dn 0 d c)
    = bigSep Finset.univ fun c : Fin 2 => iprop(((xfLoc d ↦{tokC c} W1 m d xf') ∗ (tabLoc d ↦{tokC c} W1 m d tab'))
        ∗ bigSep Finset.univ fun i : Fin 16 => slabPts d (Cert.Slab.wid c i) (Cert.Slab.gathF (W1 m d xf') (W1 m d tab'))) :=
  bigSep_cores (F := F) _

/-! ## After the lookup -/

theorem W2_xf (d : Dev nD) : W2 m d xf' = W1 m d xf' := Function.update_of_ne (show xf' ≠ out' by decide) _ _
theorem W2_tab (d : Dev nD) : W2 m d tab' = W1 m d tab' := Function.update_of_ne (show tab' ≠ out' by decide) _ _
theorem W2_out (d : Dev nD) : W2 m d out' = Cert.Slab.gathF (W1 m d xf') (W1 m d tab') := Function.update_self _ _ _
theorem W2_of_ne (d : Dev nD) (b : DevRef τ sig) (h : b ≠ out') : W2 m d b = W1 m d b := Function.update_of_ne h _ _

/-- The three buffers back, the output at the looked-up rows, and the rest: every unscoped buffer at the contents after the lookup. -/
theorem held_W2 (d : Dev nD) :
    iprop(((xfLoc d ↦{fullShare} W1 m d xf') ∗ (tabLoc d ↦{fullShare} W1 m d tab') ∗ (outLoc d ↦{fullShare} Cert.Slab.gathF (W1 m d xf') (W1 m d tab')))
        ∗ held (T d) (Pipeline.ucRefs τ sig \ T3) (W1 m d))
      ⊢ (held (T d) (Pipeline.ucRefs τ sig) (W2 m d) : sProp 𝕄) := by
  rw [held_T3 d (W2 m d), W2_xf, W2_tab, W2_out,
    StableHlo.held_congr (T d) (S := Pipeline.ucRefs τ sig \ T3) (V := W2 m d) (V' := W1 m d) (fun b hb => W2_of_ne m d b (fun e =>
      (Finset.mem_sdiff.mp hb).2 (e ▸ Finset.mem_insert_of_mem (Finset.mem_insert_of_mem (Finset.mem_singleton_self _)))))]

/-! ## The host operations of @main -/

abbrev opC : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) :=
  StableHlo.TRef.binary (.of main_arg3 : StableHlo.TRef sig ⟨S100000, .f32⟩) main_call0.v0 main_call0.v1 (fun x v => pad S100352 ![0] ![352] ![0] x v pads_S100000_S100352_03520 h_S_)
abbrev opR1 : HloOp τ sig (Elt F) := StableHlo.reshape main_v3 main_v4 rfl shapeCasts_S100352_S1x100352
abbrev opSl : HloOp τ sig (Elt F) :=
  StableHlo.unary main_v5 main_v6 ((extractStridedSlice S4096x100000 ![0, 0] · slices_S4096x100352_S4096x100000_0_0) : (⟨S4096x100352, .f32⟩ : BufTy).Contents (Elt F) → (⟨S4096x100000, .f32⟩ : BufTy).Contents (Elt F))

theorem hR0 : (opR0 (F := F)).bufs ⊆ Pipeline.ucRefs τ sig := Pipeline.sub_ucRefs _ (StableHlo.reshape_bufs_sub ..)
theorem hC : (opC (F := F)).bufs ⊆ Pipeline.ucRefs τ sig := Pipeline.sub_ucRefs _ (StableHlo.nullary_bufs_sub ..)
theorem hConv : (opConv (F := F)).bufs ⊆ Pipeline.ucRefs τ sig := Pipeline.sub_ucRefs _ (StableHlo.unary_bufs_sub ..)
theorem hPad : (opPad (F := F)).bufs ⊆ Pipeline.ucRefs τ sig := Pipeline.sub_ucRefs _ (StableHlo.binary_bufs_sub ..)
theorem hR1 : (opR1 (F := F)).bufs ⊆ Pipeline.ucRefs τ sig := Pipeline.sub_ucRefs _ (StableHlo.reshape_bufs_sub ..)
theorem hSl : (opSl (F := F)).bufs ⊆ Pipeline.ucRefs τ sig := Pipeline.sub_ucRefs _ (StableHlo.unary_bufs_sub ..)

/-- The TensorCore after the one SparseCore call owes nothing. -/
theorem tcSt_one (d : Dev nD) : ∃ Rst : sProp 𝕄, ((K (F := F)).tcSt EH d 1 : sProp 𝕄)
    = iprop((∃ W, ⌜(K (F := F)).WBelow (T d) W (8 * 1)⌝ ∗ owes (T d) (0 : CellTallies nD τ sig (HIx 1)) W) ∗ Rst) :=
  ⟨_, by unfold SparseCore.Cfg.tcSt; rw [(K (F := F)).Otc_end d (le_refl 1)]⟩

/-! ## The contents after the regions -/

/-- After the pooling region; after the bias is padded and laid out as a row (the projection region's entry). -/
def W3 (d : Dev nD) : Valuation τ sig (Elt F) := Cert.Proof.KB.Regions.exit1 (U := UU) (W2 m) d
def W4 (d : Dev nD) : Valuation τ sig (Elt F) :=
  (opR1 (F := F)).result ((opPad (F := F)).result ((opConv (F := F)).result ((opC (F := F)).result (W3 m d))))

abbrev rdatsM := Cert.Proof.KB.Regions.rdats (F := F) (U := UU) (W2 m) (W4 m)
abbrev regA := Cert.Proof.KB.Regions.reg1 (F := F) (U := UU) (W2 m) (W4 m)
abbrev regB := Cert.Proof.KB.Regions.reg2 (F := F) (U := UU) (W2 m) (W4 m)

abbrev v5' : DevRef τ sig := Proc.devRef .tc (main_v5 : Ref sig .tc)
abbrev v6' : DevRef τ sig := Proc.devRef .tc (main_v6 : Ref sig .tc)

/-- What the final contents are known to be: the projection region's exit contents, whatever they are off the
    region's output array, then the slice. -/
def FQ (d : Dev nD) (Wf : Valuation τ sig (Elt F)) : Prop :=
  ∃ W5 : Valuation τ sig (Elt F), (∀ b, b ≠ v5' → W5 b = W4 m d b)
    ∧ (Cert.Proof.KB.Regions.rdat2 (U := UU) (Cert.Proof.KB.Regions.VA (W4 m)) d).ArrAt 3 cfg2.N (W5 v5')
    ∧ Wf = (opSl (F := F)).result W5

/-- What @main leaves the claim: every unscoped buffer at such contents. -/
def FIN (d : Dev nD) : sProp 𝕄 := iprop(∃ Wf : Valuation τ sig (Elt F), ⌜FQ m d Wf⌝ ∗ held (T d) (Pipeline.ucRefs τ sig) Wf)

/-- The pipelines' ghost state, pipeline by pipeline. -/
theorem G_split (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) :=
  BI.bigSep_fin_two _

end Cert.Proof.KB.Main

end
-- ==== Proof.StepB.lean ====
/-
  Entering a TensorCore kernel region from the @main of a program that also launches SparseCore kernels: the
  region's call is the lifted call of the pipeline library's entry label, so a proof of the region under the
  pipelines' body table is a proof of it under the whole program's.
-/
import proofs.«204109_g84920093377010_cont_9to1_m_793_20_alg».proof.Proof.LaunchB

noncomputable section

namespace Cert.Proof.KB.Step

open Cert.Kernel Cert.Kernel.Gen Cert.Proof.KB.Launch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The region's call in @main is the pipeline library's entry call, lifted. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Q := 1) (.op (.customCall (Pipeline.entry p) ()) fun _ => .ret ⟨⟩) := rfl

/-- A proof of the region's call under the pipelines' body table gives one of @main's line. -/
theorem wp_entry (p : Fin 2) (d : Dev nD) (Φ : PUnit → sProp 𝕄) :
    wp frame (wpE (D (F := F)) 𝒱 (SparseCore.T d) none) Set.univ (.op (.customCall (Pipeline.entry p) ()) fun _ => .ret ⟨⟩) Φ
      ⊢ wp frame (wpE ((K (F := F)).defs (D (F := F))) 𝒱 (SparseCore.T d) none) Set.univ
          (Prog.lift (.customCall (SparseCore.inner (Pipeline.entry p)) ())) Φ := by
  rw [lift_entry]
  exact (K (F := F)).wp_liftProg (D (F := F)) 𝒱 (SparseCore.T d) Set.univ none _ Φ

set_option maxHeartbeats 2000000 in
set_option backward.isDefEq.respectTransparency.types false in
/-- A kernel region of @main, entered from the region boundary, the region's entry state, the level facts and the
    pipeline's staging cells' ghost state and duty tokens; the continuation is owed from the boundary and the
    region's exit state. -/
theorem region_step [∀ e, Nonempty (Elt F e)] {p : Fin 2}
    (rdats : (p : Fin 2) → (c : Dev nD) → Pipeline.RDat τ (Elt F) (HIx 1) ℕ UU ℕ (Pipeline.pin (pcfgs (F := F)) adm p) c)
    (R : Pipeline.RDat.RegionSeg (pcfgs (F := F)) adm rdats (none : HIx 1) defs₀ 𝒱₀ (K (F := F)).L (K (F := F)).lev p)
    (d : Dev nD) (Φ : PUnit → sProp 𝕄) :
    iprop(boundary (SparseCore.T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  have h := Pipeline.RDat.RegionSeg.wp (pcfgs (F := F)) adm rdats (none : HIx 1) cellOf_inj (EP (F := F)) defs₀ 𝒱₀
    (K (F := F)).L (K (F := F)).lev R d none (fun u hu => nomatch hu) (fun _ => .ret ⟨⟩) Φ
  refine BIBase.Entails.trans ?_ (wp_entry p d Φ)
  refine BIBase.Entails.trans ?_ h
  iintro ⟨Hb, Hpre, Hlev, Hcg, Htk, Hk⟩
  isplitl [Hk]
  · iintro H
    rw [wp_ret]; imodintro
    iapply Hk; iexact H
  isplitl [Hb]; · iexact Hb
  isplitl [Hpre]; · iexact Hpre
  isplitl [Hlev]; · iexact Hlev
  isplitl [Hcg]; · iexact Hcg
  iexact Htk

end Cert.Proof.KB.Step

end
-- ==== Proof.HMainB.lean ====
/-
  @main on the TensorCore of a device, run: the index array flattened, the lookup handed to the two SparseCores
  and collected, the pooling region, the bias padded and laid out as a row, the projection region, the final slice.
-/
import proofs.«204109_g84920093377010_cont_9to1_m_793_20_alg».proof.Proof.MainB
import proofs.«204109_g84920093377010_cont_9to1_m_793_20_alg».proof.Proof.StepB

noncomputable section

namespace Cert.Proof.KB.Main

open Cert.Kernel Cert.Kernel.Gen Cert.Proof.KB.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- What rides beside the buffers through the regions: the generator register, and the TensorCore owing nothing. -/
abbrev Rr (d : Dev nD) : sProp 𝕄 :=
  iprop((∃ r, prngReg d r) ∗ ∃ W, ⌜(K (F := F)).WBelow (SparseCore.T d) W 8⌝ ∗ owes (SparseCore.T d) (0 : CellTallies nD τ sig (HIx 1)) W)

theorem regA_pre (d : Dev nD) : (regA m).pre d = iprop(held (SparseCore.T d) (Pipeline.ucRefs τ sig) (W2 m d) ∗ Rr (F := F) d) := rfl
theorem regA_post (d : Dev nD) : (regA m).post d = iprop(held (SparseCore.T d) (Pipeline.ucRefs τ sig) (W3 m d) ∗ Rr (F := F) d) := rfl
theorem regB_pre (d : Dev nD) : (regB m).pre d = iprop(held (SparseCore.T d) (Pipeline.ucRefs τ sig) (W4 m d) ∗ Rr (F := F) d) := rfl
theorem regB_post (d : Dev nD) : (regB m).post d = iprop(∃ W' : Valuation τ sig (Elt F), ⌜(∀ b, b ≠ v5' → W' b = W4 m d b)
    ∧ (Cert.Proof.KB.Regions.rdat2 (U := UU) (Cert.Proof.KB.Regions.VA (W4 m)) d).ArrAt 3 cfg2.N (W' v5')⌝
    ∗ held (SparseCore.T d) (Pipeline.ucRefs τ sig) W' ∗ Rr (F := F) d) := rfl

/-! ## @main -/

set_option maxHeartbeats 1000000 in
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) (Pipeline.ucRefs τ sig) (W0 m d)
    from Pipeline.unscopedBufs_held d (W0 m d)]
  simp only [main, fn_pad.body, wp_bind, wp_pure]
  iintro ⟨#Hctx, Hst, ⟨Hb, Hheld, Hsems, Hprng⟩, HG⟩
  -- the index array flattened
  iapply (wp_hlo_within 𝒱 (SparseCore.T d) none Set.univ (op := opR0) (S := Pipeline.ucRefs τ sig) hR0 (V := W0 m d)) $$ [Hb Hheld]
  · isplitl [Hb] <;> iassumption
  iintro ⟨Hb, Hheld⟩
  rw [wp_ret]; imodintro
  -- the lookup: the three buffers to the two SparseCores and back
  ihave Hheld := (Entails.of_eq (show (held (SparseCore.T d) (Pipeline.ucRefs τ sig) ((opR0 (F := F)).result (W0 m d)) : sProp 𝕄)
    = held (SparseCore.T d) (Pipeline.ucRefs τ sig) (W1 m d) from rfl)) $$ Hheld
  ihave Hh := (Entails.of_eq (held_T3 (F := F) d (W1 m d))) $$ Hheld
  icases Hh with ⟨H3, Hrest⟩
  ihave Hs := (call_split d (W1 m d xf') (W1 m d tab') (W1 m d out')).1 $$ H3
  icases Hs with ⟨Hrem, Hcores⟩
  iapply ((K (F := F)).wp_run (D (F := F)) 𝒱 (EH := EH) (P := Pm m) κ d 0) $$ [Hst Hcores Hb Hrest Hrem Hsems Hprng HG]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave H3 := (call_split d (W1 m d xf') (W1 m d tab') (Cert.Slab.gathF (W1 m d xf') (W1 m d tab'))).2 $$ [Hrem Hdn']
  · isplitl [Hrem] <;> iassumption
  ihave Hheld := (held_W2 m d) $$ [H3 Hrest]
  · isplitl [H3] <;> iassumption
  -- the TensorCore now owes nothing
  obtain ⟨Rst, hRst⟩ := tcSt_one (F := F) d
  ihave Hst := (Entails.of_eq (show ((K (F := F)).tcSt EH d ((0 : Fin 1).val + 1) : sProp 𝕄) = (K (F := F)).tcSt EH d 1 from rfl)) $$ Hst
  ihave Hst' := (Entails.of_eq hRst) $$ Hst
  icases Hst' with ⟨Howes, HRst⟩
  ihave Hlev := (SparseCore.Cfg.ctx_levAts κ) $$ Hctx
  ihave HG' := (Entails.of_eq (G_split (F := F) d)) $$ HG
  icases HG' with ⟨⟨Hcg0, Htk0⟩, ⟨Hcg1, Htk1⟩⟩
  -- the pooling region
  iapply (Cert.Proof.KB.Step.region_step (rdatsM m) (regA m) d _) $$ [Hb Hheld Hprng Howes Hlev Hcg0 Htk0 Hcg1 Htk1 HRst Hsems]
  isplitl [Hb]; · iexact Hb
  isplitl [Hheld Hprng Howes]
  · rw [regA_pre]
    isplitl [Hheld]; · iexact Hheld
    isplitl [Hprng]; · iexists _; iexact Hprng
    iexact Howes
  isplitr; · iexact Hlev
  isplitl [Hcg0]; · iexact Hcg0
  isplitl [Htk0]; · iexact Htk0
  iintro ⟨Hb, Hpost⟩
  ihave Hpost := (Entails.of_eq (regA_post m d)) $$ Hpost
  icases Hpost with ⟨Hheld, HR⟩
  ihave Hheld := (Entails.of_eq (show (held (SparseCore.T d) (Pipeline.ucRefs τ sig) (W3 m d) : sProp 𝕄)
    = held (SparseCore.T d) (Pipeline.ucRefs τ sig) (W3 m d) from rfl)) $$ Hheld
  -- the bias: zero word, converted, padded, laid out as a row
  iapply (wp_hlo_within 𝒱 (SparseCore.T d) none Set.univ (op := opC) (S := Pipeline.ucRefs τ sig) hC (V := W3 m d)) $$ [Hb Hheld]
  · isplitl [Hb] <;> iassumption
  iintro ⟨Hb, Hheld⟩
  rw [wp_ret]; imodintro
  iapply (wp_hlo_within 𝒱 (SparseCore.T d) none Set.univ (op := opConv) (S := Pipeline.ucRefs τ sig) hConv (V := (opC (F := F)).result (W3 m d))) $$ [Hb Hheld]
  · isplitl [Hb] <;> iassumption
  iintro ⟨Hb, Hheld⟩
  rw [wp_ret]; imodintro
  iapply (wp_hlo_within 𝒱 (SparseCore.T d) none Set.univ (op := opPad) (S := Pipeline.ucRefs τ sig) hPad (V := (opConv (F := F)).result ((opC (F := F)).result (W3 m d)))) $$ [Hb Hheld]
  · isplitl [Hb] <;> iassumption
  iintro ⟨Hb, Hheld⟩
  rw [wp_ret]; imodintro
  imodintro
  iapply (wp_hlo_within 𝒱 (SparseCore.T d) none Set.univ (op := opR1) (S := Pipeline.ucRefs τ sig) hR1 (V := (opPad (F := F)).result ((opConv (F := F)).result ((opC (F := F)).result (W3 m d))))) $$ [Hb Hheld]
  · isplitl [Hb] <;> iassumption
  iintro ⟨Hb, Hheld⟩
  rw [wp_ret]; imodintro
  -- the projection region
  iapply (Cert.Proof.KB.Step.region_step (rdatsM m) (regB m) d _) $$ [Hb Hheld HR Hlev Hcg1 Htk1 HRst Hsems]
  isplitl [Hb]; · iexact Hb
  isplitl [Hheld HR]
  · rw [regB_pre]
    isplitl [Hheld]; · iexact Hheld
    iexact HR
  isplitr; · iexact Hlev
  isplitl [Hcg1]; · iexact Hcg1
  isplitl [Htk1]; · iexact Htk1
  iintro ⟨Hb, Hpost⟩
  ihave Hpost := (Entails.of_eq (regB_post m d)) $$ Hpost
  icases Hpost with ⟨%W5, %hW5, Hheld, HR⟩
  -- the slice
  iapply (wp_hlo_within 𝒱 (SparseCore.T d) none Set.univ (op := opSl) (S := Pipeline.ucRefs τ sig) hSl (V := W5)) $$ [Hb Hheld]
  · isplitl [Hb] <;> iassumption
  iintro ⟨Hb, Hheld⟩
  rw [wp_ret]; imodintro; imodintro
  isplitl [HR HRst]
  · rw [hRst]
    icases HR with ⟨-, HO⟩
    isplitl [HO]; · iexact HO
    iexact HRst
  unfold FIN
  iexists _; isplitr
  · ipureintro; exact ⟨W5, hW5.1, hW5.2, rfl⟩
  iexact Hheld

end Cert.Proof.KB.Main

end
-- ==== Proof.TileB.lean ====
/-
  One tile's task of the lookup kernel, once, at a symbolic tile and for any float instance.

  Tile (core c, subcore s) is worker w = 2·s + c. Its slab of the flat lookup (81920 × 128) is the 2560 rows
  [2560·w, 2560·w + 2560). In trip k of its twenty trips it copies the 128 index words
  x[2560·w + 128·k .. + 128) into its index scratch, gathers the 128 table rows those words name into its row
  scratch, and copies the row scratch out to rows [2560·w + 128·k .. + 128) of the flat lookup; each copy is waited
  for before the next is issued, one semaphore per copy. Every index word is below 100000 (the hypothesis), so every
  word the gather reads names a row of the table.

  The task holds a share of the whole index array and a share of the whole table, which it only reads, and its slab
  of the output outright. The loop's invariant carries the value: before trip k the rows of the slab below
  2560·w + 128·k hold the lookup — row i is the table row named by the i-th index word — and the rows from there on
  are untouched. One trip moves the boundary by one chunk: entry (a, b) of the row scratch is column b of the table
  row named by word a of the index scratch, which is word 2560·w + 128·k + a of the index array, and the copy-out
  puts it at row 2560·w + 128·k + a, column b. After twenty trips the whole slab holds the lookup.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204109_g84920093377010_cont_9to1_m_793_20_alg».proof.Proof.Gen.Kernel
import proofs.«204109_g84920093377010_cont_9to1_m_793_20_alg».proof.Proof.Gen.Kernel.Skeleton
import proofs.«204109_g84920093377010_cont_9to1_m_793_20_alg».proof.Proof.Spec
import proofs.«204109_g84920093377010_cont_9to1_m_793_20_alg».proof.Proof.Slab

noncomputable section

namespace Cert.Proof.KB.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none

local notation "𝕄" => MT nD τ sig (HIx 1) (Elt F) ℕ U ℕ

/-! ## The three arrays and the two scratch buffers -/

abbrev v0Loc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

local notation "xV" => (Memref.whole Cert.Kernel.main_v0_scv : Memref Cert.Kernel.sig Kind.scVector Space.hbm Cert.Kernel.S81920 EltTy.i32)
local notation "tV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S81920x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-! ## Workers, slabs and chunks

Tile (core c, subcore s) is worker 2·s + c; its slab of the flat lookup is the rows [2560·w, 2560·w + 2560), and
trip k of its loop writes the rows [2560·w + 128·k, 2560·w + 128·k + 128) of it, all 128 columns. -/

omit [FloatOps F] [URA U] [CountersIn U] in
theorem bound_zero : grid0.bound 0 = 2 := rfl
omit [FloatOps F] [URA U] [CountersIn U] in
theorem bound_one : grid0.bound 1 = 16 := rfl

/-- The worker number of the tile at grid point L. -/
abbrev wid (L : grid0.Coords) : Fin 32 := Cert.Slab.wid ⟨(L 0).val, (L 0).isLt⟩ ⟨(L 1).val, (L 1).isLt⟩

/-- The first row of the tile's slab. -/
def base (L : grid0.Coords) : ℕ := 5120 * (L 1).val + 2560 * (L 0).val

theorem base_eq (L : grid0.Coords) : base L = 2560 * (wid L).val := by
  show 5120 * (L 1).val + 2560 * (L 0).val = 2560 * ((L 1).val * 2 + (L 0).val)
  omega

theorem base_le (L : grid0.Coords) : base L + 2560 ≤ 81920 := by
  have h := (wid L).isLt
  rw [base_eq]; omega

/-- The entries of the flat lookup whose row lies in [a, b). -/
def rowsSet (a b : ℕ) : Finset Cert.Slab.OIdx := Finset.univ.filter fun i => a ≤ (i 0).val ∧ (i 0).val < b

theorem mem_rowsSet {a b : ℕ} {i : Cert.Slab.OIdx} : i ∈ rowsSet a b ↔ a ≤ (i 0).val ∧ (i 0).val < b := by
  simp [rowsSet]

theorem rowsSet_empty (a : ℕ) : rowsSet a a = ∅ := by
  ext i; rw [mem_rowsSet]; simp only [Finset.notMem_empty, iff_false]; omega

theorem rowsSet_union {a b c : ℕ} (hab : a ≤ b) (hbc : b ≤ c) : rowsSet a b ∪ rowsSet b c = rowsSet a c := by
  ext i; rw [Finset.mem_union, mem_rowsSet, mem_rowsSet, mem_rowsSet]; omega

theorem rowsSet_disjoint (a b c : ℕ) : Disjoint (rowsSet a b) (rowsSet b c) :=
  Finset.disjoint_left.mpr fun i hi hj => by rw [mem_rowsSet] at hi hj; omega

/-- The tile's slab is its 2560 rows. -/
theorem tileSet_eq_rows (L : grid0.Coords) : Cert.Slab.tileSet (wid L) = rowsSet (base L) (base L + 2560) := by
  ext i; rw [Cert.Slab.mem_tileSet, mem_rowsSet, base_eq]
  have := (wid L).isLt
  constructor
  · intro h; have := Nat.div_add_mod (i 0).val 2560; have := Nat.mod_lt (i 0).val (show 0 < 2560 by decide); omega
  · intro h; omega

/-- The rectangle of the flat lookup that trip k's copy-out writes, as the program spells it. -/
abbrev orectK (L : grid0.Coords) (k : Fin k0_t1_loop.trips) : Rect S81920x128 :=
  Rect.unit (s := S81920x128) (k0_off2 L k) S128x128.size (k0_off2_inb L k)
/-- The rectangle of the index array that trip k's fetch reads. -/
abbrev irectK (L : grid0.Coords) (k : Fin k0_t1_loop.trips) : Rect S81920 :=
  Rect.unit (s := S81920) (k0_off1 L k) S128.size (k0_off1_inb L k)
abbrev oChunkK (L : grid0.Coords) (k : Fin k0_t1_loop.trips) : Memref sig .scVector .hbm S128x128 .f32 := (oV).slice (orectK L k) (fun _ => rfl)
abbrev iChunkK (L : grid0.Coords) (k : Fin k0_t1_loop.trips) : Memref sig .scVector .hbm S128 .i32 := (xV).slice (irectK L k) (fun _ => rfl)
abbrev tAllK : Memref sig .scVector .hbm S100000x128 .f32 :=
  (tV).slice (Rect.unit (s := S100000x128) ![0, 0] S100000x128.size inb_S100000x128_S100000x128_0_0) (fun _ => rfl)

theorem trips_eq : k0_t1_loop.trips = 20 := by decide

/-- Trip k's chunk of the output is the rows [base + 128·k, base + 128·k + 128). -/
theorem set_oChunkK (L : grid0.Coords) (k : Fin k0_t1_loop.trips) :
    (oChunkK L k).view.set = rowsSet (base L + 128 * k.val) (base L + 128 * k.val + 128) := by
  show ((View.whole (main_v1_scv : Ref sig .scVector)).slice (orectK L k)).set = _
  rw [View.set_slice_whole]
  ext i
  rw [Rect.mem_set_unit, mem_rowsSet, k0_off2_eq]
  unfold base
  constructor
  · intro h
    have h0 : 5120 * (L 1).val + 2560 * (L 0).val + 128 * k.val ≤ (i 0).val
        ∧ (i 0).val < 5120 * (L 1).val + 2560 * (L 0).val + 128 * k.val + 128 := h 0
    exact h0
  · intro h a
    match a with
    | 0 => exact h
    | 1 => exact ⟨Nat.zero_le _, (i 1).isLt⟩

omit [FloatOps F] [URA U] [CountersIn U] in
/-- The twenty chunks of a tile are pairwise disjoint … -/
theorem chunks_disjoint (L : grid0.Coords) {k k' : Fin k0_t1_loop.trips} (h : k ≠ k') :
    Disjoint (oChunkK L k).view.set (oChunkK L k').view.set := by
  rw [set_oChunkK, set_oChunkK]
  refine Finset.disjoint_left.mpr fun i hi hj => ?_
  rw [mem_rowsSet] at hi hj
  have hne : k.val ≠ k'.val := Fin.val_ne_of_ne h
  omega

omit [FloatOps F] [URA U] [CountersIn U] in
/-- … and together they are the tile's slab. -/
theorem chunks_cover (L : grid0.Coords) :
    (Finset.univ : Finset (Fin k0_t1_loop.trips)).biUnion (fun k => (oChunkK L k).view.set) = Cert.Slab.tileSet (wid L) := by
  rw [tileSet_eq_rows]
  ext i
  rw [Finset.mem_biUnion, mem_rowsSet]
  constructor
  · rintro ⟨k, -, hk'⟩
    rw [set_oChunkK, mem_rowsSet] at hk'
    have hk : k.val < 20 := trips_eq ▸ k.isLt
    omega
  · intro h
    have hk : ((i 0).val - base L) / 128 < k0_t1_loop.trips := by rw [trips_eq]; omega
    refine ⟨⟨((i 0).val - base L) / 128, hk⟩, Finset.mem_univ _, ?_⟩
    rw [set_oChunkK, mem_rowsSet]
    show base L + 128 * (((i 0).val - base L) / 128) ≤ (i 0).val
      ∧ (i 0).val < base L + 128 * (((i 0).val - base L) / 128) + 128
    omega

/-! ## The tile's thread, its semaphores and its scratch -/

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

section Body

variable (d : Dev nD) (L : grid0.Coords)

omit [FloatOps F] [CountersIn U] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] [CountersIn U] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The value: row i of the flat lookup is the table row the i-th index word names -/

/-- The flat lookup as one function of the index array and the table, at the arrays' own index types. -/
abbrev gathF {d : Dev nD} (xf : Buf (Elt F) (v0Loc d)) (tab : Buf (Elt F) (tabLoc d)) : Buf (Elt F) (outLoc d) :=
  Cert.Slab.gathF xf tab

omit [FloatOps F] [CountersIn U] in
/-- The rows still to do before trip k are trip k's chunk and the rows still to do after it. -/
theorem todo_split (k : Fin k0_t1_loop.trips) (q : PosShare TreeShare) (f : Buf (Elt F) (outLoc d)) :
    (outLoc d ↦[rowsSet (base L + 128 * k.val) (base L + 2560)]{q} f : sProp 𝕄)
      ⊣⊢ iprop(((oChunkK L k).view.loc (thrV d L) ↦[(oChunkK L k).view.set]{q} f)
          ∗ outLoc d ↦[rowsSet (base L + 128 * (k.val + 1)) (base L + 2560)]{q} f) := by
  have hk : k.val < 20 := trips_eq ▸ k.isLt
  have hsplit : rowsSet (base L + 128 * k.val) (base L + 2560)
      = (oChunkK L k).view.set ∪ rowsSet (base L + 128 * (k.val + 1)) (base L + 2560) := by
    rw [set_oChunkK, show base L + 128 * k.val + 128 = base L + 128 * (k.val + 1) by omega]
    exact (rowsSet_union (by omega) (by omega)).symm
  have hdisj : Disjoint (oChunkK L k).view.set (rowsSet (base L + 128 * (k.val + 1)) (base L + 2560)) := by
    rw [set_oChunkK, show base L + 128 * k.val + 128 = base L + 128 * (k.val + 1) by omega]
    exact rowsSet_disjoint _ _ _
  rw [hsplit]
  exact pointsTo_union (ℓ := outLoc d) (q := q) (f := f) (I := (oChunkK L k).view.set)
    (J := rowsSet (base L + 128 * (k.val + 1)) (base L + 2560)) hdisj

omit [FloatOps F] [CountersIn U] in
/-- The rows done before trip k and trip k's chunk are the rows done before trip k + 1. -/
theorem done_join (k : Fin k0_t1_loop.trips) (q : PosShare TreeShare) (f : Buf (Elt F) (outLoc d)) :
    (outLoc d ↦[rowsSet (base L) (base L + 128 * (k.val + 1))]{q} f : sProp 𝕄)
      ⊣⊢ iprop((outLoc d ↦[rowsSet (base L) (base L + 128 * k.val)]{q} f)
          ∗ (oChunkK L k).view.loc (thrV d L) ↦[(oChunkK L k).view.set]{q} f) := by
  have hsplit : rowsSet (base L) (base L + 128 * (k.val + 1))
      = rowsSet (base L) (base L + 128 * k.val) ∪ (oChunkK L k).view.set := by
    rw [set_oChunkK, show base L + 128 * k.val + 128 = base L + 128 * (k.val + 1) by omega]
    exact (rowsSet_union (by omega) (by omega)).symm
  have hdisj : Disjoint (rowsSet (base L) (base L + 128 * k.val)) (oChunkK L k).view.set := by
    rw [set_oChunkK]
    exact rowsSet_disjoint _ _ _
  rw [hsplit]
  exact pointsTo_union (ℓ := outLoc d) (q := q) (f := f) (I := rowsSet (base L) (base L + 128 * k.val))
    (J := (oChunkK L k).view.set) hdisj

omit [URA U] [CountersIn U] in
/-- The words the index fetch of trip k landed in the index scratch are in range of the table's rows: they are a chunk
    of the index array, every word of which is. -/
theorem inb_of_lt {xf : Buf (Elt F) (v0Loc d)} (hxf : ∀ i, (xf i).toNat < 100000) (k : Fin k0_t1_loop.trips)
    (fs : Buf (Elt F) ((sV).view.loc (thrV d L))) (pay : S128.Idx → Elt F .i32)
    (hpay : pay = (iChunkK L k).view.read (Elt F) xf) :
    ∀ x, ((sV).view.read (Elt F) (View.write (Elt F) (sV).view fs pay Finset.univ) x).toNat
      < S100000x128.size gathers_S100000x128_S128x128.axis := by
  subst hpay; intro x
  rw [View.write_whole_univ]
  simp only [Memref.view_whole, View.read_whole]
  rw [show ∀ j, (iChunkK L k).view.read (Elt F) xf j = xf ((iChunkK L k).view.emb j) from
    fun j => (View.read_apply _ _).trans (cast_eq _ _)]
  exact hxf _

/-! ## The value of one chunk -/

section Value
open Idealize.ShloMosaic.ValueIdx

omit [FloatOps F] [URA U] [CountersIn U] in
/-- A position of the one-axis index scratch, read back from its row-major number, is that number. -/
theorem rowMajor_symm_val (j : Fin S128.numel) : ((S128.rowMajor.symm j) 0).val = j.val := by
  have h := Shape.rowMajor_val_one (S128.rowMajor.symm j)
  rw [Equiv.apply_symm_apply] at h
  exact h.symm

/-- The row of the flat lookup that entry (a, ·) of trip k's chunk is. -/
theorem chunk_row_lt (k : Fin k0_t1_loop.trips) (a : Fin 128) : base L + 128 * k.val + a.val < 81920 := by
  have hk : k.val < 20 := trips_eq ▸ k.isLt
  have := base_le L
  omega

omit [FloatOps F] [URA U] [CountersIn U] in
/-- Entry (a, b) of trip k's output chunk is entry (base + 128·k + a, b) of the flat lookup. -/
theorem oChunk_emb (k : Fin k0_t1_loop.trips) (a b : Fin 128) :
    (oChunkK L k).view.emb (ix2 a b) = (ix2 ⟨base L + 128 * k.val + a.val, chunk_row_lt L k a⟩ b : S81920x128.Idx) := by
  funext c
  apply Fin.ext
  show ((orectK L k).emb (ix2 a b) c).val = _
  rw [Rect.emb_apply, Rect.off_unit, Rect.stride_unit, k0_off2_eq]
  unfold base
  match c with
  | 0 => show 5120 * (L 1).val + 2560 * (L 0).val + 128 * k.val + 1 * a.val = 5120 * (L 1).val + 2560 * (L 0).val + 128 * k.val + a.val; omega
  | 1 => show 0 + 1 * b.val = b.val; omega

omit [FloatOps F] [URA U] [CountersIn U] in
/-- Word a of trip k's index chunk is word base + 128·k + a of the index array. -/
theorem iChunk_emb (k : Fin k0_t1_loop.trips) (y : S128.Idx) :
    (iChunkK L k).view.emb y = (ix1 ⟨base L + 128 * k.val + (y 0).val, chunk_row_lt L k (y 0)⟩ : S81920.Idx) := by
  funext c
  apply Fin.ext
  show ((irectK L k).emb y c).val = _
  rw [Rect.emb_apply, Rect.off_unit, Rect.stride_unit, k0_off1_eq]
  unfold base
  match c with
  | 0 => show 5120 * (L 1).val + 2560 * (L 0).val + 128 * k.val + 1 * (y 0).val = 5120 * (L 1).val + 2560 * (L 0).val + 128 * k.val + (y 0).val; omega

omit [URA U] [CountersIn U] in
/-- What the copy-out of a trip leaves on its chunk: the payload, entry by entry. -/
theorem copyout_value (k : Fin k0_t1_loop.trips) (o g : Buf (Elt F) (outLoc d)) (pay : S128x128.Idx → Elt F .f32)
    (hg : ∀ a b : Fin 128, pay (ix2 a b) = g ((oChunkK L k).view.emb (ix2 a b))) :
    ∀ i ∈ (oChunkK L k).view.set, (oChunkK L k).view.writes (Elt F) o [⟨Rect.whole S128x128, pay⟩] i = g i := by
  intro i hi
  obtain ⟨j, -, rfl⟩ := Finset.mem_map.mp hi
  obtain ⟨a, b, rfl⟩ : ∃ (a b : Fin 128), j = ix2 a b := ⟨j 0, j 1, eq_ix2 j⟩
  have h := View.read_writes_cons_emb (oChunkK L k).view o (Rect.whole S128x128) pay [] (ix2 a b)
  rw [Rect.emb_whole_apply, View.read_apply] at h
  exact ((cast_eq _ _).symm.trans h).trans (hg a b)

omit [URA U] [CountersIn U] in
/-- The row scratch read back after the gather wrote it whole is the gather's payload. -/
theorem readback_value (fr : Buf (Elt F) ((rV).view.loc (thrV d L))) (G : cc0_scratch1.ty.shape.Idx → Elt F cc0_scratch1.ty.elt)
    (x : cc0_scratch1.ty.shape.Idx) :
    (rV).view.read (Elt F) ((rV).view.writes (Elt F) fr [⟨Rect.whole cc0_scratch1.ty.shape, G⟩]) x = G x := by
  have h := View.read_writes_cons_emb (rV).view fr (Rect.whole cc0_scratch1.ty.shape) G [] x
  rw [Rect.emb_whole_apply] at h
  exact h

omit [URA U] [CountersIn U] in
/-- The gather's payload at (a, b): column b of the table row the list names at a. -/
theorem gather_value (tab : Buf (Elt F) (tabLoc d)) (r : Fin (S128x128.size gathers_S100000x128_S128x128.axis') → Fin (S100000x128.size gathers_S100000x128_S128x128.axis))
    (a b : Fin 128) :
    SparseCore.gatherPayload gathers_S100000x128_S128x128 ((tAllK).view.read (Elt F) tab) r (ix2 a b)
      = tab (ix2 (r a) b : S100000x128.Idx) := by
  unfold SparseCore.gatherPayload
  rw [View.read_apply, cast_eq]
  congr 1
  funext c
  apply Fin.ext
  show ((Rect.unit (s := S100000x128) ![0, 0] S100000x128.size inb_S100000x128_S100000x128_0_0).emb
    (gathers_S100000x128_S128x128.idx r (ix2 a b)) c).val = _
  rw [Rect.emb_apply, Rect.off_unit, Rect.stride_unit]
  match c with
  | 0 =>
    have h := Shape.Gathers.idx_axis gathers_S100000x128_S128x128 r (ix2 a b)
    show 0 + 1 * (gathers_S100000x128_S128x128.idx r (ix2 a b) gathers_S100000x128_S128x128.axis).val = (r a).val
    rw [h]; show 0 + 1 * (r a).val = (r a).val; omega
  | 1 =>
    have h := Shape.Gathers.idx_of_ne gathers_S100000x128_S128x128 r (ix2 a b) 1 (by decide)
    show 0 + 1 * (gathers_S100000x128_S128x128.idx r (ix2 a b) 1).val = b.val
    rw [h]; show 0 + 1 * b.val = b.val; omega

omit [URA U] [CountersIn U] in
/-- After trip k's three copies the chunk of the output holds the lookup: entry (a, b) of the row scratch is column b
    of the table row named by word a of the index scratch, which is word base + 128·k + a of the index array, and
    the copy-out puts it at row base + 128·k + a, column b. -/
theorem chunk_value {xf : Buf (Elt F) (v0Loc d)} {tab : Buf (Elt F) (tabLoc d)} (hxf : ∀ i, (xf i).toNat < 100000)
    (k : Fin k0_t1_loop.trips) (o : Buf (Elt F) (outLoc d))
    (fs : Buf (Elt F) ((sV).view.loc (thrV d L))) (fr : Buf (Elt F) ((rV).view.loc (thrV d L)))
    (pay0 : S128.Idx → Elt F .i32) (hpay0 : pay0 = (iChunkK L k).view.read (Elt F) xf)
    (hin : ∀ x, ((sV).view.read (Elt F) (View.write (Elt F) (sV).view fs pay0 Finset.univ) x).toNat
      < S100000x128.size gathers_S100000x128_S128x128.axis)
    (pay : S128x128.Idx → Elt F .f32)
    (hpay : pay = (rV).view.read (Elt F) ((rV).view.writes (Elt F) fr
      [⟨Rect.whole S128x128, SparseCore.gatherPayload gathers_S100000x128_S128x128 ((tAllK).view.read (Elt F) tab)
        (SparseCore.rows ((sV).view.read (Elt F) (View.write (Elt F) (sV).view fs pay0 Finset.univ)) rfl hin)⟩])) :
    ∀ i ∈ (oChunkK L k).view.set,
      (oChunkK L k).view.writes (Elt F) o [⟨Rect.whole S128x128, pay⟩] i = gathF xf tab i := by
  subst hpay
  refine copyout_value d L k o (gathF xf tab) _ fun a b => ?_
  refine (readback_value d L fr _ (ix2 a b)).trans ?_
  refine (gather_value d tab _ a b).trans ?_
  rw [oChunk_emb]
  show _ = tab (ix2 (Cert.Spec.row (xf (ix1 ⟨base L + 128 * k.val + a.val, chunk_row_lt L k a⟩))) b)
  congr 2
  apply Fin.ext
  rw [Cert.Spec.row_val_of_lt (hxf _)]
  show (((sV).view.read (Elt F) (View.write (Elt F) (sV).view fs pay0 Finset.univ))
    (S128.rowMajor.symm (Fin.cast (rfl : S128.numel = S128x128.size gathers_S100000x128_S128x128.axis').symm a))).toNat = _
  rw [View.write_whole_univ]
  simp only [Memref.view_whole, View.read_whole]
  subst hpay0
  rw [View.read_apply, cast_eq, iChunk_emb]
  congr 3
  apply Fin.ext
  show base L + 128 * k.val + ((S128.rowMajor.symm (Fin.cast (rfl : S128.numel = S128x128.size gathers_S100000x128_S128x128.axis').symm a)) 0).val
    = base L + 128 * k.val + a.val
  rw [rowMajor_symm_val]
  rfl

end Value

/-! ## The loop's invariant -/

/-- Before trip k: the index array and the table at their shares; the rows of the slab below chunk k at the lookup,
    the rows from chunk k on as they were; the two scratch buffers at some contents; the three counters at zero; the
    waits recorded so far all at index none. -/
def inv (xf : Buf (Elt F) (v0Loc d)) (tab : Buf (Elt F) (tabLoc d)) (o0 : Buf (Elt F) (outLoc d)) (q q' : PosShare TreeShare)
    (O : CellTallies nD τ sig (HIx 1)) (W : Waits sig (HIx 1)) (k : Nat) (_ : PUnit) : sProp 𝕄 :=
  iprop(Transfers.MayWaits (thrV d L) (none : HIx 1) O
    ∗ ((xV).view.loc (thrV d L) ↦{q} xf)
    ∗ ((tV).view.loc (thrV d L) ↦{q'} tab)
    ∗ (outLoc d ↦[rowsSet (base L) (base L + 128 * k)]{fullShare} gathF xf tab)
    ∗ (outLoc d ↦[rowsSet (base L + 128 * k) (base L + 2560)]{fullShare} o0)
    ∗ (∃ fs, (sV).view.loc (thrV d L) ↦{fullShare} fs)
    ∗ (∃ fr, (rV).view.loc (thrV d L) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (thrV d L) O W')

end Body

/-! ## The task -/

set_option maxHeartbeats 4000000 in
/-- The task on vector subcore (L 0, L 1) of device d: from shares of the index array and of the table and the tile's
    slab of the flat lookup at any contents, to the same shares and the slab at the lookup. -/
theorem tile_body (hF : (K (F := F)).Facts) (d : Dev nD) (L : grid0.Coords) (xf : Buf (Elt F) (v0Loc d)) (tab : Buf (Elt F) (tabLoc d)) (o0 : Buf (Elt F) (outLoc d))
    (hxf : ∀ i, (xf i).toNat < 100000) (q q' : PosShare TreeShare)
    (O : CellTallies nD τ sig (HIx 1)) (W : Waits sig (HIx 1)) (hO : ∀ g, O g none = 0) :
    iprop(levAts (K (F := F)).L (K (F := F)).lev ∗ emp
        ∗ ((v0Loc d ↦{q} xf) ∗ (tabLoc d ↦{q'} tab) ∗ (outLoc d ↦[Cert.Slab.tileSet (wid L)]{fullShare} o0))
        ∗ scopedBufs (thrV d L) ∗ scopedSems0 (thrV d L) ∗ owes (thrV d L) O W)
      ⊢ (wp frame (wpE (defs₀ (F := F)) 𝒱₀ (thrV d L) none) Set.univ
          (cc0_gather_kernel L xV (Memref.isWhole_whole _) tV (Memref.isWhole_whole _) oV (Memref.isWhole_whole _)
            sV (Memref.isWhole_whole _) rV (Memref.isWhole_whole _) cc0_scratch2 cc0_scoped0 cc0_scoped1)
          (fun _ => iprop(((v0Loc d ↦{q} xf) ∗ (tabLoc d ↦{q'} tab) ∗ (outLoc d ↦[Cert.Slab.tileSet (wid L)]{fullShare} gathF xf tab))
            ∗ scopedBufs (thrV d L) ∗ scopedSems0 (thrV d L)
            ∗ ∃ W', ⌜∀ p ∈ W', p ∈ W ∨ p.2 = none⌝ ∗ owes (thrV d L) O W')) : sProp 𝕄) := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    tileSet_eq_rows]
  iintro ⟨#Hlv, -, ⟨Hx, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thrV d L) (default : HIx 1) O from
    (K (F := F)).mayWaits_none (thr := thrV d L) hO) $$ Hlv
  sl_for (inv d L xf tab o0 q q' O W) $$ [Hmw Hx Ht Ho Hs Hr HsemG HsemA HsemB HO]
  case region =>
    intro k _
    unfold inv
    iintro ⟨Hmw, Hx, Ht, Hdone, Htodo, ⟨%fs, Hs⟩, ⟨%fr, Hr⟩, HsemG, HsemA, HsemB, %W', %hW', HO⟩
    ihave Htodo' := (todo_split (F := F) (U := U) d L k fullShare o0).1 $$ Htodo
    icases Htodo' with ⟨Ho, Hrest⟩
    -- the index fetch and its wait
    sl_exec
    -- the words just landed are in range: the gather, its wait, the copy-out and its wait
    have hin := inb_of_lt (F := F) d L hxf k fs (tile_body.sl.dma0 d L xf k) rfl
    sl_exec
    sl_step
    isplitl [Hmw]; · iexact Hmw
    isplitl [Hx]; · iexact Hx
    isplitl [Ht]; · iexact Ht
    isplitl [Hdone Ho]
    · iapply (done_join (F := F) (U := U) d L k fullShare (gathF xf tab)).2
      isplitl [Hdone]; · iexact Hdone
      iapply (Entails.of_eq (pointsTo_congr (chunk_value (F := F) d L hxf k o0 fs fr (tile_body.sl.dma0 d L xf k) rfl hin
        (tile_body.sl.dma0_1 d L xf tab k fs fr hin) rfl)))
      iexact Ho
    isplitl [Hrest]; · iexact Hrest
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · -- before the first trip nothing is done and the whole slab is to do
    unfold inv
    have e0 : rowsSet (base L) (base L + 128 * 0) = ∅ := by rw [Nat.mul_zero, Nat.add_zero]; exact rowsSet_empty _
    have e1 : rowsSet (base L + 128 * 0) (base L + 2560) = rowsSet (base L) (base L + 2560) := by rw [Nat.mul_zero, Nat.add_zero]
    rw [e0, e1, pointsTo_empty]
    isplitl [Hmw]; · iexact Hmw
    isplitl [Hx]; · iexact Hx
    isplitl [Ht]; · iexact Ht
    isplitr; · iempintro
    isplitl [Ho]; · iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  -- after the last trip the whole slab is done
  iintro %_ HI
  unfold inv
  icases HI with ⟨-, Hx, Ht, Hdone, Htodo, ⟨%fs', Hs⟩, ⟨%fr', Hr⟩, HsemG, HsemA, HsemB, %W', %hW', HO⟩
  ihave Hdone' := (Entails.of_eq (show (outLoc d ↦[rowsSet (base L) (base L + 128 * k0_t1_loop.trips)]{fullShare} gathF xf tab : sProp 𝕄)
      = outLoc d ↦[rowsSet (base L) (base L + 2560)]{fullShare} gathF xf tab by rw [trips_eq])) $$ Hdone
  ihave He := (Entails.of_eq (show (outLoc d ↦[rowsSet (base L + 128 * k0_t1_loop.trips) (base L + 2560)]{fullShare} o0 : sProp 𝕄)
      = (iprop(emp) : sProp 𝕄) by rw [trips_eq, show base L + 128 * 20 = base L + 2560 by omega, rowsSet_empty, pointsTo_empty])) $$ Htodo
  icases He with -
  sl_exec
  sl_step
  isplitl [Hx Ht Hdone']
  · isplitl [Hx]; · iexact Hx
    isplitl [Ht]; · iexact Ht
    iexact Hdone'
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Cert.Proof.KB.Tile

end
-- ==== Proof.ObligB.lean ====
/-
  The vector-subcore kernel's obligation for the launch: one subcore's task, from its read shares of the index
  array and the table and its slab of the output, to the same with the slab holding the looked-up rows.
-/
import proofs.«204109_g84920093377010_cont_9to1_m_793_20_alg».proof.Proof.LaunchB
import proofs.«204109_g84920093377010_cont_9to1_m_793_20_alg».proof.Proof.TileB

noncomputable section

namespace Cert.Proof.KB.Oblig

open Cert.Kernel Cert.Kernel.Gen Cert.Proof.KB.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The grid point of subcore s of core c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) cc0_scratch2 cc0_scoped0 cc0_scoped1) ⟨⟩ c s := rfl

section
variable (xf : (d : Dev nD) → Buf (Elt F) (xfLoc d)) (tab : (d : Dev nD) → Buf (Elt F) (tabLoc d))
  (o0 : (d : Dev nD) → Buf (Elt F) (outLoc d))

set_option maxRecDepth 16384 in
theorem tileObl (hF : (K (F := F)).Facts) (hxf : ∀ d i, (xf d i).toNat < 100000) :
    (K (F := F)).TileObl (D (F := F)) 𝒱 (P xf tab o0 (fun d => Cert.Slab.gathF (xf d) (tab d))) v₀ 0 := by
  intro d c i O W hO _ _
  simp only [show (P (F := F) xf tab o0 (fun d => Cert.Slab.gathF (xf d) (tab d))).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BIBase.Entails.trans ?_ ((Cert.Proof.KB.Tile.tile_body (U := UU) hF d (coordsV ⟨_, hci.1⟩ ⟨_, hci.2⟩) (xf d) (tab d) (o0 d) (hxf d)
    (tokT (cC c) (iT i)) (tokT (cC c) (iT i)) O W hO).trans (wp_mono frame _ _ fun _ => ?_))
  · rw [show (P (F := F) xf tab o0 (fun d => Cert.Slab.gathF (xf d) (tab d))).go 0 d c i
        = iprop(inPts xf tab d (tokT (cC c) (iT i)) ∗ slabPts d (Cert.Slab.wid (cC c) (iT i)) (o0 d)) from rfl]
    iintro ⟨Hlv, -, ⟨⟨Hxf, Htab⟩, Hslab⟩, Hsb, Hss, HO⟩
    isplitl [Hlv]; · iexact Hlv
    isplitr; · iempintro
    isplitl [Hxf Htab Hslab]
    · isplitl [Hxf]; · iexact Hxf
      isplitl [Htab]; · iexact Htab
      iexact Hslab
    isplitl [Hsb]; · iexact Hsb
    isplitl [Hss]; · iexact Hss
    iexact HO
  · rw [show (P (F := F) xf tab o0 (fun d => Cert.Slab.gathF (xf d) (tab d))).td 0 d c i
        = iprop(inPts xf tab d (tokT (cC c) (iT i)) ∗ slabPts d (Cert.Slab.wid (cC c) (iT i)) (Cert.Slab.gathF (xf d) (tab d))) from rfl]
    iintro ⟨⟨Hxf, Htab, Hslab⟩, Hsb, Hss, %W', %hW', HO⟩
    isplitl [Hxf Htab Hslab]
    · isplitl [Hxf Htab]
      · isplitl [Hxf]; · iexact Hxf
        iexact Htab
      iexact Hslab
    isplitl [Hsb]; · iexact Hsb
    isplitl [Hss]; · iexact Hss
    iexists W'; isplitr
    · ipureintro; exact fun p hp => (hW' p hp).imp_right Or.inl
    · iexact HO

end

end Cert.Proof.KB.Oblig

end
-- ==== Proof.KValueB.lean ====
/-
  What the kernel program's final contents are at a buffer the program never writes.

  The chain of contents along @main (launch; the index array flattened; the lookup; the pooling region; the bias
  padded and laid out as a row; the projection region; the final slice) writes nine buffers and no other: the
  flattened indices, the looked-up rows, the pooled rows, the integer zero and its float conversion, the padded
  bias and its row form, the projection's array and its slice. An argument buffer is none of them, so walking
  the chain back from the final contents at an argument ends at the launch memory. The flattened index array is
  the index array in row-major order, so a range that holds of every index word holds of every flattened word.
  All of this holds at every float instance.
-/
import proofs.«204109_g84920093377010_cont_9to1_m_793_20_alg».proof.Proof.MainB
import Idealize.ShloMosaic.Lib.ValueLayout

noncomputable section

namespace Cert.Proof.KB.KValue

open Cert.Kernel Cert.Kernel.Gen Cert.Proof.KB.Launch Cert.Proof.KB.Main
open Idealize.ShloMosaic

variable {F : FTy → Type} [FloatOps F]
variable (m : (ℓ : Loc nD τ sig) → Buf (Elt F) ℓ) (d : Dev nD)

/-! ## A buffer the chain does not write ends as launched -/

section Walk
variable (a : Ref sig .tc)

/-- The flattening writes only the flat index array. -/
theorem W1_of_ne (h0 : a ≠ main_v0) : W1 m d (Proc.devRef .tc a) = m (d, Proc.devRef .tc a) := by
  unfold W1
  exact StableHlo.reshape_result_ne _ _ _ _ _ _ (W0 m d) h0

/-- The lookup writes only the looked-up rows. -/
theorem W2_of_ne' (h0 : a ≠ main_v0) (h1 : a ≠ main_v1) : W2 m d (Proc.devRef .tc a) = m (d, Proc.devRef .tc a) :=
  (W2_of_ne m d _ (StableHlo.devRef_ne_of_ne h1)).trans (W1_of_ne m d a h0)

/-- The pooling region leaves every buffer but its two arrays as entered. -/
theorem W3_of_ne (h0 : a ≠ main_v0) (h1 : a ≠ main_v1) (hs : ∀ w, Pipeline.arrRef spec1 w ≠ a) :
    W3 m d (Proc.devRef .tc a) = m (d, Proc.devRef .tc a) := by
  unfold W3
  exact (Cert.Proof.KB.Regions.exit1_of_ne (U := UU) (W2 m) d a hs).trans (W2_of_ne' m d a h0 h1)

/-- The four host operations before the projection write only the integer zero, its conversion, the padded
    bias and its row form. -/
theorem W4_of_ne (hc : a ≠ main_c) (hv : a ≠ main_call0_v0) (h3 : a ≠ main_v3) (h4 : a ≠ main_v4) :
    W4 m d (Proc.devRef .tc a) = W3 m d (Proc.devRef .tc a) := by
  unfold W4
  exact (StableHlo.reshape_result_ne _ _ _ _ _ _ _ h4).trans ((StableHlo.binary_result_ne _ _ _ _ _ _ _ _ h3).trans
    ((StableHlo.unary_result_ne _ _ _ _ _ _ hv).trans (StableHlo.nullary_result_ne _ _ _ _ hc)))

/-- The projection region's exit contents differ from its entry contents only at its output array, and the
    slice writes only its result. -/
theorem FQ_of_ne {Wf : Valuation τ sig (Elt F)} (h : FQ m d Wf) (h5 : a ≠ main_v5) (h6 : a ≠ main_v6) :
    Wf (Proc.devRef .tc a) = W4 m d (Proc.devRef .tc a) := by
  obtain ⟨W5, hrest, -, rfl⟩ := h
  exact (StableHlo.unary_result_ne _ _ _ _ _ W5 h6).trans (hrest _ (StableHlo.devRef_ne_of_ne h5))

/-- A buffer that is none of the nine the chain writes ends at the launch memory. -/
theorem FQ_unwritten {Wf : Valuation τ sig (Elt F)} (h : FQ m d Wf) (h0 : a ≠ main_v0) (h1 : a ≠ main_v1)
    (hs : ∀ w, Pipeline.arrRef spec1 w ≠ a) (hc : a ≠ main_c) (hv : a ≠ main_call0_v0) (h3 : a ≠ main_v3)
    (h4 : a ≠ main_v4) (h5 : a ≠ main_v5) (h6 : a ≠ main_v6) : Wf (Proc.devRef .tc a) = m (d, Proc.devRef .tc a) :=
  (FQ_of_ne m d a h h5 h6).trans ((W4_of_ne m d a hc hv h3 h4).trans (W3_of_ne m d a h0 h1 hs))

end Walk

/-! ## The four arguments -/

section Args
variable {m d} {Wf : Valuation τ sig (Elt F)}

theorem FQ_arg0 (h : FQ m d Wf) : Wf (Proc.devRef .tc main_arg0) = m ((SparseCore.T d).loc main_arg0) :=
  FQ_unwritten m d main_arg0 h (by decide) (by decide) (by decide) (by decide) (by decide) (by decide) (by decide) (by decide) (by decide)
theorem FQ_arg1 (h : FQ m d Wf) : Wf (Proc.devRef .tc main_arg1) = m ((SparseCore.T d).loc main_arg1) :=
  FQ_unwritten m d main_arg1 h (by decide) (by decide) (by decide) (by decide) (by decide) (by decide) (by decide) (by decide) (by decide)
theorem FQ_arg2 (h : FQ m d Wf) : Wf (Proc.devRef .tc main_arg2) = m ((SparseCore.T d).loc main_arg2) :=
  FQ_unwritten m d main_arg2 h (by decide) (by decide) (by decide) (by decide) (by decide) (by decide) (by decide) (by decide) (by decide)
theorem FQ_arg3 (h : FQ m d Wf) : Wf (Proc.devRef .tc main_arg3) = m ((SparseCore.T d).loc main_arg3) :=
  FQ_unwritten m d main_arg3 h (by decide) (by decide) (by decide) (by decide) (by decide) (by decide) (by decide) (by decide) (by decide)

end Args

/-! ## The flat index array -/

/-- The flat index array is the index array in row-major order. -/
theorem W1_xf_eq : W1 m d xf' = shapeCast S81920 (m ((SparseCore.T d).loc main_arg0)) shapeCasts_S4096x20_S81920 :=
  StableHlo.reshape_result main_arg0 main_v0 rfl shapeCasts_S4096x20_S81920 _ _ (W0 m d)

/-- The flat index array at position 20·r + j is the index array at (r, j). -/
theorem W1_xf_apply (r : Fin 4096) (j : Fin 20) (h : 20 * r.val + j.val < 81920) :
    W1 m d xf' (ValueIdx.ix1 ⟨20 * r.val + j.val, h⟩) = m ((SparseCore.T d).loc main_arg0) (ValueIdx.ix2 r j) := by
  rw [W1_xf_eq]
  refine shapeCast_apply _ _ _ (ValueIdx.ix2 r j) ?_
  rw [Shape.rowMajor_val_two, Shape.rowMajor_val_one]
  show r.val * 20 + j.val = 20 * r.val + j.val
  omega

/-- Every word of the flat index array is a word of the index array: a range that holds of the one holds of
    the other. -/
theorem W1_range (hx : ∀ i, (m ((SparseCore.T d).loc main_arg0) i).toNat < 100000) :
    ∀ i, (W1 m d xf' i).toNat < 100000 := by
  intro i
  rw [W1_xf_eq]
  unfold shapeCast
  exact hx _

end Cert.Proof.KB.KValue

end
-- ==== Proof.FinalB.lean ====
/-
  The kernel program's run and what it gives the claim: every weakly fair execution of @main on the TensorCore and
  of the lookup on the SparseCores terminates without a fault, the four argument arrays end as launched, and the
  result array ends at the slice of what the projection region left.
-/
import proofs.«204109_g84920093377010_cont_9to1_m_793_20_alg».proof.Proof.HMainB
import proofs.«204109_g84920093377010_cont_9to1_m_793_20_alg».proof.Proof.ObligB
import proofs.«204109_g84920093377010_cont_9to1_m_793_20_alg».proof.Proof.KValueB
import proofs.«204109_g84920093377010_cont_9to1_m_793_20_alg».proof.Proof.PreDecode
import proofs.«204109_g84920093377010_cont_9to1_m_793_20_alg».proof.Defs

noncomputable section

namespace Cert.Proof.KB.Final

open Cert.Kernel Cert.Kernel.Gen Cert.Proof.KB.Launch Cert.Proof.KB.Main

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- What a final state is known to hold on device d: the unscoped buffers at contents of the known kind. -/
def fq (d : Dev nD) (s' : Phys nD τ sig (Elt F)) : Prop :=
  ∃ Wf : Valuation τ sig (Elt F), FQ m d Wf ∧ ∀ b ∈ Pipeline.ucRefs τ sig, s'.mem.mem ((d, b) : Loc nD τ sig) = Wf b

theorem hfin (d : Dev nD) (s' : Phys nD τ sig (Elt F)) : iprop(FIN m d ∗ SI s') ⊢ (⌜fq m d s'⌝ : sProp 𝕄) := by
  unfold FIN
  iintro ⟨⟨%Wf, %hWf, Hh⟩, HSI⟩
  unfold StableHlo.held
  ihave H := (pointsTo_read_all (Pipeline.ucRefs τ sig) (fun b => ((d, b) : Loc nD τ sig)) Wf s') $$ [Hh HSI]
  · isplitl [Hh] <;> iassumption
  icases H with ⟨%h, -⟩
  ipureintro; exact ⟨Wf, hWf, h⟩

def QC : PUnit × MemSt nD τ sig (Elt F) → Prop := fun r =>
  ∀ c : Dev nD, ∃ Wf : Valuation τ sig (Elt F), FQ m c Wf ∧ ∀ b ∈ Pipeline.ucRefs τ sig, r.2.mem ((c, b) : Loc nD τ sig) = Wf b

theorem run_main [∀ e, Nonempty (Elt F e)] (hx : ∀ (d : Dev nD) i, (m ((SparseCore.T d).loc main_arg0) i).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => Cert.Proof.KB.Oblig.tileObl _ _ _ facts (fun d => Cert.Proof.KB.KValue.W1_range m d (hx d)))
    (fun q _ => match q with | 0 => SparseCore.Cfg.VecSplit.of_plain (vecSplit _ _ _ _))
    m ρ main (fun d => G (F := F) d) (FIN m) (u₀ (F := F)) (sep_elim_left.trans (hu₀ _ _ _ _)) (hmain m ρ) (fq m) (hfin m) (QC m) (fun _ h => h)

/-- The run with the four arguments read back: each ends as launched. -/
theorem run_args [∀ e, Nonempty (Elt F e)] (hx : ∀ (d : Dev nD) i, (m ((SparseCore.T d).loc main_arg0) i).toNat < 100000) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono (fun r h c => by
    obtain ⟨Wf, hWf, hmem⟩ := h c
    exact ⟨(hmem _ (mem_uc main_arg0 (by decide))).trans (Cert.Proof.KB.KValue.FQ_arg0 hWf),
      (hmem _ (mem_uc main_arg1 (by decide))).trans (Cert.Proof.KB.KValue.FQ_arg1 hWf),
      (hmem _ (mem_uc main_arg2 (by decide))).trans (Cert.Proof.KB.KValue.FQ_arg2 hWf),
      (hmem _ (mem_uc main_arg3 (by decide))).trans (Cert.Proof.KB.KValue.FQ_arg3 hWf)⟩) (run_main m ρ hx)

end Cert.Proof.KB.Final

end
-- ==== Proof.lean ====
/-
  The five claims about the embedding-lookup kernel and its reference.

  The kernel looks up, on the two SparseCores' thirty-two vector subcores, the table rows named by the 81920 index
  words (each subcore twenty chunks of 128 rows: the words copied in, the rows gathered, the rows copied out), pools
  every twenty consecutive rows on the TensorCore (their sum times the named constant 1/20), and projects the pooled
  rows on the weight matrix in 98 column blocks, adding the bias; a final slice drops the padding columns of the
  last block. The reference takes the rows with jnp.take, means them (sum divided by 20) and multiplies by the
  transposed weights, adding the bias. Under the precondition every index word lies in [0, 99999], so the take's
  out-of-range mask never applies, and at the ideal instance both programs compute, entry (r, v),
  Σ_e ((Σ_j table[x[r, j], e]) · (1/20)) · W[v, e] + b[v]: the division by 20 is the product with 1/20 on every
  extended real, and no other law than the definitions is used, so finiteness of the float inputs is never needed.

  Frames: each program runs to the end without a fault and leaves its four arguments as launched. For the kernel
  program that is the launch of the SparseCore call beside @main on the TensorCore, with the two TensorCore kernel
  regions entered from inside it; it is proved once, generic in the float instance, and read at the word-level
  instance and at the ideal one. The one rewrite of the ideal pass is the named constant 1/20.
-/
import proofs.«204109_g84920093377010_cont_9to1_m_793_20_alg».proof.Defs
import proofs.«204109_g84920093377010_cont_9to1_m_793_20_alg».proof.Proof.Gen.Kernel
import proofs.«204109_g84920093377010_cont_9to1_m_793_20_alg».proof.Proof.Gen.Kernel.Skeleton
import proofs.«204109_g84920093377010_cont_9to1_m_793_20_alg».proof.Proof.Gen.Kernel.Launch
import proofs.«204109_g84920093377010_cont_9to1_m_793_20_alg».proof.Proof.Gen.Kernel.Regions
import proofs.«204109_g84920093377010_cont_9to1_m_793_20_alg».proof.Proof.Gen.Kernel.Points
import proofs.«204109_g84920093377010_cont_9to1_m_793_20_alg».proof.Proof.Gen.KernelIdeal
import proofs.«204109_g84920093377010_cont_9to1_m_793_20_alg».proof.Proof.Gen.KernelIdeal.Skeleton
import proofs.«204109_g84920093377010_cont_9to1_m_793_20_alg».proof.Proof.Gen.KernelIdeal.Launch
import proofs.«204109_g84920093377010_cont_9to1_m_793_20_alg».proof.Proof.Gen.KernelIdeal.Regions
import proofs.«204109_g84920093377010_cont_9to1_m_793_20_alg».proof.Proof.Gen.KernelIdeal.Points
import proofs.«204109_g84920093377010_cont_9to1_m_793_20_alg».proof.Proof.Gen.ReferenceIdeal
import proofs.«204109_g84920093377010_cont_9to1_m_793_20_alg».proof.Proof.Gen.Pre_input_domain
import proofs.«204109_g84920093377010_cont_9to1_m_793_20_alg».proof.Proof.PreDecode
import proofs.«204109_g84920093377010_cont_9to1_m_793_20_alg».proof.Proof.RefValue
import proofs.«204109_g84920093377010_cont_9to1_m_793_20_alg».proof.Proof.FinalI
import proofs.«204109_g84920093377010_cont_9to1_m_793_20_alg».proof.Proof.FinalValueI
import proofs.«204109_g84920093377010_cont_9to1_m_793_20_alg».proof.Proof.FinalB
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_input_domain := Cert.Pre_input_domain.Gen.facts) :=
  fun m ρ hpre => Cert.Proof.KB.Final.run_args (F := Bits) m ρ (fun d => Cert.PreDecode.index_lt _ _ _ _ (hpre d))

/-- The idealized kernel program runs and keeps its arguments. -/
theorem frame_ki : Cert.frame_KernelIdeal (hKernelIdeal := Cert.KernelIdeal.Gen.facts) (hPre_input_domain := Cert.Pre_input_domain.Gen.facts) :=
  fun m ρ hpre => Cert.Proof.KI.Final.run_args (F := Ideal) m ρ (fun d => Cert.PreDecode.index_lt _ _ _ _ (hpre d))

/-- The ideal pass's one rewrite: the constant 0x3D4CCCCD, named "inv_20", is 1/20 at the ideal instance. -/
theorem preserves : Cert.preserves_Kernel_KernelIdeal :=
  IdealRules.named_const.statement Cert.KernelIdeal.κ "inv_20" .f32 0x3D4CCCCD#32 ((1 / 20 : ℝ) : EReal) rfl

/-- Both idealized programs end with the result array at the one function of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hx : ∀ (d : Dev Cert.KernelIdeal.nD) i, (m ((d.tc : Thread Cert.KernelIdeal.nD Cert.KernelIdeal.τ).loc Cert.KernelIdeal.main_arg0) i).toNat < 100000 :=
    fun d => Cert.PreDecode.index_lt _ _ _ _ (hpre d)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Proof.KI.Final.run_value m ρ hx, ?_⟩
  refine (θ_run (Cert.ReferenceIdeal.defs (F := Ideal)) _ _).mono (fun r h c => ?_)
    (Cert.ReferenceIdeal.RefValue.run_spec m' ρ' (fun c i => by rw [(hagree c).1]; exact hx c i))
  obtain ⟨h0, h1, h2, h3, h4⟩ := h c
  refine ⟨?_, h1, h2, h3, h4⟩
  rw [h0, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_k, frame_ki, Cert.ReferenceIdeal.RefRun.frame_ri, preserves, algebraic⟩

end Cert.Proof

end
